-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S32x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S4096x4096 .f32) (main_arg2 : FVec F S128x64 .f32) (main_arg3 : FVec F S64 .f32) (main_arg4 : FVec F S64x32 .f32) (main_arg5 : FVec F S32 .f32) (main_arg6 : FVec F S32x64 .f32) (main_arg7 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S4096x128 : Shape := ⟨2, ![4096, 128]⟩
abbrev S4096x4096 : Shape := ⟨2, ![4096, 4096]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S1x64 : Shape := ⟨2, ![1, 64]⟩
abbrev S1x32 : Shape := ⟨2, ![1, 32]⟩
abbrev S4096x1 : Shape := ⟨2, ![4096, 1]⟩
abbrev S4096x64 : Shape := ⟨2, ![4096, 64]⟩
abbrev S512x4096 : Shape := ⟨2, ![512, 4096]⟩
abbrev S512x128 : Shape := ⟨2, ![512, 128]⟩
abbrev S512x1 : Shape := ⟨2, ![512, 1]⟩
abbrev S512x64 : Shape := ⟨2, ![512, 64]⟩
abbrev S512 : Shape := ⟨1, ![512]⟩
abbrev S4096x32 : Shape := ⟨2, ![4096, 32]⟩
abbrev S512x32 : Shape := ⟨2, ![512, 32]⟩

abbrev nBuf : Space → Nat
  | .hbm => 16
  | .vmem => 29
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x64, .f32⟩
  | .hbm, ⟨9, _⟩ => ⟨S1x32, .f32⟩
  | .hbm, ⟨10, _⟩ => ⟨S1x64, .f32⟩
  | .hbm, ⟨11, _⟩ => ⟨S4096x1, .f32⟩
  | .hbm, ⟨12, _⟩ => ⟨S4096x64, .f32⟩
  | .hbm, ⟨13, _⟩ => ⟨S4096x32, .f32⟩
  | .hbm, ⟨14, _⟩ => ⟨S4096x64, .f32⟩
  | .hbm, ⟨15, _⟩ => ⟨S64x32, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S128x64, .f32⟩
  | .local _ .vmem, ⟨5, _⟩ => ⟨S512x1, .f32⟩
  | .local _ .vmem, ⟨6, _⟩ => ⟨S512x1, .f32⟩
  | .local _ .vmem, ⟨7, _⟩ => ⟨S512x64, .f32⟩
  | .local _ .vmem, ⟨8, _⟩ => ⟨S512x64, .f32⟩
  | .local _ .vmem, ⟨9, _⟩ => ⟨S512x4096, .f32⟩
  | .local _ .vmem, ⟨10, _⟩ => ⟨S512x4096, .f32⟩
  | .local _ .vmem, ⟨11, _⟩ => ⟨S4096x64, .f32⟩
  | .local _ .vmem, ⟨12, _⟩ => ⟨S512x1, .f32⟩
  | .local _ .vmem, ⟨13, _⟩ => ⟨S512x1, .f32⟩
  | .local _ .vmem, ⟨14, _⟩ => ⟨S1x64, .f32⟩
  | .local _ .vmem, ⟨15, _⟩ => ⟨S64x32, .f32⟩
  | .local _ .vmem, ⟨16, _⟩ => ⟨S512x32, .f32⟩
  | .local _ .vmem, ⟨17, _⟩ => ⟨S512x32, .f32⟩
  | .local _ .vmem, ⟨18, _⟩ => ⟨S512x4096, .f32⟩
  | .local _ .vmem, ⟨19, _⟩ => ⟨S512x4096, .f32⟩
  | .local _ .vmem, ⟨20, _⟩ => ⟨S4096x32, .f32⟩
  | .local _ .vmem, ⟨21, _⟩ => ⟨S512x1, .f32⟩
  | .local _ .vmem, ⟨22, _⟩ => ⟨S512x1, .f32⟩
  | .local _ .vmem, ⟨23, _⟩ => ⟨S1x32, .f32⟩
  | .local _ .vmem, ⟨24, _⟩ => ⟨S32x64, .f32⟩
  | .local _ .vmem, ⟨25, _⟩ => ⟨S1x64, .f32⟩
  | .local _ .vmem, ⟨26, _⟩ => ⟨S512x64, .f32⟩
  | .local _ .vmem, ⟨27, _⟩ => ⟨S512x64, .f32⟩
  | .local _ .vmem, ⟨28, _⟩ => ⟨S64x32, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_3 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def k2_off1 (i : grid2.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_3 : Index := 0#32
  ![v5.toNat, 0]
def k2_cond1 (i : grid2.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_19 : BitVec 32 := 0#32
  let v38 : BitVec 1 := Scalar.cmpi .ne v37 c0_i32_19
  v38

def k2_cond2 (i : grid2.Coords) : BitVec 1 :=
  let arg0 : BitVec 32 := BitVec.ofNat 32 (i 0).val
  let c0_i32_20 : BitVec 32 := 0#32
  let v39 : BitVec 1 := Scalar.cmpi .sgt arg0 c0_i32_20
  let v40 : BitVec 32 := Scalar.extui v39
  let c0_i32_21 : BitVec 32 := 0#32
  let v41 : BitVec 1 := Scalar.cmpi .ne v40 c0_i32_21
  v41

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S64_S1x64 : S64.ShapeCasts S1x64
  shapeCasts_S32_S1x32 : S32.ShapeCasts S1x32
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x128_S512x128_0_0 : ∀ a, (![0, 0] : Fin 2 → Nat) a + S512x128.size a ≤ S512x128.size a
  h_S512x128 : 0 < S512x128.numel
  inb_S128x64_S128x64_0_0 : ∀ a, (![0, 0] : Fin 2 → Nat) a + S128x64.size a ≤ S128x64.size a
  h_S128x64 : 0 < S128x64.numel
  broadcasts_S512x1_S512x64 : S512x1.Broadcasts S512x64
  inb_S512x64_S512x64_0_0 : ∀ a, (![0, 0] : Fin 2 → Nat) a + S512x64.size a ≤ S512x64.size a
  h_S512x64 : 0 < S512x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S512x64_S512x64 : S512x64.ShapeCasts S512x64
  shapeCasts_S512x1_S512x1 : S512x1.ShapeCasts S512x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  broadcasts_S512x1_S512x32 : S512x1.Broadcasts S512x32
  inb_S512x32_S512x32_0_0 : ∀ a, (![0, 0] : Fin 2 → Nat) a + S512x32.size a ≤ S512x32.size a
  h_S512x32 : 0 < S512x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x64_S32x64_0_0 : ∀ a, (![0, 0] : Fin 2 → Nat) a + S32x64.size a ≤ S32x64.size a
  h_S32x64 : 0 < S32x64.numel
  reduces_S512x64_S512 : S512x64.Reduces [1] S512
  shapeCasts_S64x32_S64x32 : S64x32.ShapeCasts S64x32
  dot_S512x128_S128x64_S512x64_1_0_0_1_n_n_wf : DotDims.WF S512x128 S128x64 S512x64 [1] [0] [0] [1] [] []
  dot_S512x4096_S4096x64_S512x64_1_0_0_1_n_n_wf : DotDims.WF S512x4096 S4096x64 S512x64 [1] [0] [0] [1] [] []
  dot_S512x64_S64x32_S512x32_1_0_0_1_n_n_wf : DotDims.WF S512x64 S64x32 S512x32 [1] [0] [0] [1] [] []
  dot_S512x4096_S4096x32_S512x32_1_0_0_1_n_n_wf : DotDims.WF S512x4096 S4096x32 S512x32 [1] [0] [0] [1] [] []
  dot_S512x32_S32x64_S512x64_1_0_0_1_n_n_wf : DotDims.WF S512x32 S32x64 S512x64 [1] [0] [0] [1] [] []
  dot_S512x64_S512x32_S64x32_0_0_1_1_n_n_wf : DotDims.WF S512x64 S512x32 S64x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S4096x64.size a
  hwx0_4 : ∀ i : grid0.Coords, EltTy.bits .f32 = 32 ∨ (Rect.block (s := S4096x64) S512x64.size (cc0_transform_4 i) (hinb0_4 i)).WholeWords (EltTy.packing .f32)
  hrank1 : 0 < grid1.rank
  k1_off1_inb : ∀ i : grid1.Coords, ∀ a, (k1_off1 i) a + S512x64.size a ≤ S4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .f32 = 32 ∨ (Rect.block (s := S4096x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x32.size a ≤ S4096x32.size a
  hwx1_5 : ∀ i : grid1.Coords, EltTy.bits .f32 = 32 ∨ (Rect.block (s := S4096x32) S512x32.size (cc1_transform_5 i) (hinb1_5 i)).WholeWords (EltTy.packing .f32)
  hrank2 : 0 < grid2.rank
  k2_off1_inb : ∀ i : grid2.Coords, ∀ a, (k2_off1 i) a + S512x32.size a ≤ S4096x32.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x32.size a ≤ S4096x32.size a
  hwx2_1 : ∀ i : grid2.Coords, EltTy.bits .f32 = 32 ∨ (Rect.block (s := S4096x32) S4096x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S4096x64.size a
  hwx2_6 : ∀ i : grid2.Coords, EltTy.bits .f32 = 32 ∨ (Rect.block (s := S4096x64) S512x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x32.size a ≤ S64x32.size a
  hwx2_7 : ∀ i : grid2.Coords, EltTy.bits .f32 = 32 ∨ (Rect.block (s := S64x32) S64x32.size (cc2_transform_7 i) (hinb2_7 i)).WholeWords (EltTy.packing .f32)

variable [Facts₀]

def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x64_S512x64_1_0_0_1_n_n : DotDims S512x32 S32x64 S512x64 where
  lhsContracting := [1]
  rhsContracting := [0]
  lhsNonContracting := [0]
  rhsNonContracting := [1]
  lhsBatch := []
  rhsBatch := []
  wf := dot_S512x32_S32x64_S512x64_1_0_0_1_n_n_wf
def dot_S512x64_S512x32_S64x32_0_0_1_1_n_n : DotDims S512x64 S512x32 S64x32 where
  lhsContracting := [0]
  rhsContracting := [0]
  lhsNonContracting := [1]
  rhsNonContracting := [1]
  lhsBatch := []
  rhsBatch := []
  wf := dot_S512x64_S512x32_S64x32_0_0_1_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S4096x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S512x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S64x32.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond1 i == 1#1) && !(k2_cond2 i == 1#1) | ⟨_ + 8, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩
abbrev S64x4096 : Shape := ⟨2, ![64, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .i1⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x64, .f32⟩
  | .hbm, ⟨36, _⟩ => ⟨S4096x64, .f32⟩
  | .hbm, ⟨37, _⟩ => ⟨S1x64, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S4096x32, .f32⟩
  | .hbm, ⟨44, _⟩ => ⟨S4096x32, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S_, .f32⟩
  | .hbm, ⟨49, _⟩ => ⟨S4096x32, .f32⟩
  | .hbm, ⟨50, _⟩ => ⟨S4096x32, .f32⟩
  | .hbm, ⟨51, _⟩ => ⟨S4096x64, .f32⟩
  | .hbm, ⟨52, _⟩ => ⟨S1x64, .f32⟩
  | .hbm, ⟨53, _⟩ => ⟨S4096x64, .f32⟩
  | .hbm, ⟨54, _⟩ => ⟨S4096x64, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x64, .f32⟩
  | .hbm, ⟨68, _⟩ => ⟨S4096x64, .f32⟩
  | .hbm, ⟨69, _⟩ => ⟨S64x4096, .f32⟩
  | .hbm, ⟨70, _⟩ => ⟨S64x32, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call2_cst : Ref sig .tc := ⟨.hbm, 48, rfl⟩
abbrev main_call2_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  reducesTo_S4096x64_S4096_d1 : S4096x64.ReducesTo [1] S4096
  bcast_S4096x1_S4096x64_0_1 : S4096x1.BroadcastsInDim S4096x64 (![0, 1] : Fin 2 → Fin S4096x64.rank)
  transposes_S4096x64_S64x4096_1_0 : S4096x64.Transposes [1, 0] S64x4096
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x32_S4096x32_1_0_0_1_n_n_wf : DotDims.WF S4096x64 S64x32 S4096x32 [1] [0] [0] [1] [] []
  dot_S4096x4096_S4096x32_S4096x32_1_0_0_1_n_n_wf : DotDims.WF S4096x4096 S4096x32 S4096x32 [1] [0] [0] [1] [] []
  dot_S4096x32_S32x64_S4096x64_1_0_0_1_n_n_wf : DotDims.WF S4096x32 S32x64 S4096x64 [1] [0] [0] [1] [] []
  dot_S64x4096_S4096x32_S64x32_1_0_0_1_n_n_wf : DotDims.WF S64x4096 S4096x32 S64x32 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S64x4096_S4096x32_S64x32_1_0_0_1_n_n : DotDims S64x4096 S4096x32 S64x32 where
  lhsContracting := [1]
  rhsContracting := [0]
  lhsNonContracting := [0]
  rhsNonContracting := [1]
  lhsBatch := []
  rhsBatch := []
  wf := dot_S64x4096_S4096x32_S64x32_1_0_0_1_n_n_wf

class Facts : Prop extends Facts₀ where

variable [Facts]
-- ==== Proof.KFrame0.lean ====
/- The program as printed over machine words (`Cert.Kernel`). Region 0 of its @main (the first kernel, grid of 8 row blocks), at ANY contents `V` of the core's buffers on entry.

   The kernel reads three input windows — window 0: a 512x4096 row block of the adjacency matrix (`main_arg1`);
   window 1: the matching 512x128 row block of the features (`main_arg0`); window 2: the whole 128x64 first weight
   matrix (`main_arg2`, one block for every point, fetched once) — and stores two output windows whole:
   window 3 (`main_v3_0`, 512x1): the payload `k0_pay1` of the adjacency block (the inverse square root of the
   row degree plus one, zero where that is not positive); window 4 (`main_v3_1`, 512x64): the payload `k0_pay2`
   (that column times the product of the feature block and the weights).

   Stated here: each window's block at a grid point (`iblk0`); what the body finds in an input's staging buffer
   (its block, fetched at that point or not: `before0_w`); what the body leaves in each output's staging buffer as
   a function of the input blocks (`out0_3`, `out0_4`); the body's triple (`sound_kernel0`); the proof data
   `dat0` and the body obligation `body_obligation0` of the pipeline. Generic in the float model `F`. -/
import proofs.«122962_g11562051960852_week1_w4_899_2_alg».proof.Proof.Gen.Kernel.Launch
import proofs.«122962_g11562051960852_week1_w4_899_2_alg».proof.Proof.Gen.Kernel.Skeleton
import proofs.«122962_g11562051960852_week1_w4_899_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 and 4096: the structural check recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is an input, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2, whose block index never moves: it is fetched at the first point only, and at every
    later point the buffer still holds the first point's block, which is that point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole of its staging buffer -/

abbrev r0_0 : Rect S512x4096 := Rect.unit (s := S512x4096) ![0, 0] S512x4096.size inb_S512x4096_S512x4096_0_0
abbrev r0_1 : Rect S512x128 := Rect.unit (s := S512x128) ![0, 0] S512x128.size inb_S512x128_S512x128_0_0
abbrev r0_2 : Rect S128x64 := Rect.unit (s := S128x64) ![0, 0] S128x64.size inb_S128x64_S128x64_0_0
abbrev r0_3 : Rect S512x1 := Rect.unit (s := S512x1) ![0, 0] S512x1.size inb_S512x1_S512x1_0_0
abbrev r0_4 : Rect S512x64 := Rect.unit (s := S512x64) ![0, 0] S512x64.size inb_S512x64_S512x64_0_0

/-! ## What the body leaves in each output window's buffer -/

/-- Window 3's staging buffer after the body, from the adjacency block `x0`: its one store, of `k0_pay1`. -/
def out0_3 (x0 : Vec F S512x4096 .f32) : Vec F S512x1 .f32 :=
  View.canon [⟨r0_3, k0_pay1 (View.ld x0 r0_0)⟩]

/-- Window 4's staging buffer after the body, from the adjacency block `x0`, the feature block `x1` and the
    weights `x2`: its one store, of `k0_pay2`. -/
def out0_4 (x0 : Vec F S512x4096 .f32) (x1 : Vec F S512x128 .f32) (x2 : Vec F S128x64 .f32) : Vec F S512x64 .f32 :=
  View.canon [⟨r0_4, k0_pay2 (View.ld x0 r0_0) (View.ld x1 r0_1) (View.ld x2 r0_2)⟩]

/-- The one store of window 3 is of the whole buffer, so it covers it. -/
theorem cover0_3 (p0 : Vec F S512x1 .f32) (y : S512x1.Idx) :
    ∃ pc ∈ ([⟨r0_3, p0⟩] : List (View.Piece (Elt F) S512x1 .f32)), y ∈ pc.1.set :=
  View.cover_of_tiled [⟨r0_3, p0⟩] S512x1.size (by rfl) y

/-- The one store of window 4 is of the whole buffer, so it covers it. -/
theorem cover0_4 (p0 : Vec F S512x64 .f32) (y : S512x64.Idx) :
    ∃ pc ∈ ([⟨r0_4, p0⟩] : List (View.Piece (Elt F) S512x64 .f32)), y ∈ pc.1.set :=
  View.cover_of_tiled [⟨r0_4, p0⟩] S512x64.size (by rfl) y

/-! ## The body's triple -/

set_option maxHeartbeats 1000000 in
/-- The kernel body on whole staging memrefs, the inputs' at read contents `x0 x1 x2` and the outputs' at anything,
    runs to the continuation holding the inputs' as they were and the outputs' at `out0_3`, `out0_4` of the inputs':
    the body loads each buffer whole (the outputs' too, before storing them: those values are not used) and stores each
    output whole. -/
theorem sound_kernel0 (c : Dev nD) (E : Set ℕ) (i : grid0.Coords)
    (arg1 : Memref sig .tc .vmem S512x4096 .f32) (harg1 : arg1.IsWhole) (arg2 : Memref sig .tc .vmem S512x128 .f32) (harg2 : arg2.IsWhole)
    (arg3 : Memref sig .tc .vmem S128x64 .f32) (harg3 : arg3.IsWhole) (arg4 : Memref sig .tc .vmem S512x1 .f32) (harg4 : arg4.IsWhole)
    (arg5 : Memref sig .tc .vmem S512x64 .f32) (harg5 : arg5.IsWhole)
    (x0 : Vec F S512x4096 .f32) (x1 : Vec F S512x128 .f32) (x2 : Vec F S128x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__pass_a_kernel i arg1 harg1 arg2 harg2 arg3 harg3 arg4 harg4 arg5 harg5) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at point
    `t` each input's buffer at its block and each output's at `out0_w` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_w`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrame1.lean ====
/- The program as printed over machine words (`Cert.Kernel`). Region 1 of its @main (the second kernel, grid of 8 row blocks), at ANY contents `V` of the core's buffers on entry.

   The kernel reads five input windows — window 0: a 512x4096 row block of the adjacency matrix (`main_arg1`);
   window 1: the WHOLE 4096x64 first-layer product (`main_v3_1`, one block for every point, fetched once); window 2:
   the matching 512x1 block of the scaling column (`main_v3_0`); window 3: the first bias as a 1x64 row (`main_v0`,
   one block); window 4: the 64x32 second weight matrix (`main_arg4`, one block) — and stores one output window
   whole: window 5 (`main_v4`, 512x32), the payload `k1_pay1`. Besides the whole of window 1 the body loads the 512
   rows of window 1 that start at row 512·(grid coordinate) — the rows of the point's own row block —, so what it
   leaves depends on the grid coordinate `i` as well as on the input blocks: `out1_5 i`.

   Stated here: each window's block at a grid point (`iblk1`); what the body finds in an input's staging buffer
   (`before1_w`); what it leaves in the output's (`out1_5`); the body's triple (`sound_kernel1`); the proof data
   `dat1` and the body obligation `body_obligation1` of the pipeline. Generic in the float model `F`. -/
import proofs.«122962_g11562051960852_week1_w4_899_2_alg».proof.Proof.Gen.Kernel.Launch
import proofs.«122962_g11562051960852_week1_w4_899_2_alg».proof.Proof.Gen.Kernel.Skeleton
import proofs.«122962_g11562051960852_week1_w4_899_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 and 4096: the structural check recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`): the window is an input, uncut, never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, whose block index never moves: fetched at the first point only, and at every later
    point the buffer still holds the first point's block, which is that point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (a block per point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (one block, fetched once). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (one block, fetched once). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each through the whole of its staging buffer, but for one load of 512 rows of window 1 -/

abbrev r1_0 : Rect S512x4096 := Rect.unit (s := S512x4096) ![0, 0] S512x4096.size inb_S512x4096_S512x4096_0_0
abbrev r1_1 : Rect S4096x64 := Rect.unit (s := S4096x64) ![0, 0] S4096x64.size inb_S4096x64_S4096x64_0_0
/-- The 512 rows of window 1 from row 512·(grid coordinate): the rows of the point's own row block. -/
abbrev r1_1own (i : grid1.Coords) : Rect S4096x64 := Rect.unit (s := S4096x64) (k1_off1 i) S512x64.size (k1_off1_inb i)
abbrev r1_2 : Rect S512x1 := Rect.unit (s := S512x1) ![0, 0] S512x1.size inb_S512x1_S512x1_0_0
abbrev r1_3 : Rect S1x64 := Rect.unit (s := S1x64) ![0, 0] S1x64.size inb_S1x64_S1x64_0_0
abbrev r1_4 : Rect S64x32 := Rect.unit (s := S64x32) ![0, 0] S64x32.size inb_S64x32_S64x32_0_0
abbrev r1_5 : Rect S512x32 := Rect.unit (s := S512x32) ![0, 0] S512x32.size inb_S512x32_S512x32_0_0

/-! ## What the body leaves in the output window's buffer -/

/-- Window 5's staging buffer after the body at grid coordinate `i`, from the input blocks: its one store, of
    `k1_pay1` of the adjacency block, the whole first-layer product, the product's own 512 rows, the scaling block,
    the bias row and the weights. -/
def out1_5 (i : grid1.Coords) (x0 : Vec F S512x4096 .f32) (x1 : Vec F S4096x64 .f32) (x2 : Vec F S512x1 .f32)
    (x3 : Vec F S1x64 .f32) (x4 : Vec F S64x32 .f32) : Vec F S512x32 .f32 :=
  View.canon [⟨r1_5, k1_pay1 (View.ld x0 r1_0) (View.ld x1 r1_1) (View.ld x1 (r1_1own i)) (View.ld x2 r1_2) (View.ld x3 r1_3) (View.ld x4 r1_4)⟩]

/-- The one store of window 5 is of the whole buffer, so it covers it. -/
theorem cover1_5 (p0 : Vec F S512x32 .f32) (y : S512x32.Idx) :
    ∃ pc ∈ ([⟨r1_5, p0⟩] : List (View.Piece (Elt F) S512x32 .f32)), y ∈ pc.1.set :=
  View.cover_of_tiled [⟨r1_5, p0⟩] S512x32.size (by rfl) y

/-! ## The body's triple -/

set_option maxHeartbeats 1000000 in
/-- The kernel body at grid coordinate `i` on whole staging memrefs, the inputs' at read contents `x0 … x4` and the
    output's at anything, runs to the continuation holding the inputs' as they were and the output's at `out1_5 i` of
    the inputs': the body loads each buffer whole (the output's too, before storing it: that value is not used), loads
    the own rows of window 1, and stores the output whole. -/
theorem sound_kernel1 (c : Dev nD) (E : Set ℕ) (i : grid1.Coords)
    (arg1 : Memref sig .tc .vmem S512x4096 .f32) (harg1 : arg1.IsWhole) (arg2 : Memref sig .tc .vmem S4096x64 .f32) (harg2 : arg2.IsWhole)
    (arg3 : Memref sig .tc .vmem S512x1 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S512x32 .f32) (harg6 : arg6.IsWhole)
    (x0 : Vec F S512x4096 .f32) (x1 : Vec F S4096x64 .f32) (x2 : Vec F S512x1 .f32) (x3 : Vec F S1x64 .f32) (x4 : Vec F S64x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 i x0 x1 x2 x3 x4)) -∗ K ⟨⟩))
      ⊢ wp frame (wpE (defs₀ (F := F)) Variants.none c none) E
          (cc1__pass_b_kernel i arg1 harg1 arg2 harg2 arg3 harg3 arg4 harg4 arg5 harg5 arg6 harg6) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the point's coordinates and the input blocks;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (grid1.coords t) (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's dues, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies at the
    point's coordinates; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KFrame2.lean ====
/-
  The program as printed over machine words (`Cert.Kernel`). Region 2 of the program (its third pass over the 8 row blocks of 512 rows), at any contents V of the core's buffers
  when the region is entered: the proof data and the body obligation of its pipeline.

  At point t the body reads the adjacency rows of block t (window 0), the whole of Z2 (window 1, and again at the
  point's own rows 512·t … 512·t + 511), the block's inverse square-root degrees (window 2), b2, Ws and bs
  (windows 3, 4, 5), and computes H2 = max (dis · (A·Z2 + Z2) + b2) 0 and the row-softmax S of H2·Ws + bs for the
  block's rows. It stores S into window 6's buffer (written back at every point), and into window 7's one buffer —
  the pooled output Sᵀ·H2, a single 64×32 block written back only at the last point — the block's contribution
  Sᵀ·H2 (512 rows) at the first point, and what the buffer held plus the contribution at every later point. So
  window 7's buffer after point t is the first t + 1 contributions added up in point order: a recursion on the
  point (acc2At), reset at point 0. One of the two conditionals holds at every point, so the window is live
  everywhere and each store covers its whole block: the contents after each point are a function of the point.
-/
import proofs.«122962_g11562051960852_week1_w4_899_2_alg».proof.Proof.Gen.Kernel.Launch
import proofs.«122962_g11562051960852_week1_w4_899_2_alg».proof.Proof.Gen.Kernel.Skeleton
import proofs.«122962_g11562051960852_week1_w4_899_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The grid conditions of region 2, decided over its 8 points -/

theorem hcond2_1 : ∀ t : Fin cfg2.N, k2_cond1 (grid2.coords t) = 1#1 ↔ t.val = 0 :=
  (by decide +kernel : ∀ t : Fin grid2.N, k2_cond1 (grid2.coords t) = 1#1 ↔ t.val = 0)

theorem hcond2_2 : ∀ t : Fin cfg2.N, k2_cond2 (grid2.coords t) = 1#1 ↔ 0 < t.val :=
  (by decide +kernel : ∀ t : Fin grid2.N, k2_cond2 (grid2.coords t) = 1#1 ↔ 0 < t.val)

theorem idle2_7_false : ∀ i : grid2.Coords, idle2 7 i = false := by decide +kernel

theorem idle2_7_live : ∀ i : cfg2.grid.Coords, cfg2.idle 7 i = false := fun i => idle2_7_false i

theorem idle2_7 (t : Fin cfg2.N) : cfg2.idle 7 (cfg2.grid.coords t) = false := idle2_7_live _

theorem hz2 : (![0, 0] : Fin 2 → Nat) = fun _ => 0 := by
  funext a; fin_cases a <;> rfl

section Regions
variable (V : (c : Dev nD) → (b : Ref sig .tc) → Buf (Elt F) ((c : Thread nD τ).loc b))

/-! # REGION 2 of @main: custom_call 2, the third pass (pipeline 2), at the entry contents V -/

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x4096 := Rect.unit (s := S512x4096) ![0, 0] S512x4096.size inb_S512x4096_S512x4096_0_0
abbrev r2_1 : Rect S4096x32 := Rect.unit (s := S4096x32) ![0, 0] S4096x32.size inb_S4096x32_S4096x32_0_0
/-- The rows 512·i … 512·i + 511 of the whole second operand: the point's own row block. -/
abbrev r2_1o (i : grid2.Coords) : Rect S4096x32 := Rect.unit (s := S4096x32) (k2_off1 i) S512x32.size (k2_off1_inb i)
abbrev r2_2 : Rect S512x1 := Rect.unit (s := S512x1) ![0, 0] S512x1.size inb_S512x1_S512x1_0_0
abbrev r2_3 : Rect S1x32 := Rect.unit (s := S1x32) ![0, 0] S1x32.size inb_S1x32_S1x32_0_0
abbrev r2_4 : Rect S32x64 := Rect.unit (s := S32x64) ![0, 0] S32x64.size inb_S32x64_S32x64_0_0
abbrev r2_5 : Rect S1x64 := Rect.unit (s := S1x64) ![0, 0] S1x64.size inb_S1x64_S1x64_0_0
abbrev r2_6 : Rect S512x64 := Rect.unit (s := S512x64) ![0, 0] S512x64.size inb_S512x64_S512x64_0_0
abbrev r2_7 : Rect S64x32 := Rect.unit (s := S64x32) ![0, 0] S64x32.size inb_S64x32_S64x32_0_0

/-! ## What the body leaves in each output window's buffer -/

/-- Window 6's staging buffer after the body, from the input windows' blocks and the grid coordinates: its one
    store, the row-softmax of the point's 512 rows. -/
def out2_6 (i : grid2.Coords) (x0 : Vec F S512x4096 .f32) (x1 : Vec F S4096x32 .f32) (x2 : Vec F S512x1 .f32) (x3 : Vec F S1x32 .f32)
    (x4 : Vec F S32x64 .f32) (x5 : Vec F S1x64 .f32) : Vec F S512x64 .f32 :=
  View.canon [⟨r2_6, k2_pay3 (View.ld x0 r2_0) (View.ld x1 r2_1) (View.ld x1 (r2_1o i)) (View.ld x2 r2_2) (View.ld x3 r2_3) (View.ld x4 r2_4) (View.ld x5 r2_5)⟩]

/-- The point's contribution to the pooled output: (softmax rows)ᵀ times (hidden rows), over the point's 512 rows. -/
def con2_7 (i : grid2.Coords) (x0 : Vec F S512x4096 .f32) (x1 : Vec F S4096x32 .f32) (x2 : Vec F S512x1 .f32) (x3 : Vec F S1x32 .f32)
    (x4 : Vec F S32x64 .f32) (x5 : Vec F S1x64 .f32) : Vec F S64x32 .f32 :=
  k2_pay4 (View.ld x0 r2_0) (View.ld x1 r2_1) (View.ld x1 (r2_1o i)) (View.ld x2 r2_2) (View.ld x3 r2_3) (View.ld x4 r2_4) (View.ld x5 r2_5)

/-- Window 7's staging buffer after the body at the first point: the contribution stored. -/
def out2_7A (i : grid2.Coords) (x0 : Vec F S512x4096 .f32) (x1 : Vec F S4096x32 .f32) (x2 : Vec F S512x1 .f32) (x3 : Vec F S1x32 .f32)
    (x4 : Vec F S32x64 .f32) (x5 : Vec F S1x64 .f32) : Vec F S64x32 .f32 :=
  View.canon [⟨r2_7, con2_7 i x0 x1 x2 x3 x4 x5⟩]

/-- Window 7's staging buffer after the body at a later point: what it held plus the contribution. -/
def out2_7B (i : grid2.Coords) (x0 : Vec F S512x4096 .f32) (x1 : Vec F S4096x32 .f32) (x2 : Vec F S512x1 .f32) (x3 : Vec F S1x32 .f32)
    (x4 : Vec F S32x64 .f32) (x5 : Vec F S1x64 .f32) (x7 : Vec F S64x32 .f32) : Vec F S64x32 .f32 :=
  View.canon [⟨r2_7, k2_pay1 (con2_7 i x0 x1 x2 x3 x4 x5) (View.ld x7 r2_7)⟩]

theorem out2_7A_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) : out2_7A i x0 x1 x2 x3 x4 x5 = con2_7 i x0 x1 x2 x3 x4 x5 := by
  unfold out2_7A; exact View.canon_unit_zero hz2 _ _

theorem out2_7B_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) (x7 : Vec F S64x32 .f32) :
    out2_7B i x0 x1 x2 x3 x4 x5 x7 = k2_pay1 (con2_7 i x0 x1 x2 x3 x4 x5) x7 := by
  unfold out2_7B; rw [View.canon_unit_zero hz2, View.ld_unit_zero hz2]

/-- Each output's stores tile its buffer, so they cover it. -/
theorem cover2_6 (p0 : Vec F S512x64 .f32) (y : S512x64.Idx) :
    ∃ pc ∈ ([⟨r2_6, p0⟩] : List (View.Piece (Elt F) S512x64 .f32)), y ∈ pc.1.set :=
  View.cover_of_tiled [⟨r2_6, p0⟩] S512x64.size (by rfl) y
theorem cover2_7 (p0 : Vec F S64x32 .f32) (y : S64x32.Idx) :
    ∃ pc ∈ ([⟨r2_7, p0⟩] : List (View.Piece (Elt F) S64x32 .f32)), y ∈ pc.1.set :=
  View.cover_of_tiled [⟨r2_7, p0⟩] S64x32.size (by rfl) y

/-! ## The same contents without the whole-buffer rectangles -/

/-- A load through a buffer's whole rectangle reads the buffer, and one store through it leaves its payload: window 6
    holds the row-softmax payload of the blocks themselves (the second operand read once whole and once at the point's
    own 512 rows). -/
theorem out2_6_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) :
    out2_6 i x0 x1 x2 x3 x4 x5 = k2_pay3 x0 x1 (View.ld x1 (r2_1o i)) x2 x3 x4 x5 := by
  unfold out2_6
  rw [View.canon_unit_zero hz2, View.ld_unit_zero hz2 _ x0, View.ld_unit_zero hz2 _ x1, View.ld_unit_zero hz2 _ x2,
    View.ld_unit_zero hz2 _ x3, View.ld_unit_zero hz2 _ x4, View.ld_unit_zero hz2 _ x5]

/-- and a point's contribution to the pooled output likewise. -/
theorem con2_7_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) :
    con2_7 i x0 x1 x2 x3 x4 x5 = k2_pay4 x0 x1 (View.ld x1 (r2_1o i)) x2 x3 x4 x5 := by
  unfold con2_7
  rw [View.ld_unit_zero hz2 _ x0, View.ld_unit_zero hz2 _ x1, View.ld_unit_zero hz2 _ x2,
    View.ld_unit_zero hz2 _ x3, View.ld_unit_zero hz2 _ x4, View.ld_unit_zero hz2 _ x5]

/-! ## The body's triple, in the two cases of its conditionals -/

set_option maxHeartbeats 1000000 in
/-- At the first point (the first conditional taken, the second not) the body, on whole staging memrefs with the
    inputs' at read contents and the outputs' at anything, leaves window 6's at out2_6 and window 7's at the
    contribution stored. -/
theorem sound_kernel2_A (c : Dev nD) (E : Set ℕ) (i : grid2.Coords) (hc1 : k2_cond1 i = 1#1) (hc2 : ¬ k2_cond2 i = 1#1)
    (arg1 : Memref sig .tc .vmem S512x4096 .f32) (harg1 : arg1.IsWhole) (arg2 : Memref sig .tc .vmem S4096x32 .f32) (harg2 : arg2.IsWhole) (arg3 : Memref sig .tc .vmem S512x1 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S64x32 .f32) (harg8 : arg8.IsWhole)
    (x0 : Vec F S512x4096 .f32) (x1 : Vec F S4096x32 .f32) (x2 : Vec F S512x1 .f32) (x3 : Vec F S1x32 .f32) (x4 : Vec F S32x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 i x0 x1 x2 x3 x4 x5)
            ∗ owns (c : Thread nD τ) arg8 fullShare (out2_7A i x0 x1 x2 x3 x4 x5)) -∗ K ⟨⟩))
      ⊢ wp frame (wpE (defs₀ (F := F)) Variants.none c none) E (cc2__pass_c_kernel i arg1 harg1 arg2 harg2 arg3 harg3 arg4 harg4 arg5 harg5 arg6 harg6 arg7 harg7 arg8 harg8) K := by
  simp only [cc2__pass_c_kernel_eq_skeleton]; unfold cc2__pass_c_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc1 | exact hc2)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

set_option maxHeartbeats 1000000 in
/-- At a later point (the second conditional taken, the first not) the body, window 7's memref at read contents x7,
    leaves window 6's at out2_6 and window 7's at x7 plus the contribution. -/
theorem sound_kernel2_B (c : Dev nD) (E : Set ℕ) (i : grid2.Coords) (hc1 : ¬ k2_cond1 i = 1#1) (hc2 : k2_cond2 i = 1#1)
    (arg1 : Memref sig .tc .vmem S512x4096 .f32) (harg1 : arg1.IsWhole) (arg2 : Memref sig .tc .vmem S4096x32 .f32) (harg2 : arg2.IsWhole) (arg3 : Memref sig .tc .vmem S512x1 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S64x32 .f32) (harg8 : arg8.IsWhole)
    (x0 : Vec F S512x4096 .f32) (x1 : Vec F S4096x32 .f32) (x2 : Vec F S512x1 .f32) (x3 : Vec F S1x32 .f32) (x4 : Vec F S32x64 .f32) (x5 : Vec F S1x64 .f32) (x7 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 i x0 x1 x2 x3 x4 x5)
            ∗ owns (c : Thread nD τ) arg8 fullShare (out2_7B i x0 x1 x2 x3 x4 x5 x7)) -∗ K ⟨⟩))
      ⊢ wp frame (wpE (defs₀ (F := F)) Variants.none c none) E (cc2__pass_c_kernel i arg1 harg1 arg2 harg2 arg3 harg3 arg4 harg4 arg5 harg5 arg6 harg6 arg7 harg7 arg8 harg8) K := by
  simp only [cc2__pass_c_kernel_eq_skeleton]; unfold cc2__pass_c_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | exact hc1 | exact hc2)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pooled output, point by point -/

/-- Point t's contribution to the pooled output, from the input windows' blocks there. -/
def con2 (c : Dev nD) (t : Fin cfg2.N) : Vec F S64x32 .f32 :=
  con2_7 (grid2.coords t) (iblk2 V c 0 t) (iblk2 V c 1 t) (iblk2 V c 2 t) (iblk2 V c 3 t) (iblk2 V c 4 t) (iblk2 V c 5 t)

/-- THE ACCUMULATION. What window 7's one staging buffer holds after the body at position n: the first point's
    contribution, then each later point's contribution added to what the point before left (the buffer is not
    written back before the last point, and the body stores into it at every point). -/
def acc2At (c : Dev nD) : (n : ℕ) → n < cfg2.N → Vec F S64x32 .f32
  | 0, hn => con2 V c ⟨0, hn⟩
  | n + 1, hn => k2_pay1 (con2 V c ⟨n + 1, hn⟩) (acc2At c n (Nat.lt_of_succ_lt hn))

theorem acc2At_zero (c : Dev nD) (hn : 0 < cfg2.N) : acc2At V c 0 hn = con2 V c ⟨0, hn⟩ := rfl

theorem acc2At_succ (c : Dev nD) (n : ℕ) (hn : n + 1 < cfg2.N) :
    acc2At V c (n + 1) hn = k2_pay1 (con2 V c ⟨n + 1, hn⟩) (acc2At V c n (Nat.lt_of_succ_lt hn)) := rfl

/-- The same, at a point of the grid. -/
def acc2 (c : Dev nD) (t : Fin cfg2.N) : Vec F S64x32 .f32 := acc2At V c t.val t.isLt

theorem acc2_first (c : Dev nD) (t : Fin cfg2.N) (h0 : t.val = 0) : acc2At V c t.val t.isLt = con2 V c t := by
  obtain ⟨n, hn⟩ := t
  cases n with
  | zero => rfl
  | succ n => exact absurd h0 (Nat.succ_ne_zero n)

theorem acc2_later (c : Dev nD) (t : Fin cfg2.N) (h0 : t.val ≠ 0) :
    acc2At V c t.val t.isLt = k2_pay1 (con2 V c t) (acc2At V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of pipeline 2 on core c: the arrays as the region finds them; after the body at point t each
    input's buffer at its block, window 6's at out2_6 of the input blocks, window 7's at the accumulation; the
    invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 1 t) (iblk2 V c 2 t) (iblk2 V c 3 t) (iblk2 V c 4 t) (iblk2 V c 5 t)
    | ⟨7, _⟩ => acc2At V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (grid2.coords t) (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = acc2At V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- After the first point window 7's staging buffer holds what the body left at the point before: the buffer is
    not written back before the last point, and the window is live and uncut. -/
theorem before2_7_later (c : Dev nD) (t : Fin cfg2.N) (h0 : t.val ≠ 0) (d) :
    (dat2 V c).before 7 t d = acc2At V c (t.val - 1) (Nat.lt_of_le_of_lt (Nat.sub_le _ _) t.isLt) := by
  have hN : t.val < 8 := lt_of_lt_of_eq t.isLt (show cfg2.N = 8 from N_2)
  rw [Dat.before_out_kept _ 7 rfl t h0 (Bool.eq_false_iff.mpr fun h => by have := (flush2_7 _).mp h; dsimp only at this; omega)
    idle2_7_live (fun _ _ => rfl)]
  dsimp only [dat2]

/-! ## The body obligation, at a generic point -/

/-- What the body is called with at point t (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks; the point is the first or a later one; at a later
    one window 7's memref holds what the point before left; so the case's triple applies; the invariant and the
    core's owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val = 0
  · rw [acc2_first V c t h0]
    unfold con2
    rw [← out2_7A_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) ((hcond2_1 t).mpr h0) (fun h => absurd ((hcond2_2 t).mp h) (by omega))
      _ _ _ _ _ _ _ _ _ _ _ _ _ _ _ _ (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc2_later V c t h0]
    simp only [before2_7_later V c t h0]
    unfold con2
    rw [← out2_7B_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_B c Set.univ (grid2.coords t) (fun h => h0 ((hcond2_1 t).mp h)) ((hcond2_2 t).mpr (Nat.pos_of_ne_zero h0))
      _ _ _ _ _ _ _ _ _ _ _ _ _ _ _ _ (iblk2 V c 0 t) (iblk2 V c 1 t) (iblk2 V c 2 t) (iblk2 V c 3 t) (iblk2 V c 4 t) (iblk2 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point: window 7 is live at every point (one of the two conditionals
    holds there), so its post is the stated contents. -/
theorem body_obligation2 (c : Dev nD) : BodyObligation (dat2 (F := F) V c) (defs₀ (F := F)) Variants.none () Set.univ := fun t => by
  rw [bigSep_W2, bigSep_W2]
  rw [idle2_7 t]
  exact sound_body2 V c t

end Regions

end Cert.Kernel.Hand

end
-- ==== Proof.KRun.lean ====
/- The program as printed over machine words (`Cert.Kernel`). THE RUN of its @main: one stretch of three host reshapes (the two biases and the classifier bias as rows), then the
   three kernel regions, nothing between or after them.

   The contents of every unscoped buffer of a core at each boundary are a fold from the launch memory: `W0` at launch;
   `W1` after the reshapes; `W2`, `W3`, `W4` after regions 0, 1, 2 — each region's arrays at what its pipeline leaves
   (an input as entered, an output with every write-back of the grid folded in), every other buffer as entered. Each
   region is entered with its proof data stated at the contents the fold gives at its entry. `run_all`: every weakly
   fair execution of @main from any memory with zero counters terminates without fault, and in every final memory every
   unscoped buffer of every core holds `W4`. The eight argument arrays end as launched (`W4_main_argK`): no host
   operation writes one and a region only reads one. Generic in the float model `F`. -/
import proofs.«122962_g11562051960852_week1_w4_899_2_alg».proof.Proof.KFrame0
import proofs.«122962_g11562051960852_week1_w4_899_2_alg».proof.Proof.KFrame1
import proofs.«122962_g11562051960852_week1_w4_899_2_alg».proof.Proof.KFrame2

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the three reshapes (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded in grid order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1's proof data take). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded in grid order), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, which region 2's proof data take). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded in grid order), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched -/

/-- A buffer that is none of the three reshapes' results is as launched after them. -/
theorem W1_of_ne (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- After the reshapes every argument is as launched: none is a reshape's result. -/
theorem W1_main_arg0 (c : Dev nD) : W1 m ρ c (Proc.devRef .tc main_arg0) = m ((c : Thread nD τ).loc main_arg0) :=
  (W1_of_ne m ρ c main_arg0 (by decide) (by decide) (by decide)).trans rfl
theorem W1_main_arg1 (c : Dev nD) : W1 m ρ c (Proc.devRef .tc main_arg1) = m ((c : Thread nD τ).loc main_arg1) :=
  (W1_of_ne m ρ c main_arg1 (by decide) (by decide) (by decide)).trans rfl
theorem W1_main_arg2 (c : Dev nD) : W1 m ρ c (Proc.devRef .tc main_arg2) = m ((c : Thread nD τ).loc main_arg2) :=
  (W1_of_ne m ρ c main_arg2 (by decide) (by decide) (by decide)).trans rfl
theorem W1_main_arg3 (c : Dev nD) : W1 m ρ c (Proc.devRef .tc main_arg3) = m ((c : Thread nD τ).loc main_arg3) :=
  (W1_of_ne m ρ c main_arg3 (by decide) (by decide) (by decide)).trans rfl
theorem W1_main_arg4 (c : Dev nD) : W1 m ρ c (Proc.devRef .tc main_arg4) = m ((c : Thread nD τ).loc main_arg4) :=
  (W1_of_ne m ρ c main_arg4 (by decide) (by decide) (by decide)).trans rfl
theorem W1_main_arg5 (c : Dev nD) : W1 m ρ c (Proc.devRef .tc main_arg5) = m ((c : Thread nD τ).loc main_arg5) :=
  (W1_of_ne m ρ c main_arg5 (by decide) (by decide) (by decide)).trans rfl
theorem W1_main_arg6 (c : Dev nD) : W1 m ρ c (Proc.devRef .tc main_arg6) = m ((c : Thread nD τ).loc main_arg6) :=
  (W1_of_ne m ρ c main_arg6 (by decide) (by decide) (by decide)).trans rfl
theorem W1_main_arg7 (c : Dev nD) : W1 m ρ c (Proc.devRef .tc main_arg7) = m ((c : Thread nD τ).loc main_arg7) :=
  (W1_of_ne m ρ c main_arg7 (by decide) (by decide) (by decide)).trans rfl
/-- At region 0's exit every argument is as launched: the region reads it through an input window, or not at all. -/
theorem W2_main_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_main_arg0 m ρ c)
theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_main_arg1 m ρ c)
theorem W2_main_arg2 (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
/-- At region 1's exit every argument is as launched: the region reads it through an input window, or not at all. -/
theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  ((W3_arr m ρ c 4).trans (((dat1 (V2 m ρ) c).arrAt_in 4 rfl _).trans (A_eq1 (V2 m ρ) c 4))).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W3_main_arg7 (c : Dev nD) : W3 m ρ c (Proc.devRef .tc main_arg7) = m ((c : Thread nD τ).loc main_arg7) :=
  (W3_of_ne m ρ c main_arg7 (by decide)).trans (W2_main_arg7 m ρ c)
/-- At region 2's exit every argument is as launched: the region reads it through an input window, or not at all. -/
theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  ((W4_arr m ρ c 4).trans (((dat2 (V3 m ρ) c).arrAt_in 4 rfl _).trans (A_eq2 (V3 m ρ) c 4))).trans (W3_main_arg6 m ρ c)
theorem W4_main_arg7 (c : Dev nD) : W4 m ρ c (Proc.devRef .tc main_arg7) = m ((c : Thread nD τ).loc main_arg7) :=
  (W4_of_ne m ρ c main_arg7 (by decide)).trans (W3_main_arg7 m ρ c)

/-! ### What the later regions read of the earlier ones' results, and where the results end -/

/-- Region 1 finds in the scaling column's array and in the first-layer product's what region 0's pipeline left. -/
theorem V2_main_v3_0 (c : Dev nD) : V2 m ρ c main_v3_0 = (dat0 (V1 m ρ) c).arrAt 3 cfg0.N := W2_arr m ρ c 3
theorem V2_main_v3_1 (c : Dev nD) : V2 m ρ c main_v3_1 = (dat0 (V1 m ρ) c).arrAt 4 cfg0.N := W2_arr m ρ c 4
/-- Region 0 touches none of the three reshaped rows. -/
theorem V2_main_v0 (c : Dev nD) : V2 m ρ c main_v0 = V1 m ρ c main_v0 := W2_of_ne m ρ c main_v0 (by decide)
theorem V2_main_v1 (c : Dev nD) : V2 m ρ c main_v1 = V1 m ρ c main_v1 := W2_of_ne m ρ c main_v1 (by decide)
theorem V2_main_v2 (c : Dev nD) : V2 m ρ c main_v2 = V1 m ρ c main_v2 := W2_of_ne m ρ c main_v2 (by decide)
/-- Region 2 finds in the second-layer product's array what region 1's pipeline left, -/
theorem V3_main_v4 (c : Dev nD) : V3 m ρ c main_v4 = (dat1 (V2 m ρ) c).arrAt 5 cfg1.N := W3_arr m ρ c 5
/-- in the scaling column's array still what region 0's left (region 1 only reads it), -/
theorem V3_main_v3_0 (c : Dev nD) : V3 m ρ c main_v3_0 = (dat0 (V1 m ρ) c).arrAt 3 cfg0.N :=
  ((W3_arr m ρ c 2).trans (((dat1 (V2 m ρ) c).arrAt_in 2 rfl _).trans (A_eq1 (V2 m ρ) c 2))).trans (V2_main_v3_0 m ρ c)
/-- and the second bias and the classifier bias as the reshapes left them. -/
theorem V3_main_v1 (c : Dev nD) : V3 m ρ c main_v1 = V1 m ρ c main_v1 := (W3_of_ne m ρ c main_v1 (by decide)).trans (V2_main_v1 m ρ c)
theorem V3_main_v2 (c : Dev nD) : V3 m ρ c main_v2 = V1 m ρ c main_v2 := (W3_of_ne m ρ c main_v2 (by decide)).trans (V2_main_v2 m ρ c)
/-- The two results end at what region 2's pipeline leaves in their arrays. -/
theorem W4_main_v5_0 (c : Dev nD) : W4 m ρ c (Proc.devRef .tc main_v5_0) = (dat2 (V3 m ρ) c).arrAt 6 cfg2.N := W4_arr m ρ c 6
theorem W4_main_v5_1 (c : Dev nD) : W4 m ρ c (Proc.devRef .tc main_v5_1) = (dat2 (V3 m ρ) c).arrAt 7 cfg2.N := W4_arr m ρ c 7

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents (a literal `match`, so that at a numeral it
    reduces to the printed configuration's). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- REGION 0 (the first kernel) over the thread state: entered from every unscoped buffer at `W1`, left at `W2`. Its arrays are split out of the
    unscoped buffers and put back at the exit contents; the generator register goes into the pipeline's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (the second kernel) over the thread state: entered from every unscoped buffer at `W2`, left at `W3`. Its arrays are split out of the
    unscoped buffers and put back at the exit contents; the generator register goes into the pipeline's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 (the third kernel) over the thread state: entered from every unscoped buffer at `W3`, left at `W4`, what the launch reads at the end. Its arrays are split out of the
    unscoped buffers and put back at the exit contents; the generator register goes into the pipeline's invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: the host stretch from the launch contents, then a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final memory has every unscoped buffer of every core at `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.Kernel.Hand

end
-- ==== Proof.KIFrame0.lean ====
/- Region 0 of @main (the first kernel, grid of 8 row blocks), at ANY contents `V` of the core's buffers on entry.

   The kernel reads three input windows — window 0: a 512x4096 row block of the adjacency matrix (`main_arg1`);
   window 1: the matching 512x128 row block of the features (`main_arg0`); window 2: the whole 128x64 first weight
   matrix (`main_arg2`, one block for every point, fetched once) — and stores two output windows whole:
   window 3 (`main_v3_0`, 512x1): the payload `k0_pay1` of the adjacency block (the inverse square root of the
   row degree plus one, zero where that is not positive); window 4 (`main_v3_1`, 512x64): the payload `k0_pay2`
   (that column times the product of the feature block and the weights).

   Stated here: each window's block at a grid point (`iblk0`); what the body finds in an input's staging buffer
   (its block, fetched at that point or not: `before0_w`); what the body leaves in each output's staging buffer as
   a function of the input blocks (`out0_3`, `out0_4`); the body's triple (`sound_kernel0`); the proof data
   `dat0` and the body obligation `body_obligation0` of the pipeline. Generic in the float model `F`. -/
import proofs.«122962_g11562051960852_week1_w4_899_2_alg».proof.Proof.Gen.KernelIdeal.Launch
import proofs.«122962_g11562051960852_week1_w4_899_2_alg».proof.Proof.Gen.KernelIdeal.Skeleton
import proofs.«122962_g11562051960852_week1_w4_899_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 and 4096: the structural check recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is an input, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2, whose block index never moves: it is fetched at the first point only, and at every
    later point the buffer still holds the first point's block, which is that point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole of its staging buffer -/

abbrev r0_0 : Rect S512x4096 := Rect.unit (s := S512x4096) ![0, 0] S512x4096.size inb_S512x4096_S512x4096_0_0
abbrev r0_1 : Rect S512x128 := Rect.unit (s := S512x128) ![0, 0] S512x128.size inb_S512x128_S512x128_0_0
abbrev r0_2 : Rect S128x64 := Rect.unit (s := S128x64) ![0, 0] S128x64.size inb_S128x64_S128x64_0_0
abbrev r0_3 : Rect S512x1 := Rect.unit (s := S512x1) ![0, 0] S512x1.size inb_S512x1_S512x1_0_0
abbrev r0_4 : Rect S512x64 := Rect.unit (s := S512x64) ![0, 0] S512x64.size inb_S512x64_S512x64_0_0

/-! ## What the body leaves in each output window's buffer -/

/-- Window 3's staging buffer after the body, from the adjacency block `x0`: its one store, of `k0_pay1`. -/
def out0_3 (x0 : Vec F S512x4096 .f32) : Vec F S512x1 .f32 :=
  View.canon [⟨r0_3, k0_pay1 (View.ld x0 r0_0)⟩]

/-- Window 4's staging buffer after the body, from the adjacency block `x0`, the feature block `x1` and the
    weights `x2`: its one store, of `k0_pay2`. -/
def out0_4 (x0 : Vec F S512x4096 .f32) (x1 : Vec F S512x128 .f32) (x2 : Vec F S128x64 .f32) : Vec F S512x64 .f32 :=
  View.canon [⟨r0_4, k0_pay2 (View.ld x0 r0_0) (View.ld x1 r0_1) (View.ld x2 r0_2)⟩]

/-- The one store of window 3 is of the whole buffer, so it covers it. -/
theorem cover0_3 (p0 : Vec F S512x1 .f32) (y : S512x1.Idx) :
    ∃ pc ∈ ([⟨r0_3, p0⟩] : List (View.Piece (Elt F) S512x1 .f32)), y ∈ pc.1.set :=
  View.cover_of_tiled [⟨r0_3, p0⟩] S512x1.size (by rfl) y

/-- The one store of window 4 is of the whole buffer, so it covers it. -/
theorem cover0_4 (p0 : Vec F S512x64 .f32) (y : S512x64.Idx) :
    ∃ pc ∈ ([⟨r0_4, p0⟩] : List (View.Piece (Elt F) S512x64 .f32)), y ∈ pc.1.set :=
  View.cover_of_tiled [⟨r0_4, p0⟩] S512x64.size (by rfl) y

/-! ## The body's triple -/

set_option maxHeartbeats 1000000 in
/-- The kernel body on whole staging memrefs, the inputs' at read contents `x0 x1 x2` and the outputs' at anything,
    runs to the continuation holding the inputs' as they were and the outputs' at `out0_3`, `out0_4` of the inputs':
    the body loads each buffer whole (the outputs' too, before storing them: those values are not used) and stores each
    output whole. -/
theorem sound_kernel0 (c : Dev nD) (E : Set ℕ) (i : grid0.Coords)
    (arg1 : Memref sig .tc .vmem S512x4096 .f32) (harg1 : arg1.IsWhole) (arg2 : Memref sig .tc .vmem S512x128 .f32) (harg2 : arg2.IsWhole)
    (arg3 : Memref sig .tc .vmem S128x64 .f32) (harg3 : arg3.IsWhole) (arg4 : Memref sig .tc .vmem S512x1 .f32) (harg4 : arg4.IsWhole)
    (arg5 : Memref sig .tc .vmem S512x64 .f32) (harg5 : arg5.IsWhole)
    (x0 : Vec F S512x4096 .f32) (x1 : Vec F S512x128 .f32) (x2 : Vec F S128x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__pass_a_kernel i arg1 harg1 arg2 harg2 arg3 harg3 arg4 harg4 arg5 harg5) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at point
    `t` each input's buffer at its block and each output's at `out0_w` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_w`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIFrame1.lean ====
/- Region 1 of @main (the second kernel, grid of 8 row blocks), at ANY contents `V` of the core's buffers on entry.

   The kernel reads five input windows — window 0: a 512x4096 row block of the adjacency matrix (`main_arg1`);
   window 1: the WHOLE 4096x64 first-layer product (`main_v3_1`, one block for every point, fetched once); window 2:
   the matching 512x1 block of the scaling column (`main_v3_0`); window 3: the first bias as a 1x64 row (`main_v0`,
   one block); window 4: the 64x32 second weight matrix (`main_arg4`, one block) — and stores one output window
   whole: window 5 (`main_v4`, 512x32), the payload `k1_pay1`. Besides the whole of window 1 the body loads the 512
   rows of window 1 that start at row 512·(grid coordinate) — the rows of the point's own row block —, so what it
   leaves depends on the grid coordinate `i` as well as on the input blocks: `out1_5 i`.

   Stated here: each window's block at a grid point (`iblk1`); what the body finds in an input's staging buffer
   (`before1_w`); what it leaves in the output's (`out1_5`); the body's triple (`sound_kernel1`); the proof data
   `dat1` and the body obligation `body_obligation1` of the pipeline. Generic in the float model `F`. -/
import proofs.«122962_g11562051960852_week1_w4_899_2_alg».proof.Proof.Gen.KernelIdeal.Launch
import proofs.«122962_g11562051960852_week1_w4_899_2_alg».proof.Proof.Gen.KernelIdeal.Skeleton
import proofs.«122962_g11562051960852_week1_w4_899_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 and 4096: the structural check recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`): the window is an input, uncut, never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, whose block index never moves: fetched at the first point only, and at every later
    point the buffer still holds the first point's block, which is that point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (a block per point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (one block, fetched once). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (one block, fetched once). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each through the whole of its staging buffer, but for one load of 512 rows of window 1 -/

abbrev r1_0 : Rect S512x4096 := Rect.unit (s := S512x4096) ![0, 0] S512x4096.size inb_S512x4096_S512x4096_0_0
abbrev r1_1 : Rect S4096x64 := Rect.unit (s := S4096x64) ![0, 0] S4096x64.size inb_S4096x64_S4096x64_0_0
/-- The 512 rows of window 1 from row 512·(grid coordinate): the rows of the point's own row block. -/
abbrev r1_1own (i : grid1.Coords) : Rect S4096x64 := Rect.unit (s := S4096x64) (k1_off1 i) S512x64.size (k1_off1_inb i)
abbrev r1_2 : Rect S512x1 := Rect.unit (s := S512x1) ![0, 0] S512x1.size inb_S512x1_S512x1_0_0
abbrev r1_3 : Rect S1x64 := Rect.unit (s := S1x64) ![0, 0] S1x64.size inb_S1x64_S1x64_0_0
abbrev r1_4 : Rect S64x32 := Rect.unit (s := S64x32) ![0, 0] S64x32.size inb_S64x32_S64x32_0_0
abbrev r1_5 : Rect S512x32 := Rect.unit (s := S512x32) ![0, 0] S512x32.size inb_S512x32_S512x32_0_0

/-! ## What the body leaves in the output window's buffer -/

/-- Window 5's staging buffer after the body at grid coordinate `i`, from the input blocks: its one store, of
    `k1_pay1` of the adjacency block, the whole first-layer product, the product's own 512 rows, the scaling block,
    the bias row and the weights. -/
def out1_5 (i : grid1.Coords) (x0 : Vec F S512x4096 .f32) (x1 : Vec F S4096x64 .f32) (x2 : Vec F S512x1 .f32)
    (x3 : Vec F S1x64 .f32) (x4 : Vec F S64x32 .f32) : Vec F S512x32 .f32 :=
  View.canon [⟨r1_5, k1_pay1 (View.ld x0 r1_0) (View.ld x1 r1_1) (View.ld x1 (r1_1own i)) (View.ld x2 r1_2) (View.ld x3 r1_3) (View.ld x4 r1_4)⟩]

/-- The one store of window 5 is of the whole buffer, so it covers it. -/
theorem cover1_5 (p0 : Vec F S512x32 .f32) (y : S512x32.Idx) :
    ∃ pc ∈ ([⟨r1_5, p0⟩] : List (View.Piece (Elt F) S512x32 .f32)), y ∈ pc.1.set :=
  View.cover_of_tiled [⟨r1_5, p0⟩] S512x32.size (by rfl) y

/-! ## The body's triple -/

set_option maxHeartbeats 1000000 in
/-- The kernel body at grid coordinate `i` on whole staging memrefs, the inputs' at read contents `x0 … x4` and the
    output's at anything, runs to the continuation holding the inputs' as they were and the output's at `out1_5 i` of
    the inputs': the body loads each buffer whole (the output's too, before storing it: that value is not used), loads
    the own rows of window 1, and stores the output whole. -/
theorem sound_kernel1 (c : Dev nD) (E : Set ℕ) (i : grid1.Coords)
    (arg1 : Memref sig .tc .vmem S512x4096 .f32) (harg1 : arg1.IsWhole) (arg2 : Memref sig .tc .vmem S4096x64 .f32) (harg2 : arg2.IsWhole)
    (arg3 : Memref sig .tc .vmem S512x1 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S512x32 .f32) (harg6 : arg6.IsWhole)
    (x0 : Vec F S512x4096 .f32) (x1 : Vec F S4096x64 .f32) (x2 : Vec F S512x1 .f32) (x3 : Vec F S1x64 .f32) (x4 : Vec F S64x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 i x0 x1 x2 x3 x4)) -∗ K ⟨⟩))
      ⊢ wp frame (wpE (defs₀ (F := F)) Variants.none c none) E
          (cc1__pass_b_kernel i arg1 harg1 arg2 harg2 arg3 harg3 arg4 harg4 arg5 harg5 arg6 harg6) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the point's coordinates and the input blocks;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (grid1.coords t) (iblk1 V c 0 t) (iblk1 V c 1 t) (iblk1 V c 2 t) (iblk1 V c 3 t) (iblk1 V c 4 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's dues, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies at the
    point's coordinates; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIFrame2.lean ====
/-
  Region 2 of the program (its third pass over the 8 row blocks of 512 rows), at any contents V of the core's buffers
  when the region is entered: the proof data and the body obligation of its pipeline.

  At point t the body reads the adjacency rows of block t (window 0), the whole of Z2 (window 1, and again at the
  point's own rows 512·t … 512·t + 511), the block's inverse square-root degrees (window 2), b2, Ws and bs
  (windows 3, 4, 5), and computes H2 = max (dis · (A·Z2 + Z2) + b2) 0 and the row-softmax S of H2·Ws + bs for the
  block's rows. It stores S into window 6's buffer (written back at every point), and into window 7's one buffer —
  the pooled output Sᵀ·H2, a single 64×32 block written back only at the last point — the block's contribution
  Sᵀ·H2 (512 rows) at the first point, and what the buffer held plus the contribution at every later point. So
  window 7's buffer after point t is the first t + 1 contributions added up in point order: a recursion on the
  point (acc2At), reset at point 0. One of the two conditionals holds at every point, so the window is live
  everywhere and each store covers its whole block: the contents after each point are a function of the point.
-/
import proofs.«122962_g11562051960852_week1_w4_899_2_alg».proof.Proof.Gen.KernelIdeal.Launch
import proofs.«122962_g11562051960852_week1_w4_899_2_alg».proof.Proof.Gen.KernelIdeal.Skeleton
import proofs.«122962_g11562051960852_week1_w4_899_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The grid conditions of region 2, decided over its 8 points -/

theorem hcond2_1 : ∀ t : Fin cfg2.N, k2_cond1 (grid2.coords t) = 1#1 ↔ t.val = 0 :=
  (by decide +kernel : ∀ t : Fin grid2.N, k2_cond1 (grid2.coords t) = 1#1 ↔ t.val = 0)

theorem hcond2_2 : ∀ t : Fin cfg2.N, k2_cond2 (grid2.coords t) = 1#1 ↔ 0 < t.val :=
  (by decide +kernel : ∀ t : Fin grid2.N, k2_cond2 (grid2.coords t) = 1#1 ↔ 0 < t.val)

theorem idle2_7_false : ∀ i : grid2.Coords, idle2 7 i = false := by decide +kernel

theorem idle2_7_live : ∀ i : cfg2.grid.Coords, cfg2.idle 7 i = false := fun i => idle2_7_false i

theorem idle2_7 (t : Fin cfg2.N) : cfg2.idle 7 (cfg2.grid.coords t) = false := idle2_7_live _

theorem hz2 : (![0, 0] : Fin 2 → Nat) = fun _ => 0 := by
  funext a; fin_cases a <;> rfl

section Regions
variable (V : (c : Dev nD) → (b : Ref sig .tc) → Buf (Elt F) ((c : Thread nD τ).loc b))

/-! # REGION 2 of @main: custom_call 2, the third pass (pipeline 2), at the entry contents V -/

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x4096 := Rect.unit (s := S512x4096) ![0, 0] S512x4096.size inb_S512x4096_S512x4096_0_0
abbrev r2_1 : Rect S4096x32 := Rect.unit (s := S4096x32) ![0, 0] S4096x32.size inb_S4096x32_S4096x32_0_0
/-- The rows 512·i … 512·i + 511 of the whole second operand: the point's own row block. -/
abbrev r2_1o (i : grid2.Coords) : Rect S4096x32 := Rect.unit (s := S4096x32) (k2_off1 i) S512x32.size (k2_off1_inb i)
abbrev r2_2 : Rect S512x1 := Rect.unit (s := S512x1) ![0, 0] S512x1.size inb_S512x1_S512x1_0_0
abbrev r2_3 : Rect S1x32 := Rect.unit (s := S1x32) ![0, 0] S1x32.size inb_S1x32_S1x32_0_0
abbrev r2_4 : Rect S32x64 := Rect.unit (s := S32x64) ![0, 0] S32x64.size inb_S32x64_S32x64_0_0
abbrev r2_5 : Rect S1x64 := Rect.unit (s := S1x64) ![0, 0] S1x64.size inb_S1x64_S1x64_0_0
abbrev r2_6 : Rect S512x64 := Rect.unit (s := S512x64) ![0, 0] S512x64.size inb_S512x64_S512x64_0_0
abbrev r2_7 : Rect S64x32 := Rect.unit (s := S64x32) ![0, 0] S64x32.size inb_S64x32_S64x32_0_0

/-! ## What the body leaves in each output window's buffer -/

/-- Window 6's staging buffer after the body, from the input windows' blocks and the grid coordinates: its one
    store, the row-softmax of the point's 512 rows. -/
def out2_6 (i : grid2.Coords) (x0 : Vec F S512x4096 .f32) (x1 : Vec F S4096x32 .f32) (x2 : Vec F S512x1 .f32) (x3 : Vec F S1x32 .f32)
    (x4 : Vec F S32x64 .f32) (x5 : Vec F S1x64 .f32) : Vec F S512x64 .f32 :=
  View.canon [⟨r2_6, k2_pay3 (View.ld x0 r2_0) (View.ld x1 r2_1) (View.ld x1 (r2_1o i)) (View.ld x2 r2_2) (View.ld x3 r2_3) (View.ld x4 r2_4) (View.ld x5 r2_5)⟩]

/-- The point's contribution to the pooled output: (softmax rows)ᵀ times (hidden rows), over the point's 512 rows. -/
def con2_7 (i : grid2.Coords) (x0 : Vec F S512x4096 .f32) (x1 : Vec F S4096x32 .f32) (x2 : Vec F S512x1 .f32) (x3 : Vec F S1x32 .f32)
    (x4 : Vec F S32x64 .f32) (x5 : Vec F S1x64 .f32) : Vec F S64x32 .f32 :=
  k2_pay4 (View.ld x0 r2_0) (View.ld x1 r2_1) (View.ld x1 (r2_1o i)) (View.ld x2 r2_2) (View.ld x3 r2_3) (View.ld x4 r2_4) (View.ld x5 r2_5)

/-- Window 7's staging buffer after the body at the first point: the contribution stored. -/
def out2_7A (i : grid2.Coords) (x0 : Vec F S512x4096 .f32) (x1 : Vec F S4096x32 .f32) (x2 : Vec F S512x1 .f32) (x3 : Vec F S1x32 .f32)
    (x4 : Vec F S32x64 .f32) (x5 : Vec F S1x64 .f32) : Vec F S64x32 .f32 :=
  View.canon [⟨r2_7, con2_7 i x0 x1 x2 x3 x4 x5⟩]

/-- Window 7's staging buffer after the body at a later point: what it held plus the contribution. -/
def out2_7B (i : grid2.Coords) (x0 : Vec F S512x4096 .f32) (x1 : Vec F S4096x32 .f32) (x2 : Vec F S512x1 .f32) (x3 : Vec F S1x32 .f32)
    (x4 : Vec F S32x64 .f32) (x5 : Vec F S1x64 .f32) (x7 : Vec F S64x32 .f32) : Vec F S64x32 .f32 :=
  View.canon [⟨r2_7, k2_pay1 (con2_7 i x0 x1 x2 x3 x4 x5) (View.ld x7 r2_7)⟩]

theorem out2_7A_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) : out2_7A i x0 x1 x2 x3 x4 x5 = con2_7 i x0 x1 x2 x3 x4 x5 := by
  unfold out2_7A; exact View.canon_unit_zero hz2 _ _

theorem out2_7B_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) (x7 : Vec F S64x32 .f32) :
    out2_7B i x0 x1 x2 x3 x4 x5 x7 = k2_pay1 (con2_7 i x0 x1 x2 x3 x4 x5) x7 := by
  unfold out2_7B; rw [View.canon_unit_zero hz2, View.ld_unit_zero hz2]

/-- Each output's stores tile its buffer, so they cover it. -/
theorem cover2_6 (p0 : Vec F S512x64 .f32) (y : S512x64.Idx) :
    ∃ pc ∈ ([⟨r2_6, p0⟩] : List (View.Piece (Elt F) S512x64 .f32)), y ∈ pc.1.set :=
  View.cover_of_tiled [⟨r2_6, p0⟩] S512x64.size (by rfl) y
theorem cover2_7 (p0 : Vec F S64x32 .f32) (y : S64x32.Idx) :
    ∃ pc ∈ ([⟨r2_7, p0⟩] : List (View.Piece (Elt F) S64x32 .f32)), y ∈ pc.1.set :=
  View.cover_of_tiled [⟨r2_7, p0⟩] S64x32.size (by rfl) y

/-! ## The same contents without the whole-buffer rectangles -/

/-- A load through a buffer's whole rectangle reads the buffer, and one store through it leaves its payload: window 6
    holds the row-softmax payload of the blocks themselves (the second operand read once whole and once at the point's
    own 512 rows). -/
theorem out2_6_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) :
    out2_6 i x0 x1 x2 x3 x4 x5 = k2_pay3 x0 x1 (View.ld x1 (r2_1o i)) x2 x3 x4 x5 := by
  unfold out2_6
  rw [View.canon_unit_zero hz2, View.ld_unit_zero hz2 _ x0, View.ld_unit_zero hz2 _ x1, View.ld_unit_zero hz2 _ x2,
    View.ld_unit_zero hz2 _ x3, View.ld_unit_zero hz2 _ x4, View.ld_unit_zero hz2 _ x5]

/-- and a point's contribution to the pooled output likewise. -/
theorem con2_7_eq (i : grid2.Coords) (x0 : Vec F S512x4096 .f32) (x1 : Vec F S4096x32 .f32) (x2 : Vec F S512x1 .f32) (x3 : Vec F S1x32 .f32)
    (x4 : Vec F S32x64 .f32) (x5 : Vec F S1x64 .f32) :
    con2_7 i x0 x1 x2 x3 x4 x5 = k2_pay4 x0 x1 (View.ld x1 (r2_1o i)) x2 x3 x4 x5 := by
  unfold con2_7
  rw [View.ld_unit_zero hz2 _ x0, View.ld_unit_zero hz2 _ x1, View.ld_unit_zero hz2 _ x2,
    View.ld_unit_zero hz2 _ x3, View.ld_unit_zero hz2 _ x4, View.ld_unit_zero hz2 _ x5]

/-! ## The body's triple, in the two cases of its conditionals -/

set_option maxHeartbeats 1000000 in
/-- At the first point (the first conditional taken, the second not) the body, on whole staging memrefs with the
    inputs' at read contents and the outputs' at anything, leaves window 6's at out2_6 and window 7's at the
    contribution stored. -/
theorem sound_kernel2_A (c : Dev nD) (E : Set ℕ) (i : grid2.Coords) (hc1 : k2_cond1 i = 1#1) (hc2 : ¬ k2_cond2 i = 1#1)
    (arg1 : Memref sig .tc .vmem S512x4096 .f32) (harg1 : arg1.IsWhole) (arg2 : Memref sig .tc .vmem S4096x32 .f32) (harg2 : arg2.IsWhole) (arg3 : Memref sig .tc .vmem S512x1 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S64x32 .f32) (harg8 : arg8.IsWhole)
    (x0 : Vec F S512x4096 .f32) (x1 : Vec F S4096x32 .f32) (x2 : Vec F S512x1 .f32) (x3 : Vec F S1x32 .f32) (x4 : Vec F S32x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 i x0 x1 x2 x3 x4 x5)
            ∗ owns (c : Thread nD τ) arg8 fullShare (out2_7A i x0 x1 x2 x3 x4 x5)) -∗ K ⟨⟩))
      ⊢ wp frame (wpE (defs₀ (F := F)) Variants.none c none) E (cc2__pass_c_kernel i arg1 harg1 arg2 harg2 arg3 harg3 arg4 harg4 arg5 harg5 arg6 harg6 arg7 harg7 arg8 harg8) K := by
  simp only [cc2__pass_c_kernel_eq_skeleton]; unfold cc2__pass_c_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc1 | exact hc2)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

set_option maxHeartbeats 1000000 in
/-- At a later point (the second conditional taken, the first not) the body, window 7's memref at read contents x7,
    leaves window 6's at out2_6 and window 7's at x7 plus the contribution. -/
theorem sound_kernel2_B (c : Dev nD) (E : Set ℕ) (i : grid2.Coords) (hc1 : ¬ k2_cond1 i = 1#1) (hc2 : k2_cond2 i = 1#1)
    (arg1 : Memref sig .tc .vmem S512x4096 .f32) (harg1 : arg1.IsWhole) (arg2 : Memref sig .tc .vmem S4096x32 .f32) (harg2 : arg2.IsWhole) (arg3 : Memref sig .tc .vmem S512x1 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S64x32 .f32) (harg8 : arg8.IsWhole)
    (x0 : Vec F S512x4096 .f32) (x1 : Vec F S4096x32 .f32) (x2 : Vec F S512x1 .f32) (x3 : Vec F S1x32 .f32) (x4 : Vec F S32x64 .f32) (x5 : Vec F S1x64 .f32) (x7 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 i x0 x1 x2 x3 x4 x5)
            ∗ owns (c : Thread nD τ) arg8 fullShare (out2_7B i x0 x1 x2 x3 x4 x5 x7)) -∗ K ⟨⟩))
      ⊢ wp frame (wpE (defs₀ (F := F)) Variants.none c none) E (cc2__pass_c_kernel i arg1 harg1 arg2 harg2 arg3 harg3 arg4 harg4 arg5 harg5 arg6 harg6 arg7 harg7 arg8 harg8) K := by
  simp only [cc2__pass_c_kernel_eq_skeleton]; unfold cc2__pass_c_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | exact hc1 | exact hc2)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pooled output, point by point -/

/-- Point t's contribution to the pooled output, from the input windows' blocks there. -/
def con2 (c : Dev nD) (t : Fin cfg2.N) : Vec F S64x32 .f32 :=
  con2_7 (grid2.coords t) (iblk2 V c 0 t) (iblk2 V c 1 t) (iblk2 V c 2 t) (iblk2 V c 3 t) (iblk2 V c 4 t) (iblk2 V c 5 t)

/-- THE ACCUMULATION. What window 7's one staging buffer holds after the body at position n: the first point's
    contribution, then each later point's contribution added to what the point before left (the buffer is not
    written back before the last point, and the body stores into it at every point). -/
def acc2At (c : Dev nD) : (n : ℕ) → n < cfg2.N → Vec F S64x32 .f32
  | 0, hn => con2 V c ⟨0, hn⟩
  | n + 1, hn => k2_pay1 (con2 V c ⟨n + 1, hn⟩) (acc2At c n (Nat.lt_of_succ_lt hn))

theorem acc2At_zero (c : Dev nD) (hn : 0 < cfg2.N) : acc2At V c 0 hn = con2 V c ⟨0, hn⟩ := rfl

theorem acc2At_succ (c : Dev nD) (n : ℕ) (hn : n + 1 < cfg2.N) :
    acc2At V c (n + 1) hn = k2_pay1 (con2 V c ⟨n + 1, hn⟩) (acc2At V c n (Nat.lt_of_succ_lt hn)) := rfl

/-- The same, at a point of the grid. -/
def acc2 (c : Dev nD) (t : Fin cfg2.N) : Vec F S64x32 .f32 := acc2At V c t.val t.isLt

theorem acc2_first (c : Dev nD) (t : Fin cfg2.N) (h0 : t.val = 0) : acc2At V c t.val t.isLt = con2 V c t := by
  obtain ⟨n, hn⟩ := t
  cases n with
  | zero => rfl
  | succ n => exact absurd h0 (Nat.succ_ne_zero n)

theorem acc2_later (c : Dev nD) (t : Fin cfg2.N) (h0 : t.val ≠ 0) :
    acc2At V c t.val t.isLt = k2_pay1 (con2 V c t) (acc2At V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of pipeline 2 on core c: the arrays as the region finds them; after the body at point t each
    input's buffer at its block, window 6's at out2_6 of the input blocks, window 7's at the accumulation; the
    invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 1 t) (iblk2 V c 2 t) (iblk2 V c 3 t) (iblk2 V c 4 t) (iblk2 V c 5 t)
    | ⟨7, _⟩ => acc2At V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (grid2.coords t) (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = acc2At V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- After the first point window 7's staging buffer holds what the body left at the point before: the buffer is
    not written back before the last point, and the window is live and uncut. -/
theorem before2_7_later (c : Dev nD) (t : Fin cfg2.N) (h0 : t.val ≠ 0) (d) :
    (dat2 V c).before 7 t d = acc2At V c (t.val - 1) (Nat.lt_of_le_of_lt (Nat.sub_le _ _) t.isLt) := by
  have hN : t.val < 8 := lt_of_lt_of_eq t.isLt (show cfg2.N = 8 from N_2)
  rw [Dat.before_out_kept _ 7 rfl t h0 (Bool.eq_false_iff.mpr fun h => by have := (flush2_7 _).mp h; dsimp only at this; omega)
    idle2_7_live (fun _ _ => rfl)]
  dsimp only [dat2]

/-! ## The body obligation, at a generic point -/

/-- What the body is called with at point t (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks; the point is the first or a later one; at a later
    one window 7's memref holds what the point before left; so the case's triple applies; the invariant and the
    core's owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val = 0
  · rw [acc2_first V c t h0]
    unfold con2
    rw [← out2_7A_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) ((hcond2_1 t).mpr h0) (fun h => absurd ((hcond2_2 t).mp h) (by omega))
      _ _ _ _ _ _ _ _ _ _ _ _ _ _ _ _ (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc2_later V c t h0]
    simp only [before2_7_later V c t h0]
    unfold con2
    rw [← out2_7B_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_B c Set.univ (grid2.coords t) (fun h => h0 ((hcond2_1 t).mp h)) ((hcond2_2 t).mpr (Nat.pos_of_ne_zero h0))
      _ _ _ _ _ _ _ _ _ _ _ _ _ _ _ _ (iblk2 V c 0 t) (iblk2 V c 1 t) (iblk2 V c 2 t) (iblk2 V c 3 t) (iblk2 V c 4 t) (iblk2 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point: window 7 is live at every point (one of the two conditionals
    holds there), so its post is the stated contents. -/
theorem body_obligation2 (c : Dev nD) : BodyObligation (dat2 (F := F) V c) (defs₀ (F := F)) Variants.none () Set.univ := fun t => by
  rw [bigSep_W2, bigSep_W2]
  rw [idle2_7 t]
  exact sound_body2 V c t

end Regions

end Cert.KernelIdeal.Hand

end
-- ==== Proof.KIRun.lean ====
/- THE RUN of @main: one stretch of three host reshapes (the two biases and the classifier bias as rows), then the
   three kernel regions, nothing between or after them.

   The contents of every unscoped buffer of a core at each boundary are a fold from the launch memory: `W0` at launch;
   `W1` after the reshapes; `W2`, `W3`, `W4` after regions 0, 1, 2 — each region's arrays at what its pipeline leaves
   (an input as entered, an output with every write-back of the grid folded in), every other buffer as entered. Each
   region is entered with its proof data stated at the contents the fold gives at its entry. `run_all`: every weakly
   fair execution of @main from any memory with zero counters terminates without fault, and in every final memory every
   unscoped buffer of every core holds `W4`. The eight argument arrays end as launched (`W4_main_argK`): no host
   operation writes one and a region only reads one. Generic in the float model `F`. -/
import proofs.«122962_g11562051960852_week1_w4_899_2_alg».proof.Proof.KIFrame0
import proofs.«122962_g11562051960852_week1_w4_899_2_alg».proof.Proof.KIFrame1
import proofs.«122962_g11562051960852_week1_w4_899_2_alg».proof.Proof.KIFrame2

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the three reshapes (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded in grid order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1's proof data take). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded in grid order), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents, which region 2's proof data take). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded in grid order), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched -/

/-- A buffer that is none of the three reshapes' results is as launched after them. -/
theorem W1_of_ne (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- After the reshapes every argument is as launched: none is a reshape's result. -/
theorem W1_main_arg0 (c : Dev nD) : W1 m ρ c (Proc.devRef .tc main_arg0) = m ((c : Thread nD τ).loc main_arg0) :=
  (W1_of_ne m ρ c main_arg0 (by decide) (by decide) (by decide)).trans rfl
theorem W1_main_arg1 (c : Dev nD) : W1 m ρ c (Proc.devRef .tc main_arg1) = m ((c : Thread nD τ).loc main_arg1) :=
  (W1_of_ne m ρ c main_arg1 (by decide) (by decide) (by decide)).trans rfl
theorem W1_main_arg2 (c : Dev nD) : W1 m ρ c (Proc.devRef .tc main_arg2) = m ((c : Thread nD τ).loc main_arg2) :=
  (W1_of_ne m ρ c main_arg2 (by decide) (by decide) (by decide)).trans rfl
theorem W1_main_arg3 (c : Dev nD) : W1 m ρ c (Proc.devRef .tc main_arg3) = m ((c : Thread nD τ).loc main_arg3) :=
  (W1_of_ne m ρ c main_arg3 (by decide) (by decide) (by decide)).trans rfl
theorem W1_main_arg4 (c : Dev nD) : W1 m ρ c (Proc.devRef .tc main_arg4) = m ((c : Thread nD τ).loc main_arg4) :=
  (W1_of_ne m ρ c main_arg4 (by decide) (by decide) (by decide)).trans rfl
theorem W1_main_arg5 (c : Dev nD) : W1 m ρ c (Proc.devRef .tc main_arg5) = m ((c : Thread nD τ).loc main_arg5) :=
  (W1_of_ne m ρ c main_arg5 (by decide) (by decide) (by decide)).trans rfl
theorem W1_main_arg6 (c : Dev nD) : W1 m ρ c (Proc.devRef .tc main_arg6) = m ((c : Thread nD τ).loc main_arg6) :=
  (W1_of_ne m ρ c main_arg6 (by decide) (by decide) (by decide)).trans rfl
theorem W1_main_arg7 (c : Dev nD) : W1 m ρ c (Proc.devRef .tc main_arg7) = m ((c : Thread nD τ).loc main_arg7) :=
  (W1_of_ne m ρ c main_arg7 (by decide) (by decide) (by decide)).trans rfl
/-- At region 0's exit every argument is as launched: the region reads it through an input window, or not at all. -/
theorem W2_main_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_main_arg0 m ρ c)
theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_main_arg1 m ρ c)
theorem W2_main_arg2 (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
/-- At region 1's exit every argument is as launched: the region reads it through an input window, or not at all. -/
theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  ((W3_arr m ρ c 4).trans (((dat1 (V2 m ρ) c).arrAt_in 4 rfl _).trans (A_eq1 (V2 m ρ) c 4))).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W3_main_arg7 (c : Dev nD) : W3 m ρ c (Proc.devRef .tc main_arg7) = m ((c : Thread nD τ).loc main_arg7) :=
  (W3_of_ne m ρ c main_arg7 (by decide)).trans (W2_main_arg7 m ρ c)
/-- At region 2's exit every argument is as launched: the region reads it through an input window, or not at all. -/
theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  ((W4_arr m ρ c 4).trans (((dat2 (V3 m ρ) c).arrAt_in 4 rfl _).trans (A_eq2 (V3 m ρ) c 4))).trans (W3_main_arg6 m ρ c)
theorem W4_main_arg7 (c : Dev nD) : W4 m ρ c (Proc.devRef .tc main_arg7) = m ((c : Thread nD τ).loc main_arg7) :=
  (W4_of_ne m ρ c main_arg7 (by decide)).trans (W3_main_arg7 m ρ c)

/-! ### What the later regions read of the earlier ones' results, and where the results end -/

/-- Region 1 finds in the scaling column's array and in the first-layer product's what region 0's pipeline left. -/
theorem V2_main_v3_0 (c : Dev nD) : V2 m ρ c main_v3_0 = (dat0 (V1 m ρ) c).arrAt 3 cfg0.N := W2_arr m ρ c 3
theorem V2_main_v3_1 (c : Dev nD) : V2 m ρ c main_v3_1 = (dat0 (V1 m ρ) c).arrAt 4 cfg0.N := W2_arr m ρ c 4
/-- Region 0 touches none of the three reshaped rows. -/
theorem V2_main_v0 (c : Dev nD) : V2 m ρ c main_v0 = V1 m ρ c main_v0 := W2_of_ne m ρ c main_v0 (by decide)
theorem V2_main_v1 (c : Dev nD) : V2 m ρ c main_v1 = V1 m ρ c main_v1 := W2_of_ne m ρ c main_v1 (by decide)
theorem V2_main_v2 (c : Dev nD) : V2 m ρ c main_v2 = V1 m ρ c main_v2 := W2_of_ne m ρ c main_v2 (by decide)
/-- Region 2 finds in the second-layer product's array what region 1's pipeline left, -/
theorem V3_main_v4 (c : Dev nD) : V3 m ρ c main_v4 = (dat1 (V2 m ρ) c).arrAt 5 cfg1.N := W3_arr m ρ c 5
/-- in the scaling column's array still what region 0's left (region 1 only reads it), -/
theorem V3_main_v3_0 (c : Dev nD) : V3 m ρ c main_v3_0 = (dat0 (V1 m ρ) c).arrAt 3 cfg0.N :=
  ((W3_arr m ρ c 2).trans (((dat1 (V2 m ρ) c).arrAt_in 2 rfl _).trans (A_eq1 (V2 m ρ) c 2))).trans (V2_main_v3_0 m ρ c)
/-- and the second bias and the classifier bias as the reshapes left them. -/
theorem V3_main_v1 (c : Dev nD) : V3 m ρ c main_v1 = V1 m ρ c main_v1 := (W3_of_ne m ρ c main_v1 (by decide)).trans (V2_main_v1 m ρ c)
theorem V3_main_v2 (c : Dev nD) : V3 m ρ c main_v2 = V1 m ρ c main_v2 := (W3_of_ne m ρ c main_v2 (by decide)).trans (V2_main_v2 m ρ c)
/-- The two results end at what region 2's pipeline leaves in their arrays. -/
theorem W4_main_v5_0 (c : Dev nD) : W4 m ρ c (Proc.devRef .tc main_v5_0) = (dat2 (V3 m ρ) c).arrAt 6 cfg2.N := W4_arr m ρ c 6
theorem W4_main_v5_1 (c : Dev nD) : W4 m ρ c (Proc.devRef .tc main_v5_1) = (dat2 (V3 m ρ) c).arrAt 7 cfg2.N := W4_arr m ρ c 7

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents (a literal `match`, so that at a numeral it
    reduces to the printed configuration's). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- REGION 0 (the first kernel) over the thread state: entered from every unscoped buffer at `W1`, left at `W2`. Its arrays are split out of the
    unscoped buffers and put back at the exit contents; the generator register goes into the pipeline's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (the second kernel) over the thread state: entered from every unscoped buffer at `W2`, left at `W3`. Its arrays are split out of the
    unscoped buffers and put back at the exit contents; the generator register goes into the pipeline's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 (the third kernel) over the thread state: entered from every unscoped buffer at `W3`, left at `W4`, what the launch reads at the end. Its arrays are split out of the
    unscoped buffers and put back at the exit contents; the generator register goes into the pipeline's invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: the host stretch from the launch contents, then a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final memory has every unscoped buffer of every core at `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.KernelIdeal.Hand

end
-- ==== Proof.KFrames.lean ====
/- The frame claims of the two programs, as the claims' file states them: from any memory with zero counters (the
   precondition on the inputs is not needed for this) every weakly fair execution of @main terminates without fault, and
   each of the eight argument arrays ends holding what it held at launch. Both are read off the run of @main's four
   segments (`run_all`): in every final memory every unscoped buffer holds the last boundary's contents `W4`, and at an
   argument's buffer `W4` walks back to the launch memory, since no reshape writes an argument and a kernel region only
   reads one. `frame_k` is the program over machine words, `frame_ki` the one over the extended reals. -/
import proofs.«122962_g11562051960852_week1_w4_899_2_alg».proof.Defs
import proofs.«122962_g11562051960852_week1_w4_899_2_alg».proof.Proof.Gen.Kernel
import proofs.«122962_g11562051960852_week1_w4_899_2_alg».proof.Proof.Gen.KernelIdeal
import proofs.«122962_g11562051960852_week1_w4_899_2_alg».proof.Proof.Gen.Pre_finite_inputs
import proofs.«122962_g11562051960852_week1_w4_899_2_alg».proof.Proof.KRun
import proofs.«122962_g11562051960852_week1_w4_899_2_alg».proof.Proof.KIRun

noncomputable section

namespace Cert.Proof.Frames

open Idealize.ShloMosaic Idealize.ShloMosaic.TcCoe Idealize.SL.Sem

open Cert.Kernel Cert.Kernel.Hand in
/-- The program over machine words runs to the end and leaves its arguments as launched. -/
theorem frame_k : Cert.frame_Kernel (hKernel := Cert.Kernel.Gen.facts) (hPre_finite_inputs := Cert.Pre_finite_inputs.Gen.facts) :=
  fun m ρ _ => (θ_run _ _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (Cert.Kernel.Hand.run_all (F := Bits) m ρ)

open Cert.KernelIdeal Cert.KernelIdeal.Hand in
/-- The program over the extended reals runs to the end and leaves its arguments as launched. -/
theorem frame_ki : Cert.frame_KernelIdeal (hKernelIdeal := Cert.KernelIdeal.Gen.facts) (hPre_finite_inputs := Cert.Pre_finite_inputs.Gen.facts) :=
  fun m ρ _ => (θ_run _ _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (Cert.KernelIdeal.Hand.run_all (F := Ideal) m ρ)

end Cert.Proof.Frames

end
-- ==== Proof.GcnSpec.lean ====
/-
  The two programs of this certificate as formulas over the extended reals, index by index, over curried
  `Fin`-indexed arrays: `A : 4096 × 4096` (the adjacency), `X : 4096 × 128` (the features), `W1, b1, W2, b2`
  (two graph-convolution layers), `Ws, bs` (the assignment layer).

  KERNEL FORM. With `deg r = (∑ j, A r j) + 1` and `dis r = deg r ^ (-1/2)` where `deg r > 0` (else `0`), a layer
  is `max (dis r · ((∑ j, A r j · Z j c) + Z r c) + b c) 0` of the pre-scaled factor `Z r c = dis r · (Y r c)`:
  the normalized adjacency is never formed, its two scalings ride on the narrow factor. The pooled product is
  accumulated over the eight blocks of 512 rows, first block stored, later blocks added.

  REFERENCE FORM. `Â = A + I`, `d r = 1 / √(∑ j, Â r j)` where the sum is positive (else `0`),
  `N r j = (d r · Â r j) · d j`, a layer is `max ((∑ j, N r j · Y j c) + b c) 0`; the pooled product is one sum
  over all 4096 rows.

  Both end in the same row softmax of `H2 · Ws + bs` (the reference's row maximum is taken once more against `-∞`,
  and its row sum starts from `0`) and in `Sᵀ · H2`.
-/
import Idealize.ShloMosaic.PureOps.Ideal

noncomputable section

open scoped BigOperators

namespace Cert.Gcn

open Idealize.ShloMosaic

variable (A : Fin 4096 → Fin 4096 → EReal) (X : Fin 4096 → Fin 128 → EReal) (W1 : Fin 128 → Fin 64 → EReal)
  (b1 : Fin 64 → EReal) (W2 : Fin 64 → Fin 32 → EReal) (b2 : Fin 32 → EReal) (Ws : Fin 32 → Fin 64 → EReal)
  (bs : Fin 64 → EReal)

/-! ## Kernel form -/

/-- A row's degree: its row sum plus the self loop. -/
def degK (r : Fin 4096) : EReal := (∑ j, A r j) + 1
/-- The inverse square root of the degree where it is positive, else zero. -/
def disK (r : Fin 4096) : EReal := if 0 < degK A r then Ideal.rsqrt (degK A r) else 0
/-- The first layer's pre-scaled factor `dis · (X W1)`. -/
def z1K (r : Fin 4096) (c : Fin 64) : EReal := disK A r * ∑ d, X r d * W1 d c
/-- The first layer. -/
def h1K (r : Fin 4096) (c : Fin 64) : EReal :=
  max (disK A r * ((∑ j, A r j * z1K A X W1 j c) + z1K A X W1 r c) + b1 c) 0
/-- The second layer's pre-scaled factor `dis · (H1 W2)`. -/
def z2K (r : Fin 4096) (c : Fin 32) : EReal := disK A r * ∑ d, h1K A X W1 b1 r d * W2 d c
/-- The second layer. -/
def h2K (r : Fin 4096) (c : Fin 32) : EReal :=
  max (disK A r * ((∑ j, A r j * z2K A X W1 b1 W2 j c) + z2K A X W1 b1 W2 r c) + b2 c) 0

/-! ## The assignment softmax of a layer `h`, and the pooled product -/

/-- The assignment logits `h Ws + bs`. -/
def logit (h : Fin 4096 → Fin 32 → EReal) (r : Fin 4096) (k : Fin 64) : EReal := (∑ d, h r d * Ws d k) + bs k
/-- A row's largest logit, folded from `-∞`. -/
def rowMax (h : Fin 4096 → Fin 32 → EReal) (r : Fin 4096) : EReal :=
  (Finset.univ : Finset (Fin 64)).fold max ⊥ (logit Ws bs h r)
/-- The kernel's softmax: the shifted exponential over its row sum. -/
def smK (h : Fin 4096 → Fin 32 → EReal) (r : Fin 4096) (k : Fin 64) : EReal :=
  Ideal.div (Ideal.exp (logit Ws bs h r k - rowMax Ws bs h r))
    (∑ k', Ideal.exp (logit Ws bs h r k' - rowMax Ws bs h r))
/-- The reference's softmax: the row maximum once more against `-∞`, the row sum from `0`. -/
def smR (h : Fin 4096 → Fin 32 → EReal) (r : Fin 4096) (k : Fin 64) : EReal :=
  Ideal.div (Ideal.exp (logit Ws bs h r k - max ⊥ (rowMax Ws bs h r)))
    (0 + ∑ k', Ideal.exp (logit Ws bs h r k' - max ⊥ (rowMax Ws bs h r)))

/-- Row `p` of block `t` (eight blocks of 512 rows). -/
def rowOf (t : Fin 8) (p : Fin 512) : Fin 4096 := ⟨512 * t.val + p.val, by omega⟩
/-- Block `t`'s contribution to the pooled product `Sᵀ H`. -/
def contrib (S : Fin 4096 → Fin 64 → EReal) (h : Fin 4096 → Fin 32 → EReal) (t : Fin 8) (k : Fin 64) (c : Fin 32) :
    EReal := ∑ p : Fin 512, S (rowOf t p) k * h (rowOf t p) c
/-- The pooled product after blocks `0 … n`: the first stored, each later one added to what is there. -/
def poolAcc (S : Fin 4096 → Fin 64 → EReal) (h : Fin 4096 → Fin 32 → EReal) :
    (n : ℕ) → n < 8 → Fin 64 → Fin 32 → EReal
  | 0, _ => contrib S h 0
  | n + 1, hn => fun k c => poolAcc S h n (by omega) k c + contrib S h ⟨n + 1, hn⟩ k c
/-- The kernel's pooled product: after all eight blocks. -/
def poolK (S : Fin 4096 → Fin 64 → EReal) (h : Fin 4096 → Fin 32 → EReal) : Fin 64 → Fin 32 → EReal :=
  poolAcc S h 7 (by decide)
/-- The reference's pooled product: one sum over the rows. -/
def poolR (S : Fin 4096 → Fin 64 → EReal) (h : Fin 4096 → Fin 32 → EReal) (k : Fin 64) (c : Fin 32) : EReal :=
  ∑ r, S r k * h r c

/-! ## Reference form -/

/-- The adjacency with self loops. -/
def ahat (r j : Fin 4096) : EReal := A r j + (if r = j then 1 else 0)
/-- Its row sum, from `0`. -/
def degR (r : Fin 4096) : EReal := 0 + ∑ j, ahat A r j
/-- One over the square root of the degree where it is positive, else zero. -/
def dR (r : Fin 4096) : EReal := if 0 < degR A r then Ideal.div 1 (Ideal.sqrt (degR A r)) else 0
/-- The symmetrically normalized adjacency. -/
def anorm (r j : Fin 4096) : EReal := dR A r * ahat A r j * dR A j
/-- The first layer. -/
def h1R (r : Fin 4096) (c : Fin 64) : EReal := max ((∑ j, anorm A r j * ∑ d, X j d * W1 d c) + b1 c) 0
/-- The second layer. -/
def h2R (r : Fin 4096) (c : Fin 32) : EReal :=
  max ((∑ j, anorm A r j * ∑ d, h1R A X W1 b1 j d * W2 d c) + b2 c) 0

end Cert.Gcn

end
-- ==== Proof.RefRead.lean ====
/-
  The reference program read as formulas. Each stage of the reference (the adjacency with self loops, its row sums,
  the inverse square roots, the normalized adjacency, the two layers, the assignment logits, their row maxima, the
  softmax and the pooled product) is read at a symbolic index and identified with the corresponding function of the
  reference form of the specification, over the curried views of the eight argument arrays.
-/
import proofs.«122962_g11562051960852_week1_w4_899_2_alg».proof.Proof.Gen.ReferenceIdeal.Read
import proofs.«122962_g11562051960852_week1_w4_899_2_alg».proof.Proof.GcnSpec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- A rank-2 array as a function of its two coordinates. -/
abbrev cur2 {n0 n1 : Nat} (a : (⟨2, ![n0, n1]⟩ : Shape).Idx → EReal) : Fin n0 → Fin n1 → EReal := fun r j => a (ix2 r j)
/-- A rank-1 array as a function of its coordinate. -/
abbrev cur1 {n : Nat} (a : (⟨1, ![n]⟩ : Shape).Idx → EReal) : Fin n → EReal := fun c => a (ix1 c)

/-! ## Bit patterns -/

/-- The pattern of negative infinity is the bottom element. -/
theorem ofBits_neg_inf_f32 : Ideal.ofBits .f32 0xFF800000#32 = ⊥ := by simp [Ideal.ofBits, Ideal.ieee]

/-! ## The identity matrix -/

/-- Two row numbers below 4096 have the same 32-bit word exactly when they are equal. -/
theorem ofNat32_eq_iff (r j : Fin 4096) : BitVec.ofNat 32 r.val = BitVec.ofNat 32 j.val ↔ r = j := by
  constructor
  · intro h
    have := congrArg BitVec.toNat h
    simp only [BitVec.toNat_ofNat] at this
    have hr := r.isLt; have hj := j.isLt
    exact Fin.ext (by omega)
  · rintro rfl; rfl

/-- The compare-and-convert of the two iotas is the identity matrix. -/
theorem eye_eq (r j : Fin 4096) : val_main_v5 (F := Ideal) (ix2 r j) = if r = j then 1 else 0 := by
  rw [val_main_v5_apply, val_main_v4_apply, val_main_v3_apply, val_main_v0_apply, val_main_v2_apply, val_main_c_apply,
    val_main_v1_apply]
  show (((IntOp.cmpi .eq (IntOp.addi (BitVec.ofNat 32 r.val) 0#32) (BitVec.ofNat 32 j.val)).toNat : ℝ) : EReal) = _
  unfold IntOp.cmpi IntOp.addi
  rw [BitVec.add_zero]
  by_cases h : r = j
  · subst h; simp
  · have hne : ¬ BitVec.ofNat 32 r.val = BitVec.ofNat 32 j.val := fun e => h ((ofNat32_eq_iff r j).mp e)
    simp [h, hne]

/-! ## The adjacency with self loops, its row sums, the inverse square roots, the normalized adjacency -/

theorem ahat_eq (a1 : (⟨S4096x4096, .f32⟩ : BufTy).Contents (Elt Ideal)) (r j : Fin 4096) :
    val_main_v6 (F := Ideal) a1 (ix2 r j) = Cert.Gcn.ahat (cur2 a1) r j := by
  rw [val_main_v6_apply, eye_eq]; rfl

theorem idx_v7 (r : Fin 4096) (k : Fin 4096) : idx_main_v7 (ix1 r) k = ix2 r k :=
  funext fun a => by match a with | ⟨0, _⟩ => rfl | ⟨1, _⟩ => rfl

theorem deg_eq (a1 : (⟨S4096x4096, .f32⟩ : BufTy).Contents (Elt Ideal)) (r : Fin 4096) :
    val_main_v7 (F := Ideal) a1 (ix1 r) = Cert.Gcn.degR (cur2 a1) r := by
  rw [val_main_v7_apply, val_main_cst_apply]
  simp only [idx_v7, ahat_eq, Ideal.ofBits_def, Ideal.ofBits_zero_f32]
  rfl

/-- The zero word, the one word and the negative-infinity word as the instance's constants. -/
theorem zero_f32 : FloatOps.ofBits (F := Ideal) .f32 0x00000000#32 = (0 : EReal) := Ideal.ofBits_zero_f32
theorem one_f32 : FloatOps.ofBits (F := Ideal) .f32 0x3F800000#32 = (1 : EReal) := Ideal.ofBits_one_f32
theorem neg_inf_f32 : FloatOps.ofBits (F := Ideal) .f32 0xFF800000#32 = (⊥ : EReal) := ofBits_neg_inf_f32

theorem d_eq (a1 : (⟨S4096x4096, .f32⟩ : BufTy).Contents (Elt Ideal)) (r : Fin 4096) :
    val_main_v13 (F := Ideal) a1 (ix1 r) = Cert.Gcn.dR (cur2 a1) r := by
  rw [val_main_v13_apply, val_main_v9_apply, val_main_v12_apply, val_main_v10_apply, val_main_v11_apply,
    val_main_cst_1_apply, val_main_v8_apply, val_main_cst_0_apply, val_main_call0_v1_apply, val_main_call0_v0_apply,
    val_main_cst_2_apply, deg_eq, zero_f32, one_f32]
  show Scalar.select (Ideal.cmp .ogt (Cert.Gcn.degR (cur2 a1) r) 0)
      (Ideal.div 1 (Ideal.sqrt (Cert.Gcn.degR (cur2 a1) r))) 0 = _
  unfold Cert.Gcn.dR
  by_cases h : 0 < Cert.Gcn.degR (cur2 a1) r
  · simp [Ideal.cmp, Scalar.select, h]
  · simp [Ideal.cmp, Scalar.select, h]

theorem idx_v14_15 (r j : Fin 4096) : idx_main_v14 (idx_main_v15 (ix2 r j)) = ix1 r :=
  funext fun a => by match a with | ⟨0, _⟩ => rfl
theorem idx_v17_18 (r j : Fin 4096) : idx_main_v17 (idx_main_v18 (ix2 r j)) = ix1 j :=
  funext fun a => by match a with | ⟨0, _⟩ => rfl

theorem anorm_eq (a1 : (⟨S4096x4096, .f32⟩ : BufTy).Contents (Elt Ideal)) (r j : Fin 4096) :
    val_main_v19 (F := Ideal) a1 (ix2 r j) = Cert.Gcn.anorm (cur2 a1) r j := by
  rw [val_main_v19_apply, val_main_v16_apply, val_main_v15_apply, val_main_v14_apply, val_main_v18_apply,
    val_main_v17_apply, idx_v14_15, idx_v17_18, d_eq, d_eq, ahat_eq]
  rfl

/-! ## The first layer -/

theorem lidx_v20 (r : Fin 4096) (c : Fin 64) (k : Fin 128) : lidx_main_v20 (ix2 r c) k = ix2 r k :=
  funext fun a => by match a with | ⟨0, _⟩ => rfl | ⟨1, _⟩ => rfl
theorem ridx_v20 (r : Fin 4096) (c : Fin 64) (k : Fin 128) : ridx_main_v20 (ix2 r c) k = ix2 k c :=
  funext fun a => by match a with | ⟨0, _⟩ => rfl | ⟨1, _⟩ => rfl

theorem xw_eq (a0 : (⟨S4096x128, .f32⟩ : BufTy).Contents (Elt Ideal)) (a2 : (⟨S128x64, .f32⟩ : BufTy).Contents (Elt Ideal))
    (r : Fin 4096) (c : Fin 64) :
    val_main_v20 (F := Ideal) a0 a2 (ix2 r c) = ∑ d, cur2 a0 r d * cur2 a2 d c := by
  rw [val_main_v20_apply]
  exact Finset.sum_congr rfl fun k _ => by rw [lidx_v20, ridx_v20]

theorem lidx_v21 (r : Fin 4096) (c : Fin 64) (k : Fin 4096) : lidx_main_v21 (ix2 r c) k = ix2 r k :=
  funext fun a => by match a with | ⟨0, _⟩ => rfl | ⟨1, _⟩ => rfl
theorem ridx_v21 (r : Fin 4096) (c : Fin 64) (k : Fin 4096) : ridx_main_v21 (ix2 r c) k = ix2 k c :=
  funext fun a => by match a with | ⟨0, _⟩ => rfl | ⟨1, _⟩ => rfl
theorem idx_v22_23 (r : Fin 4096) (c : Fin 64) : idx_main_v22 (idx_main_v23 (ix2 r c)) = ix1 c :=
  funext fun a => by match a with | ⟨0, _⟩ => rfl

theorem h1_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (r : Fin 4096) (c : Fin 64) :
    val_main_v25 (F := Ideal) a0 a1 a2 a3 (ix2 r c)
      = Cert.Gcn.h1R (cur2 a1) (cur2 a0) (cur2 a2) (cur1 a3) r c := by
  rw [val_main_v25_apply, val_main_v24_apply, val_main_v21_apply, val_main_v23_apply, val_main_v22_apply,
    val_main_call1_v0_apply, val_main_call1_cst_apply, idx_v22_23, zero_f32]
  have hs : (∑ k : Fin 4096, val_main_v19 (F := Ideal) a1 (lidx_main_v21 (ix2 r c) k)
        * val_main_v20 (F := Ideal) a0 a2 (ridx_main_v21 (ix2 r c) k))
      = ∑ j, Cert.Gcn.anorm (cur2 a1) r j * ∑ d, cur2 a0 j d * cur2 a2 d c :=
    Finset.sum_congr rfl fun k _ => by rw [lidx_v21, ridx_v21, anorm_eq, xw_eq]
  rw [hs]
  rfl

/-! ## The second layer -/

theorem lidx_v26 (r : Fin 4096) (c : Fin 32) (k : Fin 64) : lidx_main_v26 (ix2 r c) k = ix2 r k :=
  funext fun a => by match a with | ⟨0, _⟩ => rfl | ⟨1, _⟩ => rfl
theorem ridx_v26 (r : Fin 4096) (c : Fin 32) (k : Fin 64) : ridx_main_v26 (ix2 r c) k = ix2 k c :=
  funext fun a => by match a with | ⟨0, _⟩ => rfl | ⟨1, _⟩ => rfl

theorem hw_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (r : Fin 4096) (c : Fin 32) :
    val_main_v26 (F := Ideal) a0 a1 a2 a3 a4 (ix2 r c) = ∑ d, Cert.Gcn.h1R (cur2 a1) (cur2 a0) (cur2 a2) (cur1 a3) r d * cur2 a4 d c := by
  rw [val_main_v26_apply]
  exact Finset.sum_congr rfl fun k _ => by rw [lidx_v26, ridx_v26, h1_eq]

theorem lidx_v27 (r : Fin 4096) (c : Fin 32) (k : Fin 4096) : lidx_main_v27 (ix2 r c) k = ix2 r k :=
  funext fun a => by match a with | ⟨0, _⟩ => rfl | ⟨1, _⟩ => rfl
theorem ridx_v27 (r : Fin 4096) (c : Fin 32) (k : Fin 4096) : ridx_main_v27 (ix2 r c) k = ix2 k c :=
  funext fun a => by match a with | ⟨0, _⟩ => rfl | ⟨1, _⟩ => rfl
theorem idx_v28_29 (r : Fin 4096) (c : Fin 32) : idx_main_v28 (idx_main_v29 (ix2 r c)) = ix1 c :=
  funext fun a => by match a with | ⟨0, _⟩ => rfl

theorem h2_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (r : Fin 4096) (c : Fin 32) :
    val_main_v31 (F := Ideal) a0 a1 a2 a3 a4 a5 (ix2 r c) = Cert.Gcn.h2R (cur2 a1) (cur2 a0) (cur2 a2) (cur1 a3) (cur2 a4) (cur1 a5) r c := by
  rw [val_main_v31_apply, val_main_v30_apply, val_main_v27_apply, val_main_v29_apply, val_main_v28_apply,
    val_main_call2_v0_apply, val_main_call2_cst_apply, idx_v28_29, zero_f32]
  have hs : (∑ k : Fin 4096, val_main_v19 (F := Ideal) a1 (lidx_main_v27 (ix2 r c) k)
        * val_main_v26 (F := Ideal) a0 a1 a2 a3 a4 (ridx_main_v27 (ix2 r c) k))
      = ∑ j, Cert.Gcn.anorm (cur2 a1) r j * ∑ d, Cert.Gcn.h1R (cur2 a1) (cur2 a0) (cur2 a2) (cur1 a3) j d * cur2 a4 d c :=
    Finset.sum_congr rfl fun k _ => by rw [lidx_v27, ridx_v27, anorm_eq, hw_eq]
  rw [hs]
  rfl

/-! ## The assignment logits and their row maxima -/

theorem lidx_v32 (r : Fin 4096) (k : Fin 64) (d : Fin 32) : lidx_main_v32 (ix2 r k) d = ix2 r d :=
  funext fun a => by match a with | ⟨0, _⟩ => rfl | ⟨1, _⟩ => rfl
theorem ridx_v32 (r : Fin 4096) (k : Fin 64) (d : Fin 32) : ridx_main_v32 (ix2 r k) d = ix2 d k :=
  funext fun a => by match a with | ⟨0, _⟩ => rfl | ⟨1, _⟩ => rfl
theorem idx_v33_34 (r : Fin 4096) (k : Fin 64) : idx_main_v33 (idx_main_v34 (ix2 r k)) = ix1 k :=
  funext fun a => by match a with | ⟨0, _⟩ => rfl

theorem logit_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (r : Fin 4096) (k : Fin 64) :
    val_main_v35 (F := Ideal) a0 a1 a2 a3 a4 a5 a6 a7 (ix2 r k)
      = Cert.Gcn.logit (cur2 a6) (cur1 a7) (Cert.Gcn.h2R (cur2 a1) (cur2 a0) (cur2 a2) (cur1 a3) (cur2 a4) (cur1 a5)) r k := by
  rw [val_main_v35_apply, val_main_v32_apply, val_main_v34_apply, val_main_v33_apply, idx_v33_34]
  have hs : (∑ d : Fin 32, val_main_v31 (F := Ideal) a0 a1 a2 a3 a4 a5 (lidx_main_v32 (ix2 r k) d) * a6 (ridx_main_v32 (ix2 r k) d))
      = ∑ d, Cert.Gcn.h2R (cur2 a1) (cur2 a0) (cur2 a2) (cur1 a3) (cur2 a4) (cur1 a5) r d * cur2 a6 d k :=
    Finset.sum_congr rfl fun d _ => by rw [lidx_v32, ridx_v32, h2_eq]
  rw [hs]
  rfl

/-- The reduced index `r` with column `k` put back is `(r, k)`. -/
theorem lift_v36 (h : S4096x64.Reduces [1] S4096) (r : Fin 4096) (k : Fin (S4096x64.size 1)) :
    h.lift (ix1 r) k = ix2 r (⟨k.val, k.isLt⟩ : Fin 64) := by
  funext c; apply Fin.ext
  fin_cases c <;> rfl

theorem rowMax_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (r : Fin 4096) :
    val_main_v36 (F := Ideal) a0 a1 a2 a3 a4 a5 a6 a7 (ix1 r)
      = Cert.Gcn.rowMax (cur2 a6) (cur1 a7) (Cert.Gcn.h2R (cur2 a1) (cur2 a0) (cur2 a2) (cur1 a3) (cur2 a4) (cur1 a5)) r := by
  unfold val_main_v36
  have h : S4096x64.Reduces [1] S4096 := by decide
  rw [Host.reduce_eq_fold_single FloatOps.maximumf _ _ reducesTo_S4096x64_S4096_d1 h h_S_, val_main_cst_3_apply, neg_inf_f32]
  have hf : (val_main_v35 (F := Ideal) a0 a1 a2 a3 a4 a5 a6 a7 ∘ h.lift (ix1 r))
      = fun k : Fin 64 => Cert.Gcn.logit (cur2 a6) (cur1 a7) (Cert.Gcn.h2R (cur2 a1) (cur2 a0) (cur2 a2) (cur1 a3) (cur2 a4) (cur1 a5)) r k :=
    funext fun k => by
      show val_main_v35 (F := Ideal) a0 a1 a2 a3 a4 a5 a6 a7 (h.lift (ix1 r) k) = _
      rw [lift_v36, logit_eq]
      rfl
  unfold Cert.Gcn.rowMax
  exact congrArg (fun f => Finset.fold max (⊥ : EReal) f (Finset.univ : Finset (Fin 64))) hf

/-! ## The softmax -/

theorem idx_v39_40 (r : Fin 4096) (k : Fin 64) : idx_main_v39 (idx_main_v40 (ix2 r k)) = ix1 r :=
  funext fun a => by match a with | ⟨0, _⟩ => rfl
theorem idx_v44_45 (r : Fin 4096) (k : Fin 64) : idx_main_v44 (idx_main_v45 (ix2 r k)) = ix1 r :=
  funext fun a => by match a with | ⟨0, _⟩ => rfl
theorem idx_v43 (r : Fin 4096) (k : Fin 64) : idx_main_v43 (ix1 r) k = ix2 r k :=
  funext fun a => by match a with | ⟨0, _⟩ => rfl | ⟨1, _⟩ => rfl

/-- The shift: the row maximum taken once more against negative infinity. -/
theorem shift_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (r : Fin 4096) :
    val_main_v38 (F := Ideal) a0 a1 a2 a3 a4 a5 a6 a7 (ix1 r) = max ⊥ (Cert.Gcn.rowMax (cur2 a6) (cur1 a7) (Cert.Gcn.h2R (cur2 a1) (cur2 a0) (cur2 a2) (cur1 a3) (cur2 a4) (cur1 a5)) r) := by
  rw [val_main_v38_apply, val_main_v37_apply, val_main_cst_4_apply, neg_inf_f32, rowMax_eq]
  rfl

/-- The shifted exponential. -/
theorem expo_eq (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (r : Fin 4096) (k : Fin 64) :
    val_main_v42 (F := Ideal) a0 a1 a2 a3 a4 a5 a6 a7 (ix2 r k)
      = Ideal.exp (Cert.Gcn.logit (cur2 a6) (cur1 a7) (Cert.Gcn.h2R (cur2 a1) (cur2 a0) (cur2 a2) (cur1 a3) (cur2 a4) (cur1 a5)) r k - max ⊥ (Cert.Gcn.rowMax (cur2 a6) (cur1 a7) (Cert.Gcn.h2R (cur2 a1) (cur2 a0) (cur2 a2) (cur1 a3) (cur2 a4) (cur1 a5)) r)) := by
  rw [val_main_v42_apply, val_main_v41_apply, val_main_v40_apply, val_main_v39_apply, idx_v39_40, shift_eq, logit_eq]
  rfl

/-- THE ASSIGNMENT: the reference's softmax result at `(r, k)` is the reference form's softmax of its second layer. -/
theorem ref_S (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (r : Fin 4096) (k : Fin 64) :
    val_main_v46 (F := Ideal) a0 a1 a2 a3 a4 a5 a6 a7 (ix2 r k) = Cert.Gcn.smR (cur2 a6) (cur1 a7) (Cert.Gcn.h2R (cur2 a1) (cur2 a0) (cur2 a2) (cur1 a3) (cur2 a4) (cur1 a5)) r k := by
  rw [val_main_v46_apply, val_main_v45_apply, val_main_v44_apply, idx_v44_45, val_main_v43_apply, val_main_cst_5_apply,
    zero_f32]
  have hs : (∑ k' : Fin 64, val_main_v42 (F := Ideal) a0 a1 a2 a3 a4 a5 a6 a7 (idx_main_v43 (ix1 r) k'))
      = ∑ k', Ideal.exp (Cert.Gcn.logit (cur2 a6) (cur1 a7) (Cert.Gcn.h2R (cur2 a1) (cur2 a0) (cur2 a2) (cur1 a3) (cur2 a4) (cur1 a5)) r k' - max ⊥ (Cert.Gcn.rowMax (cur2 a6) (cur1 a7) (Cert.Gcn.h2R (cur2 a1) (cur2 a0) (cur2 a2) (cur1 a3) (cur2 a4) (cur1 a5)) r)) :=
    Finset.sum_congr rfl fun k' _ => by rw [idx_v43, expo_eq]
  rw [hs, expo_eq]
  rfl

/-! ## The pooled product -/

theorem lidx_v47_48 (k : Fin 64) (c : Fin 32) (r : Fin 4096) : idx_main_v47 (lidx_main_v48 (ix2 k c) r) = ix2 r k :=
  funext fun a => by match a with | ⟨0, _⟩ => rfl | ⟨1, _⟩ => rfl
theorem ridx_v48 (k : Fin 64) (c : Fin 32) (r : Fin 4096) : ridx_main_v48 (ix2 k c) r = ix2 r c :=
  funext fun a => by match a with | ⟨0, _⟩ => rfl | ⟨1, _⟩ => rfl

/-- THE POOLED PRODUCT: the reference's first result at `(k, c)` is the sum over all rows of the assignment times the
    second layer. -/
theorem ref_pool (a0 : (⟨S4096x128, .f32⟩ : BufTy).Contents (Elt Ideal)) (a1 : (⟨S4096x4096, .f32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (k : Fin 64) (c : Fin 32) :
    val_main_v48 (F := Ideal) a0 a1 a2 a3 a4 a5 a6 a7 (ix2 k c)
      = Cert.Gcn.poolR (Cert.Gcn.smR (cur2 a6) (cur1 a7) (Cert.Gcn.h2R (cur2 a1) (cur2 a0) (cur2 a2) (cur1 a3) (cur2 a4) (cur1 a5))) (Cert.Gcn.h2R (cur2 a1) (cur2 a0) (cur2 a2) (cur1 a3) (cur2 a4) (cur1 a5)) k c := by
  rw [val_main_v48_apply]
  exact Finset.sum_congr rfl fun r _ => by rw [val_main_v47_apply, lidx_v47_48, ridx_v48, ref_S, h2_eq]

end Cert.ReferenceIdeal.RefValue

end
-- ==== Proof.RefRun.lean ====
/-
  The reference's two results as whole arrays, and its run stated at them. For a memory `m` and a device `c`, the
  assignment `S` is the reference form's softmax of the second layer of the eight argument arrays read from `m`, and the
  pooled product is `Sᵀ · H2`; every execution of the reference ends with its two result buffers at these two arrays and
  with the arguments unchanged.
-/
import proofs.«122962_g11562051960852_week1_w4_899_2_alg».proof.Proof.RefRead
import proofs.«122962_g11562051960852_week1_w4_899_2_alg».proof.Defs
import proofs.«122962_g11562051960852_week1_w4_899_2_alg».proof.Proof.Gen.ReferenceIdeal
import proofs.«122962_g11562051960852_week1_w4_899_2_alg».proof.Proof.Gen.Pre_finite_inputs

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem

/-- The reference form's second layer of the argument arrays a memory holds. -/
abbrev h2Of (m : (ℓ : Loc nD τ sig) → Buf (Elt Ideal) ℓ) (c : Dev nD) : Fin 4096 → Fin 32 → EReal :=
  Cert.Gcn.h2R (cur2 (m ((c.tc : Thread nD τ).loc main_arg1))) (cur2 (m ((c.tc : Thread nD τ).loc main_arg0)))
    (cur2 (m ((c.tc : Thread nD τ).loc main_arg2))) (cur1 (m ((c.tc : Thread nD τ).loc main_arg3)))
    (cur2 (m ((c.tc : Thread nD τ).loc main_arg4))) (cur1 (m ((c.tc : Thread nD τ).loc main_arg5)))
/-- The reference form's assignment softmax of them. -/
abbrev sOf (m : (ℓ : Loc nD τ sig) → Buf (Elt Ideal) ℓ) (c : Dev nD) : Fin 4096 → Fin 64 → EReal :=
  Cert.Gcn.smR (cur2 (m ((c.tc : Thread nD τ).loc main_arg6))) (cur1 (m ((c.tc : Thread nD τ).loc main_arg7))) (h2Of m c)
/-- The reference form's pooled product of them. -/
abbrev poolOf (m : (ℓ : Loc nD τ sig) → Buf (Elt Ideal) ℓ) (c : Dev nD) : Fin 64 → Fin 32 → EReal :=
  Cert.Gcn.poolR (sOf m c) (h2Of m c)

/-- The assignment result, as an array. -/
theorem res_S_eq (m : (ℓ : Loc nD τ sig) → Buf (Elt Ideal) ℓ) (c : Dev nD) :
    Cert.ReferenceIdeal.Value.res_main_v46 m c = fun i => sOf m c (i 0) (i 1) := by
  funext i
  obtain ⟨r, k, rfl⟩ : ∃ (r : Fin 4096) (k : Fin 64), i = ix2 r k := ⟨i 0, i 1, eq_ix2 i⟩
  rw [val_main_v46_eq]
  exact ref_S _ _ _ _ _ _ _ _ r k

/-- The pooled result, as an array. -/
theorem res_pool_eq (m : (ℓ : Loc nD τ sig) → Buf (Elt Ideal) ℓ) (c : Dev nD) :
    Cert.ReferenceIdeal.Value.res_main_v48 m c = fun i => poolOf m c (i 0) (i 1) := by
  funext i
  obtain ⟨k, j, rfl⟩ : ∃ (k : Fin 64) (j : Fin 32), i = ix2 k j := ⟨i 0, i 1, eq_ix2 i⟩
  rw [val_main_v48_eq]
  exact ref_pool _ _ _ _ _ _ _ _ k j

/-- The reference's run at the two arrays: every execution ends with the pooled product and the assignment in the two
    result buffers and the eight arguments unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v48) = (fun i => poolOf m c (i 0) (i 1))
      ∧ r.2.mem ((c.tc : Thread nD τ).loc main_v46) = (fun i => sOf m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans (res_pool_eq m c), (h c).2.1.trans (res_S_eq m c), (h c).2.2⟩)
    (Cert.ReferenceIdeal.Value.run (F := Ideal) m ρ)

/-- The reference runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run _ _ _).mono (fun _ h c => (h c).2.2) (Cert.ReferenceIdeal.Value.run (F := Ideal) m ρ)

end Cert.ReferenceIdeal.RefValue

end
-- ==== Proof.KIBlocks.lean ====
/-
  The geometry of the three pipelines' windows, away from any contents: every window's block index at a grid point
  (decided over the eight points: a row-blocked window sits at block (t, 0), a whole-array window at (0, 0)); an
  element of a block as an index of the array — row `512 · t + y₀` for a row-blocked window, the element's own index for a
  whole-array one —; which array indices a written-back block covers; and that the eight row blocks cover every row.
-/
import proofs.«122962_g11562051960852_week1_w4_899_2_alg».proof.Proof.Gen.KernelIdeal.Points
import proofs.«122962_g11562051960852_week1_w4_899_2_alg».proof.Proof.Gen.KernelIdeal.Launch
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## Pipeline 0 -/

/-- The block index of each of pipeline 0's windows at a grid point, decided over the eight points. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- An element of window 0's block at point `t` is the array's element in row `512 · t + y₀`. -/
theorem emb0_0 (t : Fin cfg0.N) (y : S512x4096.Idx) (k : S4096x4096.Idx)
    (hk0 : (k 0).val = 512 * t.val + (y 0).val) (hk1 : (k 1).val = (y 1).val) :
    ((cfg0.win 0).blk t).view.emb y = k := by
  obtain ⟨e0, e1, -⟩ := idx0 t
  funext a
  apply Fin.ext
  match a with
  | ⟨0, _⟩ => show win0_0.index t (0 : Fin 2) * 512 + 1 * (y 0).val = (k 0).val; rw [e0, hk0]; omega
  | ⟨1, _⟩ => show win0_0.index t (1 : Fin 2) * 4096 + 1 * (y 1).val = (k 1).val; rw [e1, hk1]; omega

/-- An element of window 1's block at point `t` is the array's element in row `512 · t + y₀`. -/
theorem emb0_1 (t : Fin cfg0.N) (y : S512x128.Idx) (k : S4096x128.Idx)
    (hk0 : (k 0).val = 512 * t.val + (y 0).val) (hk1 : (k 1).val = (y 1).val) :
    ((cfg0.win 1).blk t).view.emb y = k := by
  obtain ⟨-, -, e0, e1, -⟩ := idx0 t
  funext a
  apply Fin.ext
  match a with
  | ⟨0, _⟩ => show win0_1.index t (0 : Fin 2) * 512 + 1 * (y 0).val = (k 0).val; rw [e0, hk0]; omega
  | ⟨1, _⟩ => show win0_1.index t (1 : Fin 2) * 128 + 1 * (y 1).val = (k 1).val; rw [e1, hk1]; omega

/-- An element of window 2's block at point `t` is the array's element at the same index (the block is the whole array). -/
theorem emb0_2 (t : Fin cfg0.N) (y : S128x64.Idx) (k : S128x64.Idx)
    (hk0 : (k 0).val = (y 0).val) (hk1 : (k 1).val = (y 1).val) :
    ((cfg0.win 2).blk t).view.emb y = k := by
  obtain ⟨-, -, -, -, e0, e1, -⟩ := idx0 t
  funext a
  apply Fin.ext
  match a with
  | ⟨0, _⟩ => show win0_2.index t (0 : Fin 2) * 128 + 1 * (y 0).val = (k 0).val; rw [e0, hk0]; omega
  | ⟨1, _⟩ => show win0_2.index t (1 : Fin 2) * 64 + 1 * (y 1).val = (k 1).val; rw [e1, hk1]; omega

/-- An element of window 3's block at point `t` is the array's element in row `512 · t + y₀`. -/
theorem emb0_3 (t : Fin cfg0.N) (y : S512x1.Idx) (k : S4096x1.Idx)
    (hk0 : (k 0).val = 512 * t.val + (y 0).val) (hk1 : (k 1).val = (y 1).val) :
    ((cfg0.win 3).blk t).view.emb y = k := by
  obtain ⟨-, -, -, -, -, -, e0, e1, -⟩ := idx0 t
  funext a
  apply Fin.ext
  match a with
  | ⟨0, _⟩ => show win0_3.index t (0 : Fin 2) * 512 + 1 * (y 0).val = (k 0).val; rw [e0, hk0]; omega
  | ⟨1, _⟩ => show win0_3.index t (1 : Fin 2) * 1 + 1 * (y 1).val = (k 1).val; rw [e1, hk1]; omega

/-- An element of window 4's block at point `t` is the array's element in row `512 · t + y₀`. -/
theorem emb0_4 (t : Fin cfg0.N) (y : S512x64.Idx) (k : S4096x64.Idx)
    (hk0 : (k 0).val = 512 * t.val + (y 0).val) (hk1 : (k 1).val = (y 1).val) :
    ((cfg0.win 4).blk t).view.emb y = k := by
  obtain ⟨-, -, -, -, -, -, -, -, e0, e1⟩ := idx0 t
  funext a
  apply Fin.ext
  match a with
  | ⟨0, _⟩ => show win0_4.index t (0 : Fin 2) * 512 + 1 * (y 0).val = (k 0).val; rw [e0, hk0]; omega
  | ⟨1, _⟩ => show win0_4.index t (1 : Fin 2) * 64 + 1 * (y 1).val = (k 1).val; rw [e1, hk1]; omega

/-! ## Pipeline 1 -/

/-- The block index of each of pipeline 1's windows at a grid point, decided over the eight points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An element of window 0's block at point `t` is the array's element in row `512 · t + y₀`. -/
theorem emb1_0 (t : Fin cfg1.N) (y : S512x4096.Idx) (k : S4096x4096.Idx)
    (hk0 : (k 0).val = 512 * t.val + (y 0).val) (hk1 : (k 1).val = (y 1).val) :
    ((cfg1.win 0).blk t).view.emb y = k := by
  obtain ⟨e0, e1, -⟩ := idx1 t
  funext a
  apply Fin.ext
  match a with
  | ⟨0, _⟩ => show win1_0.index t (0 : Fin 2) * 512 + 1 * (y 0).val = (k 0).val; rw [e0, hk0]; omega
  | ⟨1, _⟩ => show win1_0.index t (1 : Fin 2) * 4096 + 1 * (y 1).val = (k 1).val; rw [e1, hk1]; omega

/-- An element of window 1's block at point `t` is the array's element at the same index (the block is the whole array). -/
theorem emb1_1 (t : Fin cfg1.N) (y : S4096x64.Idx) (k : S4096x64.Idx)
    (hk0 : (k 0).val = (y 0).val) (hk1 : (k 1).val = (y 1).val) :
    ((cfg1.win 1).blk t).view.emb y = k := by
  obtain ⟨-, -, e0, e1, -⟩ := idx1 t
  funext a
  apply Fin.ext
  match a with
  | ⟨0, _⟩ => show win1_1.index t (0 : Fin 2) * 4096 + 1 * (y 0).val = (k 0).val; rw [e0, hk0]; omega
  | ⟨1, _⟩ => show win1_1.index t (1 : Fin 2) * 64 + 1 * (y 1).val = (k 1).val; rw [e1, hk1]; omega

/-- An element of window 2's block at point `t` is the array's element in row `512 · t + y₀`. -/
theorem emb1_2 (t : Fin cfg1.N) (y : S512x1.Idx) (k : S4096x1.Idx)
    (hk0 : (k 0).val = 512 * t.val + (y 0).val) (hk1 : (k 1).val = (y 1).val) :
    ((cfg1.win 2).blk t).view.emb y = k := by
  obtain ⟨-, -, -, -, e0, e1, -⟩ := idx1 t
  funext a
  apply Fin.ext
  match a with
  | ⟨0, _⟩ => show win1_2.index t (0 : Fin 2) * 512 + 1 * (y 0).val = (k 0).val; rw [e0, hk0]; omega
  | ⟨1, _⟩ => show win1_2.index t (1 : Fin 2) * 1 + 1 * (y 1).val = (k 1).val; rw [e1, hk1]; omega

/-- An element of window 3's block at point `t` is the array's element at the same index (the block is the whole array). -/
theorem emb1_3 (t : Fin cfg1.N) (y : S1x64.Idx) (k : S1x64.Idx)
    (hk0 : (k 0).val = (y 0).val) (hk1 : (k 1).val = (y 1).val) :
    ((cfg1.win 3).blk t).view.emb y = k := by
  obtain ⟨-, -, -, -, -, -, e0, e1, -⟩ := idx1 t
  funext a
  apply Fin.ext
  match a with
  | ⟨0, _⟩ => show win1_3.index t (0 : Fin 2) * 1 + 1 * (y 0).val = (k 0).val; rw [e0, hk0]; omega
  | ⟨1, _⟩ => show win1_3.index t (1 : Fin 2) * 64 + 1 * (y 1).val = (k 1).val; rw [e1, hk1]; omega

/-- An element of window 4's block at point `t` is the array's element at the same index (the block is the whole array). -/
theorem emb1_4 (t : Fin cfg1.N) (y : S64x32.Idx) (k : S64x32.Idx)
    (hk0 : (k 0).val = (y 0).val) (hk1 : (k 1).val = (y 1).val) :
    ((cfg1.win 4).blk t).view.emb y = k := by
  obtain ⟨-, -, -, -, -, -, -, -, e0, e1, -⟩ := idx1 t
  funext a
  apply Fin.ext
  match a with
  | ⟨0, _⟩ => show win1_4.index t (0 : Fin 2) * 64 + 1 * (y 0).val = (k 0).val; rw [e0, hk0]; omega
  | ⟨1, _⟩ => show win1_4.index t (1 : Fin 2) * 32 + 1 * (y 1).val = (k 1).val; rw [e1, hk1]; omega

/-- An element of window 5's block at point `t` is the array's element in row `512 · t + y₀`. -/
theorem emb1_5 (t : Fin cfg1.N) (y : S512x32.Idx) (k : S4096x32.Idx)
    (hk0 : (k 0).val = 512 * t.val + (y 0).val) (hk1 : (k 1).val = (y 1).val) :
    ((cfg1.win 5).blk t).view.emb y = k := by
  obtain ⟨-, -, -, -, -, -, -, -, -, -, e0, e1⟩ := idx1 t
  funext a
  apply Fin.ext
  match a with
  | ⟨0, _⟩ => show win1_5.index t (0 : Fin 2) * 512 + 1 * (y 0).val = (k 0).val; rw [e0, hk0]; omega
  | ⟨1, _⟩ => show win1_5.index t (1 : Fin 2) * 32 + 1 * (y 1).val = (k 1).val; rw [e1, hk1]; omega

/-! ## Pipeline 2 -/

/-- The block index of each of pipeline 2's windows at a grid point, decided over the eight points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0 :=
  (by decide +kernel : ∀ t : Fin grid2.N, _)

/-- An element of window 0's block at point `t` is the array's element in row `512 · t + y₀`. -/
theorem emb2_0 (t : Fin cfg2.N) (y : S512x4096.Idx) (k : S4096x4096.Idx)
    (hk0 : (k 0).val = 512 * t.val + (y 0).val) (hk1 : (k 1).val = (y 1).val) :
    ((cfg2.win 0).blk t).view.emb y = k := by
  obtain ⟨e0, e1, -⟩ := idx2 t
  funext a
  apply Fin.ext
  match a with
  | ⟨0, _⟩ => show win2_0.index t (0 : Fin 2) * 512 + 1 * (y 0).val = (k 0).val; rw [e0, hk0]; omega
  | ⟨1, _⟩ => show win2_0.index t (1 : Fin 2) * 4096 + 1 * (y 1).val = (k 1).val; rw [e1, hk1]; omega

/-- An element of window 1's block at point `t` is the array's element at the same index (the block is the whole array). -/
theorem emb2_1 (t : Fin cfg2.N) (y : S4096x32.Idx) (k : S4096x32.Idx)
    (hk0 : (k 0).val = (y 0).val) (hk1 : (k 1).val = (y 1).val) :
    ((cfg2.win 1).blk t).view.emb y = k := by
  obtain ⟨-, -, e0, e1, -⟩ := idx2 t
  funext a
  apply Fin.ext
  match a with
  | ⟨0, _⟩ => show win2_1.index t (0 : Fin 2) * 4096 + 1 * (y 0).val = (k 0).val; rw [e0, hk0]; omega
  | ⟨1, _⟩ => show win2_1.index t (1 : Fin 2) * 32 + 1 * (y 1).val = (k 1).val; rw [e1, hk1]; omega

/-- An element of window 2's block at point `t` is the array's element in row `512 · t + y₀`. -/
theorem emb2_2 (t : Fin cfg2.N) (y : S512x1.Idx) (k : S4096x1.Idx)
    (hk0 : (k 0).val = 512 * t.val + (y 0).val) (hk1 : (k 1).val = (y 1).val) :
    ((cfg2.win 2).blk t).view.emb y = k := by
  obtain ⟨-, -, -, -, e0, e1, -⟩ := idx2 t
  funext a
  apply Fin.ext
  match a with
  | ⟨0, _⟩ => show win2_2.index t (0 : Fin 2) * 512 + 1 * (y 0).val = (k 0).val; rw [e0, hk0]; omega
  | ⟨1, _⟩ => show win2_2.index t (1 : Fin 2) * 1 + 1 * (y 1).val = (k 1).val; rw [e1, hk1]; omega

/-- An element of window 3's block at point `t` is the array's element at the same index (the block is the whole array). -/
theorem emb2_3 (t : Fin cfg2.N) (y : S1x32.Idx) (k : S1x32.Idx)
    (hk0 : (k 0).val = (y 0).val) (hk1 : (k 1).val = (y 1).val) :
    ((cfg2.win 3).blk t).view.emb y = k := by
  obtain ⟨-, -, -, -, -, -, e0, e1, -⟩ := idx2 t
  funext a
  apply Fin.ext
  match a with
  | ⟨0, _⟩ => show win2_3.index t (0 : Fin 2) * 1 + 1 * (y 0).val = (k 0).val; rw [e0, hk0]; omega
  | ⟨1, _⟩ => show win2_3.index t (1 : Fin 2) * 32 + 1 * (y 1).val = (k 1).val; rw [e1, hk1]; omega

/-- An element of window 4's block at point `t` is the array's element at the same index (the block is the whole array). -/
theorem emb2_4 (t : Fin cfg2.N) (y : S32x64.Idx) (k : S32x64.Idx)
    (hk0 : (k 0).val = (y 0).val) (hk1 : (k 1).val = (y 1).val) :
    ((cfg2.win 4).blk t).view.emb y = k := by
  obtain ⟨-, -, -, -, -, -, -, -, e0, e1, -⟩ := idx2 t
  funext a
  apply Fin.ext
  match a with
  | ⟨0, _⟩ => show win2_4.index t (0 : Fin 2) * 32 + 1 * (y 0).val = (k 0).val; rw [e0, hk0]; omega
  | ⟨1, _⟩ => show win2_4.index t (1 : Fin 2) * 64 + 1 * (y 1).val = (k 1).val; rw [e1, hk1]; omega

/-- An element of window 5's block at point `t` is the array's element at the same index (the block is the whole array). -/
theorem emb2_5 (t : Fin cfg2.N) (y : S1x64.Idx) (k : S1x64.Idx)
    (hk0 : (k 0).val = (y 0).val) (hk1 : (k 1).val = (y 1).val) :
    ((cfg2.win 5).blk t).view.emb y = k := by
  obtain ⟨-, -, -, -, -, -, -, -, -, -, e0, e1, -⟩ := idx2 t
  funext a
  apply Fin.ext
  match a with
  | ⟨0, _⟩ => show win2_5.index t (0 : Fin 2) * 1 + 1 * (y 0).val = (k 0).val; rw [e0, hk0]; omega
  | ⟨1, _⟩ => show win2_5.index t (1 : Fin 2) * 64 + 1 * (y 1).val = (k 1).val; rw [e1, hk1]; omega

/-- An element of window 6's block at point `t` is the array's element in row `512 · t + y₀`. -/
theorem emb2_6 (t : Fin cfg2.N) (y : S512x64.Idx) (k : S4096x64.Idx)
    (hk0 : (k 0).val = 512 * t.val + (y 0).val) (hk1 : (k 1).val = (y 1).val) :
    ((cfg2.win 6).blk t).view.emb y = k := by
  obtain ⟨-, -, -, -, -, -, -, -, -, -, -, -, e0, e1, -⟩ := idx2 t
  funext a
  apply Fin.ext
  match a with
  | ⟨0, _⟩ => show win2_6.index t (0 : Fin 2) * 512 + 1 * (y 0).val = (k 0).val; rw [e0, hk0]; omega
  | ⟨1, _⟩ => show win2_6.index t (1 : Fin 2) * 64 + 1 * (y 1).val = (k 1).val; rw [e1, hk1]; omega

/-- An element of window 7's block at point `t` is the array's element at the same index (the block is the whole array). -/
theorem emb2_7 (t : Fin cfg2.N) (y : S64x32.Idx) (k : S64x32.Idx)
    (hk0 : (k 0).val = (y 0).val) (hk1 : (k 1).val = (y 1).val) :
    ((cfg2.win 7).blk t).view.emb y = k := by
  obtain ⟨-, -, -, -, -, -, -, -, -, -, -, -, -, -, e0, e1⟩ := idx2 t
  funext a
  apply Fin.ext
  match a with
  | ⟨0, _⟩ => show win2_7.index t (0 : Fin 2) * 64 + 1 * (y 0).val = (k 0).val; rw [e0, hk0]; omega
  | ⟨1, _⟩ => show win2_7.index t (1 : Fin 2) * 32 + 1 * (y 1).val = (k 1).val; rw [e1, hk1]; omega

/-- The array indices output window 3 of pipeline 0 writes back at point `t`: rows `512 · t … 512 · t + 511`. -/
theorem mem_blk0_3 (t : Fin cfg0.N) (i : S4096x1.Idx) :
    i ∈ ((cfg0.win 3).blk t).view.set ↔ 512 * t.val ≤ (i 0).val ∧ (i 0).val < 512 * t.val + 512 := by
  obtain ⟨-, -, -, -, -, -, e0, e1, -⟩ := idx0 t
  show i ∈ ((View.whole main_v3_0).slice (win0_3.rect t)).set ↔ _
  rw [View.set_slice_whole, Rect.mem_set_unit]
  constructor
  · intro h
    have h0 : win0_3.index t (0 : Fin 2) * 512 ≤ (i 0).val ∧ (i 0).val < win0_3.index t (0 : Fin 2) * 512 + 512 := h 0
    omega
  · intro h a
    have h1 : (i 1).val < 1 := (i 1).isLt
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 1 ≤ (i 1).val ∧ (i 1).val < win0_3.index t (1 : Fin 2) * 1 + 1; omega

/-- Every row is in the block of the point `row / 512`, which writes back. -/
theorem cover0_3 (i : S4096x1.Idx) : ∃ t : Fin cfg0.N, (cfg0.win 3).flush t = true ∧ i ∈ ((cfg0.win 3).blk t).view.set := by
  have h0 : (i 0).val < 4096 := (i 0).isLt
  refine ⟨⟨(i 0).val / 512, by rw [show cfg0.N = 8 from N_0]; omega⟩, flush0_3 _, ?_⟩
  rw [mem_blk0_3]
  show 512 * ((i 0).val / 512) ≤ (i 0).val ∧ (i 0).val < 512 * ((i 0).val / 512) + 512
  omega

/-- The array indices output window 4 of pipeline 0 writes back at point `t`: rows `512 · t … 512 · t + 511`. -/
theorem mem_blk0_4 (t : Fin cfg0.N) (i : S4096x64.Idx) :
    i ∈ ((cfg0.win 4).blk t).view.set ↔ 512 * t.val ≤ (i 0).val ∧ (i 0).val < 512 * t.val + 512 := by
  obtain ⟨-, -, -, -, -, -, -, -, e0, e1⟩ := idx0 t
  show i ∈ ((View.whole main_v3_1).slice (win0_4.rect t)).set ↔ _
  rw [View.set_slice_whole, Rect.mem_set_unit]
  constructor
  · intro h
    have h0 : win0_4.index t (0 : Fin 2) * 512 ≤ (i 0).val ∧ (i 0).val < win0_4.index t (0 : Fin 2) * 512 + 512 := h 0
    omega
  · intro h a
    have h1 : (i 1).val < 64 := (i 1).isLt
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 64 ≤ (i 1).val ∧ (i 1).val < win0_4.index t (1 : Fin 2) * 64 + 64; omega

/-- Every row is in the block of the point `row / 512`, which writes back. -/
theorem cover0_4 (i : S4096x64.Idx) : ∃ t : Fin cfg0.N, (cfg0.win 4).flush t = true ∧ i ∈ ((cfg0.win 4).blk t).view.set := by
  have h0 : (i 0).val < 4096 := (i 0).isLt
  refine ⟨⟨(i 0).val / 512, by rw [show cfg0.N = 8 from N_0]; omega⟩, flush0_4 _, ?_⟩
  rw [mem_blk0_4]
  show 512 * ((i 0).val / 512) ≤ (i 0).val ∧ (i 0).val < 512 * ((i 0).val / 512) + 512
  omega

/-- The array indices output window 5 of pipeline 1 writes back at point `t`: rows `512 · t … 512 · t + 511`. -/
theorem mem_blk1_5 (t : Fin cfg1.N) (i : S4096x32.Idx) :
    i ∈ ((cfg1.win 5).blk t).view.set ↔ 512 * t.val ≤ (i 0).val ∧ (i 0).val < 512 * t.val + 512 := by
  obtain ⟨-, -, -, -, -, -, -, -, -, -, e0, e1⟩ := idx1 t
  show i ∈ ((View.whole main_v4).slice (win1_5.rect t)).set ↔ _
  rw [View.set_slice_whole, Rect.mem_set_unit]
  constructor
  · intro h
    have h0 : win1_5.index t (0 : Fin 2) * 512 ≤ (i 0).val ∧ (i 0).val < win1_5.index t (0 : Fin 2) * 512 + 512 := h 0
    omega
  · intro h a
    have h1 : (i 1).val < 32 := (i 1).isLt
    match a with
    | ⟨0, _⟩ => show win1_5.index t (0 : Fin 2) * 512 ≤ (i 0).val ∧ (i 0).val < win1_5.index t (0 : Fin 2) * 512 + 512; omega
    | ⟨1, _⟩ => show win1_5.index t (1 : Fin 2) * 32 ≤ (i 1).val ∧ (i 1).val < win1_5.index t (1 : Fin 2) * 32 + 32; omega

/-- Every row is in the block of the point `row / 512`, which writes back. -/
theorem cover1_5 (i : S4096x32.Idx) : ∃ t : Fin cfg1.N, (cfg1.win 5).flush t = true ∧ i ∈ ((cfg1.win 5).blk t).view.set := by
  have h0 : (i 0).val < 4096 := (i 0).isLt
  refine ⟨⟨(i 0).val / 512, by rw [show cfg1.N = 8 from N_1]; omega⟩, flush1_5 _, ?_⟩
  rw [mem_blk1_5]
  show 512 * ((i 0).val / 512) ≤ (i 0).val ∧ (i 0).val < 512 * ((i 0).val / 512) + 512
  omega

/-- The array indices output window 6 of pipeline 2 writes back at point `t`: rows `512 · t … 512 · t + 511`. -/
theorem mem_blk2_6 (t : Fin cfg2.N) (i : S4096x64.Idx) :
    i ∈ ((cfg2.win 6).blk t).view.set ↔ 512 * t.val ≤ (i 0).val ∧ (i 0).val < 512 * t.val + 512 := by
  obtain ⟨-, -, -, -, -, -, -, -, -, -, -, -, e0, e1, -⟩ := idx2 t
  show i ∈ ((View.whole main_v5_0).slice (win2_6.rect t)).set ↔ _
  rw [View.set_slice_whole, Rect.mem_set_unit]
  constructor
  · intro h
    have h0 : win2_6.index t (0 : Fin 2) * 512 ≤ (i 0).val ∧ (i 0).val < win2_6.index t (0 : Fin 2) * 512 + 512 := h 0
    omega
  · intro h a
    have h1 : (i 1).val < 64 := (i 1).isLt
    match a with
    | ⟨0, _⟩ => show win2_6.index t (0 : Fin 2) * 512 ≤ (i 0).val ∧ (i 0).val < win2_6.index t (0 : Fin 2) * 512 + 512; omega
    | ⟨1, _⟩ => show win2_6.index t (1 : Fin 2) * 64 ≤ (i 1).val ∧ (i 1).val < win2_6.index t (1 : Fin 2) * 64 + 64; omega

/-- Every row is in the block of the point `row / 512`, which writes back. -/
theorem cover2_6 (i : S4096x64.Idx) : ∃ t : Fin cfg2.N, (cfg2.win 6).flush t = true ∧ i ∈ ((cfg2.win 6).blk t).view.set := by
  have h0 : (i 0).val < 4096 := (i 0).isLt
  refine ⟨⟨(i 0).val / 512, by rw [show cfg2.N = 8 from N_2]; omega⟩, flush2_6 _, ?_⟩
  rw [mem_blk2_6]
  show 512 * ((i 0).val / 512) ≤ (i 0).val ∧ (i 0).val < 512 * ((i 0).val / 512) + 512
  omega

/-- The pooled output's one block is its whole array, at every point. -/
theorem mem_blk2_7 (t : Fin cfg2.N) (i : S64x32.Idx) : i ∈ ((cfg2.win 7).blk t).view.set := by
  obtain ⟨-, -, -, -, -, -, -, -, -, -, -, -, -, -, e0, e1⟩ := idx2 t
  show i ∈ ((View.whole main_v5_1).slice (win2_7.rect t)).set
  rw [View.set_slice_whole, Rect.mem_set_unit]
  intro a
  have h0 : (i 0).val < 64 := (i 0).isLt
  have h1 : (i 1).val < 32 := (i 1).isLt
  match a with
  | ⟨0, _⟩ => show win2_7.index t (0 : Fin 2) * 64 ≤ (i 0).val ∧ (i 0).val < win2_7.index t (0 : Fin 2) * 64 + 64; omega
  | ⟨1, _⟩ => show win2_7.index t (1 : Fin 2) * 32 ≤ (i 1).val ∧ (i 1).val < win2_7.index t (1 : Fin 2) * 32 + 32; omega

/-- The last point writes the pooled output back, and its block is the whole array. -/
theorem cover2_7 (i : S64x32.Idx) : ∃ t : Fin cfg2.N, (cfg2.win 7).flush t = true ∧ i ∈ ((cfg2.win 7).blk t).view.set :=
  ⟨t2_7, (flush2_7 t2_7).mpr rfl, mem_blk2_7 t2_7 i⟩

end Cert.KernelIdeal.Blocks

end
-- ==== Proof.KIPayBase.lean ====
/-
  Small readings at an index that the stored values of the three kernels share: two words (one, minus infinity), a vector cast
  to a column and a column laid along every row, a sum and a maximum along the rows of a matrix, and the pointwise
  operations an index reads through.
-/
import proofs.«122962_g11562051960852_week1_w4_899_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Two words: one, and minus infinity -/

/-- The word `0x3F800000` is the number one. -/
theorem ofBits_one_f32 : Ideal.ofBits .f32 0x3F800000#32 = 1 := IdealRules.sign_bit.ideal_onePat .f32

/-- The word `0xFF800000` is minus infinity, the least extended real. -/
theorem ofBits_negInf_f32 : Ideal.ofBits .f32 0xFF800000#32 = ⊥ := by simp [Ideal.ofBits, Ideal.ieee]

/-! ## A column: a vector cast to one, and one laid along every row -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Column

/-! ## A reduction along the rows of a matrix -/

/-- The sum along each row, read at row `p`: the sum of that row's entries. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ j : Fin b, src (ix2 p j) := by
  refine (Ideal.multiReduction_add_single src 0x00000000#32 h hφ hacc (ix1 p)).trans ?_
  show ∑ k : Fin b, src (h.lift (ix1 p) k) = ∑ j : Fin b, src (ix2 p j)
  refine Finset.sum_congr rfl fun k _ => congrArg src ?_
  funext c
  match c with
  | ⟨0, _⟩ => rfl
  | ⟨1, _⟩ => rfl

/-- The maximum along each row, read at row `p`: the fold of `max` from minus infinity over that row's entries. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_negInf_f32]
  refine congrArg (fun f => (Finset.univ : Finset (Fin b)).fold max ⊥ f) (funext fun k => ?_)
  show src (h.lift (ix1 p) k) = src (ix2 p k)
  refine congrArg src ?_
  funext c
  match c with
  | ⟨0, _⟩ => rfl
  | ⟨1, _⟩ => rfl

/-! ## Pointwise operations the index reads through -/

section Pointwise
variable {s : Shape} {φ : FTy}

/-- An inverse square root at an index is the element's. -/
theorem rsqrt_apply (x : FVec Ideal s φ) (i : s.Idx) : rsqrt x i = Ideal.rsqrt (x i) := rfl
/-- An exponential at an index is the element's. -/
theorem exp_apply (x : FVec Ideal s φ) (i : s.Idx) : exp x i = Ideal.exp (x i) := rfl
/-- A scalar word at the extended reals is the number it encodes. -/
theorem scalar_ofBits (b : BitVec φ.bits) : Scalar.ofBits (F := Ideal) φ b = Ideal.ofBits φ b := rfl
/-- "Greater than" on the extended reals, as the bit a select reads. -/
theorem select_ogt {α : Type} (x y : Ideal φ) (a b : α) :
    Scalar.select (FloatOps.cmpf .ogt x y) a b = if y < x then a else b := by
  show (if Ideal.cmp .ogt x y = 1#1 then a else b) = _
  unfold Ideal.cmp
  by_cases h : y < x <;> simp [h]

end Pointwise

end Cert.KernelIdeal.Pay

end
-- ==== Proof.KIPay0.lean ====
/-
  Pass A's two stored values, read at one index over the extended reals.

  With the block of adjacency rows `A`, the block of feature rows `X` and the first weights `W1`:
    dis p  = if 0 < (∑ j, A p j) + 1 then rsqrt ((∑ j, A p j) + 1) else 0      (the column of scalings),
    Z1 p q = dis p * ∑ d, X p d * W1 d q                                        (the pre-scaled factor).
-/
import proofs.«122962_g11562051960852_week1_w4_899_2_alg».proof.Proof.KIPayBase

noncomputable section

open scoped BigOperators

namespace Cert.KernelIdeal.Pay

open Cert.KernelIdeal Cert.KernelIdeal.Gen Idealize.ShloMosaic Idealize.ShloMosaic.ValueIdx

/-! ## The matrix product of pass A, read at an index -/

section DotA
/- features × first weights: `[512,128] · [128,64]`. -/

theorem dotA_lhs0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide),
    dif_pos (show (0 : Fin S512x128.rank) ∈ dot_S512x128_S128x64_S512x64_1_0_0_1_n_n.lhsNonContracting by decide)]
  rfl
theorem dotA_rhs1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide),
    dif_pos (show (1 : Fin S128x64.rank) ∈ dot_S512x128_S128x64_S512x64_1_0_0_1_n_n.rhsNonContracting by decide)]
  rfl

/-- The product into the zero accumulator, at `(p, q)`: the sum over the contracted axis of the products. -/
theorem dotA_apply (lhs : FVec Ideal S512x128 .f32) (rhs : FVec Ideal S128x64 .f32) (p : Fin 512) (q : Fin 64) :
    matmul dot_S512x128_S128x64_S512x64_1_0_0_1_n_n none lhs rhs (constant (F := Ideal) S512x64 .f32 0x00000000#32) (ix2 p q)
      = ∑ d : Fin 128, lhs (ix2 p d) * rhs (ix2 d q) := by
  simp only [matmul]
  rw [Ideal.matmul_constant_zero_apply,
    ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 p q)
      ((contrEquiv1 dot_S512x128_S128x64_S512x64_1_0_0_1_n_n 128 rfl rfl).symm k) = ix2 p k :=
    funext fun a => Fin.ext (by
      match a with
      | ⟨0, _⟩ => exact dotA_lhs0 _ _
      | ⟨1, _⟩ => exact (dot_S512x128_S128x64_S512x64_1_0_0_1_n_n.lhsIdx_val_of_single rfl _ _).trans hk)
  have er : dot_S512x128_S128x64_S512x64_1_0_0_1_n_n.rhsIdx (ix2 p q)
      ((contrEquiv1 dot_S512x128_S128x64_S512x64_1_0_0_1_n_n 128 rfl rfl).symm k) = ix2 k q :=
    funext fun a => Fin.ext (by
      match a with
      | ⟨0, _⟩ => exact (dot_S512x128_S128x64_S512x64_1_0_0_1_n_n.rhsIdx_val_of_single rfl _ _).trans hk
      | ⟨1, _⟩ => exact dotA_rhs1 _ _)
  rw [el, er]

end DotA

/-! ## Pass A -/

/-- The inverse square root of a row's degree where the degree is positive, else zero. -/
theorem pay0_1_apply (v0 : Vec Ideal S512x4096 .f32) (p : Fin 512) (u : Fin 1) :
    Gen.k0_pay1 (F := Ideal) v0 (ix2 p u)
      = (if 0 < (∑ j : Fin 4096, v0 (ix2 p j)) + 1 then Ideal.rsqrt ((∑ j : Fin 4096, v0 (ix2 p j)) + 1) else 0) := by
  have hs : ∀ (hφ : FKind.Formats .f32) (hacc : (0x00000000#32 : BitVec 32) = 0x00000000#32),
      multiReduction (F := Ideal) (φ := .f32) .add [1] S512 v0 0x00000000#32 reduces_S512x4096_S512 hφ hacc (ix1 p)
      = ∑ j : Fin 4096, v0 (ix2 p j) := fun hφ hacc => rowSum_apply v0 _ hφ hacc p
  unfold Gen.k0_pay1
  simp only [select_apply, cmpf_apply, rsqrt_apply, addf_apply, broadcast_apply, shapeCast_a_a1_apply, hs,
    select_ogt, scalar_ofBits, ofBits_one_f32, Ideal.ofBits_zero_f32]

/-- The first layer's pre-scaled factor: the row's scaling times the row of features against a column of weights. -/
theorem pay0_2_apply (v0 : Vec Ideal S512x4096 .f32) (v11 : Vec Ideal S512x128 .f32) (v12 : Vec Ideal S128x64 .f32)
    (p : Fin 512) (q : Fin 64) :
    Gen.k0_pay2 (F := Ideal) v0 v11 v12 (ix2 p q)
      = Gen.k0_pay1 (F := Ideal) v0 (ix2 p (0 : Fin 1)) * ∑ d : Fin 128, v11 (ix2 p d) * v12 (ix2 d q) := by
  unfold Gen.k0_pay2
  simp only [mulf_apply, broadcastTo_a1_ab_apply, dotA_apply]

end Cert.KernelIdeal.Pay

end
-- ==== Proof.KIValue0.lean ====
/-
  What pass A leaves in its two output arrays, as functions of the arrays it finds: the inverse square-root degree
  column `dis` (rows' degrees `(∑ j, A r j) + 1`, positive or zeroed) and the pre-scaled factor `dis · (X W1)`.
  Each grid point writes back rows `512 · t … 512 · t + 511` of those functions, and the eight row blocks cover the
  arrays.
-/
import proofs.«122962_g11562051960852_week1_w4_899_2_alg».proof.Proof.KIFrame0
import proofs.«122962_g11562051960852_week1_w4_899_2_alg».proof.Proof.KIBlocks
import proofs.«122962_g11562051960852_week1_w4_899_2_alg».proof.Proof.KIPay0
import proofs.«122962_g11562051960852_week1_w4_899_2_alg».proof.Proof.GcnSpec
import Idealize.ShloMosaic.Lib.Pipeline.Value
import Idealize.ShloMosaic.Lib.ValueIdx
import Idealize.ShloMosaic.PureOps.Ideal.Laws

noncomputable section
open scoped BigOperators
open Idealize.ShloMosaic Idealize.ShloMosaic.TcCoe Idealize.SL.Sem Idealize.ShloMosaic.ValueIdx
open Idealize.ShloMosaic.Pipeline (Dat)
namespace Cert.KernelIdeal.Val
open Cert.KernelIdeal Cert.KernelIdeal.Gen Cert.KernelIdeal.Hand Cert.KernelIdeal.Blocks

/-- A rank-2 array as a curried function of its row and column. -/
abbrev cur {n0 n1 : Nat} (a : (⟨2, ![n0, n1]⟩ : Shape).Idx → EReal) : Fin n0 → Fin n1 → EReal := fun r j => a (ix2 r j)

theorem hz : (![0, 0] : Fin 2 → Nat) = fun _ => 0 := funext fun a => by fin_cases a <;> rfl

variable (V : (c : Dev nD) → (b : Ref sig .tc) → Buf (Elt Ideal) ((c : Thread nD τ).loc b))

/-- Row `512 · t + p`. -/
def rowAt (t : Fin cfg0.N) (p : Fin 512) : Fin 4096 := ⟨512 * t.val + p.val, by have h8 : t.val < 8 := Nat.lt_of_lt_of_eq t.isLt N_0; omega⟩

/-- The inverse square-root degree column, of the adjacency. -/
abbrev G0_3 (A : S4096x4096.Idx → EReal) : S4096x1.Idx → EReal := fun i => Cert.Gcn.disK (cur A) (i 0)

/-- The adjacency's block at point `t` is its rows `512 · t + p`. -/
theorem iblk0_0_apply (c : Dev nD) (t : Fin cfg0.N) (p : Fin 512) (j : Fin 4096) :
    (iblk0 V c 0 t : S512x4096.Idx → EReal) (ix2 p j) = (V c main_arg1 : S4096x4096.Idx → EReal) (ix2 (rowAt t p) j) := by
  unfold iblk0
  rw [View.read_apply]
  show (V c main_arg1 : S4096x4096.Idx → EReal) _ = _
  rw [emb0_0 t (ix2 p j) (ix2 (rowAt t p) j) rfl rfl]

/-- Point `t` writes back rows `512 · t …` of the inverse square-root degree column. -/
theorem flushed0_3_eq
    (c : Dev nD) (t : Fin cfg0.N) :
    (dat0 V c).flushed 3 t = ((cfg0.win 3).blk t).view.read (Elt Ideal) (G0_3 (V c main_arg1)) := by
  show (cfg0.win 3).cut (grid0.coords t) ((dat0 V c).after 3 t) = _
  rw [after0_3]
  unfold out0_3
  rw [View.canon_unit_zero hz]
  simp only [View.ld_unit_zero (S := S512x4096) hz]
  funext y
  obtain ⟨p, q, rfl⟩ : ∃ (p : Fin 512) (q : Fin 1), y = ix2 p q := ⟨y 0, y 1, eq_ix2 y⟩
  obtain rfl : q = 0 := Subsingleton.elim _ _
  show k0_pay1 (iblk0 V c 0 t) (ix2 p 0) = G0_3 (V c main_arg1) (((cfg0.win 3).blk t).view.emb (ix2 p 0))
  rw [Pay.pay0_1_apply, emb0_3 t (ix2 p 0) (ix2 (rowAt t p) 0) rfl rfl]
  simp only [iblk0_0_apply]
  rfl

/-- After the pass the column holds the inverse square-root degrees of every row. -/
theorem final0_3
    (c : Dev nD) : (dat0 V c).arrAt 3 cfg0.N = G0_3 (V c main_arg1) :=
  (dat0 V c).arrAt_eq_of_cover 3 (G0_3 (V c main_arg1)) (fun t _ => flushed0_3_eq V c t) cover0_3

/-- The first layer's pre-scaled factor, of the adjacency, the features and the weights. -/
abbrev G0_4 (A : S4096x4096.Idx → EReal) (X : S4096x128.Idx → EReal) (W1 : S128x64.Idx → EReal) : S4096x64.Idx → EReal :=
  fun i => Cert.Gcn.z1K (cur A) (cur X) (cur W1) (i 0) (i 1)

/-- The features' block at point `t` is their rows `512 · t + p`. -/
theorem iblk0_1_apply (c : Dev nD) (t : Fin cfg0.N) (p : Fin 512) (j : Fin 128) :
    (iblk0 V c 1 t : S512x128.Idx → EReal) (ix2 p j) = (V c main_arg0 : S4096x128.Idx → EReal) (ix2 (rowAt t p) j) := by
  unfold iblk0
  rw [View.read_apply]
  show (V c main_arg0 : S4096x128.Idx → EReal) _ = _
  rw [emb0_1 t (ix2 p j) (ix2 (rowAt t p) j) rfl rfl]

/-- The weights' block is the whole matrix at every point. -/
theorem iblk0_2_apply (c : Dev nD) (t : Fin cfg0.N) (d : Fin 128) (q : Fin 64) :
    (iblk0 V c 2 t : S128x64.Idx → EReal) (ix2 d q) = (V c main_arg2 : S128x64.Idx → EReal) (ix2 d q) := by
  unfold iblk0
  rw [View.read_apply]
  show (V c main_arg2 : S128x64.Idx → EReal) _ = _
  rw [emb0_2 t (ix2 d q) (ix2 d q) rfl rfl]

/-- Point `t` writes back rows `512 · t …` of the pre-scaled factor. -/
theorem flushed0_4_eq
    (c : Dev nD) (t : Fin cfg0.N) :
    (dat0 V c).flushed 4 t = ((cfg0.win 4).blk t).view.read (Elt Ideal) (G0_4 (V c main_arg1) (V c main_arg0) (V c main_arg2)) := by
  show (cfg0.win 4).cut (grid0.coords t) ((dat0 V c).after 4 t) = _
  rw [after0_4]
  unfold out0_4
  rw [View.canon_unit_zero hz]
  simp only [View.ld_unit_zero (S := S512x4096) hz, View.ld_unit_zero (S := S512x128) hz, View.ld_unit_zero (S := S128x64) hz]
  funext y
  obtain ⟨p, q, rfl⟩ : ∃ (p : Fin 512) (q : Fin 64), y = ix2 p q := ⟨y 0, y 1, eq_ix2 y⟩
  show k0_pay2 (iblk0 V c 0 t) (iblk0 V c 1 t) (iblk0 V c 2 t) (ix2 p q)
    = G0_4 (V c main_arg1) (V c main_arg0) (V c main_arg2) (((cfg0.win 4).blk t).view.emb (ix2 p q))
  rw [Pay.pay0_2_apply, Pay.pay0_1_apply, emb0_4 t (ix2 p q) (ix2 (rowAt t p) q) rfl rfl]
  simp only [iblk0_0_apply, iblk0_1_apply, iblk0_2_apply]
  rfl

/-- After the pass the factor array holds `dis · (X W1)`. -/
theorem final0_4
    (c : Dev nD) : (dat0 V c).arrAt 4 cfg0.N = G0_4 (V c main_arg1) (V c main_arg0) (V c main_arg2) :=
  (dat0 V c).arrAt_eq_of_cover 4 _ (fun t _ => flushed0_4_eq V c t) cover0_4

end Cert.KernelIdeal.Val
end
-- ==== Proof.KIPay1.lean ====
/-
  Pass B's stored value, read at one index over the extended reals.

  With the block of adjacency rows `A`, the whole pre-scaled factor `Z1`, its own rows `Z1'`, the block's column of
  scalings `dis`, the bias row `b1` and the second weights `W2`:
    H1 p d = max (dis p * ((∑ j, A p j * Z1 j d) + Z1' p d) + b1 d) 0        (the first layer),
    Z2 p q = dis p * ∑ d, H1 p d * W2 d q                                     (the second pre-scaled factor).
-/
import proofs.«122962_g11562051960852_week1_w4_899_2_alg».proof.Proof.KIPayBase

noncomputable section

open scoped BigOperators

namespace Cert.KernelIdeal.Pay

open Cert.KernelIdeal Cert.KernelIdeal.Gen Idealize.ShloMosaic Idealize.ShloMosaic.ValueIdx

/-! ## The two matrix products of pass B, read at an index -/

section DotB
/- adjacency rows × the whole factor: `[512,4096] · [4096,64]`. -/

theorem dotB_lhs0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
theorem dotB_rhs1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- The product into the zero accumulator, at `(p, q)`: the sum over the 4096 columns of the products. -/
theorem dotB_apply (lhs : FVec Ideal S512x4096 .f32) (rhs : FVec Ideal S4096x64 .f32) (p : Fin 512) (q : Fin 64) :
    matmul dot_S512x4096_S4096x64_S512x64_1_0_0_1_n_n none lhs rhs (constant (F := Ideal) S512x64 .f32 0x00000000#32) (ix2 p q)
      = ∑ j : Fin 4096, lhs (ix2 p j) * rhs (ix2 j q) := by
  simp only [matmul]
  rw [Ideal.matmul_constant_zero_apply,
    ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q)
      ((contrEquiv1 dot_S512x4096_S4096x64_S512x64_1_0_0_1_n_n 4096 rfl rfl).symm k) = ix2 p k :=
    funext fun a => Fin.ext (by
      match a with
      | ⟨0, _⟩ => exact dotB_lhs0 _ _
      | ⟨1, _⟩ => exact (dot_S512x4096_S4096x64_S512x64_1_0_0_1_n_n.lhsIdx_val_of_single rfl _ _).trans hk)
  have er : dot_S512x4096_S4096x64_S512x64_1_0_0_1_n_n.rhsIdx (ix2 p q)
      ((contrEquiv1 dot_S512x4096_S4096x64_S512x64_1_0_0_1_n_n 4096 rfl rfl).symm k) = ix2 k q :=
    funext fun a => Fin.ext (by
      match a with
      | ⟨0, _⟩ => exact (dot_S512x4096_S4096x64_S512x64_1_0_0_1_n_n.rhsIdx_val_of_single rfl _ _).trans hk
      | ⟨1, _⟩ => exact dotB_rhs1 _ _)
  rw [el, er]

end DotB

section DotC
/- the first layer × second weights: `[512,64] · [64,32]`. -/

theorem dotC_lhs0 (i : S512x32.Idx) (q : dot_S512x64_S64x32_S512x32_1_0_0_1_n_n.contr.Idx) :
    (dot_S512x64_S64x32_S512x32_1_0_0_1_n_n.lhsIdx i q 0).val = (i 0).val := by
  unfold DotDims.lhsIdx
  rw [dif_neg (show ¬(0 : Fin S512x64.rank) ∈ dot_S512x64_S64x32_S512x32_1_0_0_1_n_n.lhsBatch by decide),
    dif_pos (show (0 : Fin S512x64.rank) ∈ dot_S512x64_S64x32_S512x32_1_0_0_1_n_n.lhsNonContracting by decide)]
  rfl
theorem dotC_rhs1 (i : S512x32.Idx) (q : dot_S512x64_S64x32_S512x32_1_0_0_1_n_n.contr.Idx) :
    (dot_S512x64_S64x32_S512x32_1_0_0_1_n_n.rhsIdx i q 1).val = (i 1).val := by
  unfold DotDims.rhsIdx
  rw [dif_neg (show ¬(1 : Fin S64x32.rank) ∈ dot_S512x64_S64x32_S512x32_1_0_0_1_n_n.rhsBatch by decide),
    dif_pos (show (1 : Fin S64x32.rank) ∈ dot_S512x64_S64x32_S512x32_1_0_0_1_n_n.rhsNonContracting by decide)]
  rfl

/-- The product into the zero accumulator, at `(p, q)`: the sum over the 64 hidden units of the products. -/
theorem dotC_apply (lhs : FVec Ideal S512x64 .f32) (rhs : FVec Ideal S64x32 .f32) (p : Fin 512) (q : Fin 32) :
    matmul dot_S512x64_S64x32_S512x32_1_0_0_1_n_n none lhs rhs (constant (F := Ideal) S512x32 .f32 0x00000000#32) (ix2 p q)
      = ∑ d : Fin 64, lhs (ix2 p d) * rhs (ix2 d q) := by
  simp only [matmul]
  rw [Ideal.matmul_constant_zero_apply,
    ← Equiv.sum_comp (contrEquiv1 dot_S512x64_S64x32_S512x32_1_0_0_1_n_n 64 rfl rfl).symm]
  refine Finset.sum_congr rfl fun k _ => ?_
  have hk := contrEquiv1_symm_val dot_S512x64_S64x32_S512x32_1_0_0_1_n_n 64 rfl rfl k
  have el : dot_S512x64_S64x32_S512x32_1_0_0_1_n_n.lhsIdx (ix2 p q)
      ((contrEquiv1 dot_S512x64_S64x32_S512x32_1_0_0_1_n_n 64 rfl rfl).symm k) = ix2 p k :=
    funext fun a => Fin.ext (by
      match a with
      | ⟨0, _⟩ => exact dotC_lhs0 _ _
      | ⟨1, _⟩ => exact (dot_S512x64_S64x32_S512x32_1_0_0_1_n_n.lhsIdx_val_of_single rfl _ _).trans hk)
  have er : dot_S512x64_S64x32_S512x32_1_0_0_1_n_n.rhsIdx (ix2 p q)
      ((contrEquiv1 dot_S512x64_S64x32_S512x32_1_0_0_1_n_n 64 rfl rfl).symm k) = ix2 k q :=
    funext fun a => Fin.ext (by
      match a with
      | ⟨0, _⟩ => exact (dot_S512x64_S64x32_S512x32_1_0_0_1_n_n.rhsIdx_val_of_single rfl _ _).trans hk
      | ⟨1, _⟩ => exact dotC_rhs1 _ _)
  rw [el, er]

end DotC

/-! ## Pass B -/

/-- The second layer's pre-scaled factor: the row's scaling times the row of the first layer against a column of weights. -/
theorem pay1_1_apply (v0 : Vec Ideal S512x4096 .f32) (v1 : Vec Ideal S4096x64 .f32) (v6 : Vec Ideal S512x64 .f32)
    (v8 : Vec Ideal S512x1 .f32) (v13 : Vec Ideal S1x64 .f32) (v19 : Vec Ideal S64x32 .f32) (p : Fin 512) (q : Fin 32) :
    Gen.k1_pay1 (F := Ideal) v0 v1 v6 v8 v13 v19 (ix2 p q)
      = v8 (ix2 p (0 : Fin 1)) * ∑ d : Fin 64,
          (max (v8 (ix2 p (0 : Fin 1)) * ((∑ j : Fin 4096, v0 (ix2 p j) * v1 (ix2 j d)) + v6 (ix2 p d))
            + v13 (ix2 (0 : Fin 1) d)) 0) * v19 (ix2 d q) := by
  unfold Gen.k1_pay1
  simp only [shapeCast_self, mulf_apply, addf_apply, maximumf_apply, broadcast_apply, broadcastTo_a1_ab_apply,
    broadcastTo_1b_ab_apply, dotB_apply, dotC_apply, scalar_ofBits, Ideal.ofBits_zero_f32]

end Cert.KernelIdeal.Pay

end
-- ==== Proof.KIValue1.lean ====
/-
  What pass B leaves in its output array, as a function of the arrays it finds: with the adjacency `A`, the
  previous pre-scaled factor `Z`, the inverse square-root degrees `D` as a column, the bias as a row and the weights
  `W`, row `r` of the output is `D r · ∑ d, max (D r · ((∑ j, A r j · Z j d) + Z r d) + b d) 0 · W d q`. The body
  reads the factor twice: whole (against the adjacency's rows) and at its own rows `512 · t + p`. Each grid point
  writes back its 512 rows, and the eight row blocks cover the array.
-/
import proofs.«122962_g11562051960852_week1_w4_899_2_alg».proof.Proof.KIFrame1
import proofs.«122962_g11562051960852_week1_w4_899_2_alg».proof.Proof.KIBlocks
import proofs.«122962_g11562051960852_week1_w4_899_2_alg».proof.Proof.KIPay1
import Idealize.ShloMosaic.Lib.Pipeline.Value
import Idealize.ShloMosaic.Lib.ValueIdx
import Idealize.ShloMosaic.PureOps.Ideal.Laws

noncomputable section
open scoped BigOperators
open Idealize.ShloMosaic Idealize.ShloMosaic.TcCoe Idealize.SL.Sem Idealize.ShloMosaic.ValueIdx
open Idealize.ShloMosaic.Pipeline (Dat)
namespace Cert.KernelIdeal.Val1
open Cert.KernelIdeal Cert.KernelIdeal.Gen Cert.KernelIdeal.Hand Cert.KernelIdeal.Blocks

theorem hz : (![0, 0] : Fin 2 → Nat) = fun _ => 0 := funext fun a => by fin_cases a <;> rfl

variable (V : (c : Dev nD) → (b : Ref sig .tc) → Buf (Elt Ideal) ((c : Thread nD τ).loc b))

/-- Row `512 · t + p`. -/
def rowAt1 (t : Fin cfg1.N) (p : Fin 512) : Fin 4096 := ⟨512 * t.val + p.val, by have h8 : t.val < 8 := Nat.lt_of_lt_of_eq t.isLt N_1; omega⟩

/-- The rows the body reads of the whole staged factor start at row `512 · t`. -/
theorem off1 : ∀ t : Fin cfg1.N, k1_off1 (grid1.coords t) (0 : Fin 2) = 512 * t.val ∧ k1_off1 (grid1.coords t) (1 : Fin 2) = 0 :=
  (by decide +kernel : ∀ t : Fin grid1.N, _)

/-- One layer's pre-scaled factor from the arrays a pass finds: the adjacency, the previous factor, the inverse
    square-root degrees as a column, the bias as a row, the weights. -/
abbrev G1_5 (A : S4096x4096.Idx → EReal) (Z : S4096x64.Idx → EReal) (D : S4096x1.Idx → EReal) (B : S1x64.Idx → EReal)
    (W : S64x32.Idx → EReal) : S4096x32.Idx → EReal :=
  fun i => D (ix2 (i 0) 0) * ∑ d : Fin 64,
    (max (D (ix2 (i 0) 0) * ((∑ j : Fin 4096, A (ix2 (i 0) j) * Z (ix2 j d)) + Z (ix2 (i 0) d)) + B (ix2 0 d)) 0) * W (ix2 d (i 1))

/-- The adjacency's block at point `t` is its rows `512 · t + p`. -/
theorem iblk1_0_apply (c : Dev nD) (t : Fin cfg1.N) (p : Fin 512) (j : Fin 4096) :
    (iblk1 V c 0 t : S512x4096.Idx → EReal) (ix2 p j) = (V c main_arg1 : S4096x4096.Idx → EReal) (ix2 (rowAt1 t p) j) := by
  unfold iblk1; rw [View.read_apply]
  show (V c main_arg1 : S4096x4096.Idx → EReal) _ = _
  rw [emb1_0 t (ix2 p j) (ix2 (rowAt1 t p) j) rfl rfl]
/-- The staged factor's block is the whole array. -/
theorem iblk1_1_apply (c : Dev nD) (t : Fin cfg1.N) (y : S4096x64.Idx) :
    (iblk1 V c 1 t : S4096x64.Idx → EReal) y = (V c main_v3_1 : S4096x64.Idx → EReal) y := by
  unfold iblk1; rw [View.read_apply]
  show (V c main_v3_1 : S4096x64.Idx → EReal) _ = _
  rw [emb1_1 t y y rfl rfl]
/-- The degree column's block at point `t` is its rows `512 · t + p`. -/
theorem iblk1_2_apply (c : Dev nD) (t : Fin cfg1.N) (p : Fin 512) :
    (iblk1 V c 2 t : S512x1.Idx → EReal) (ix2 p 0) = (V c main_v3_0 : S4096x1.Idx → EReal) (ix2 (rowAt1 t p) 0) := by
  unfold iblk1; rw [View.read_apply]
  show (V c main_v3_0 : S4096x1.Idx → EReal) _ = _
  rw [emb1_2 t (ix2 p 0) (ix2 (rowAt1 t p) 0) rfl rfl]
/-- The bias row's block is the whole row. -/
theorem iblk1_3_apply (c : Dev nD) (t : Fin cfg1.N) (y : S1x64.Idx) :
    (iblk1 V c 3 t : S1x64.Idx → EReal) y = (V c main_v0 : S1x64.Idx → EReal) y := by
  unfold iblk1; rw [View.read_apply]
  show (V c main_v0 : S1x64.Idx → EReal) _ = _
  rw [emb1_3 t y y rfl rfl]
/-- The weights' block is the whole matrix. -/
theorem iblk1_4_apply (c : Dev nD) (t : Fin cfg1.N) (y : S64x32.Idx) :
    (iblk1 V c 4 t : S64x32.Idx → EReal) y = (V c main_arg4 : S64x32.Idx → EReal) y := by
  unfold iblk1; rw [View.read_apply]
  show (V c main_arg4 : S64x32.Idx → EReal) _ = _
  rw [emb1_4 t y y rfl rfl]

/-- The rows of the whole staged factor the body loads at point `t`: rows `512 · t + p`. -/
theorem own1_idx (t : Fin cfg1.N) (p : Fin 512) (d : Fin 64) :
    (r1_1own (grid1.coords t)).idx (ix2 p d) = ix2 (rowAt1 t p) d := by
  obtain ⟨e0, e1⟩ := off1 t
  funext a
  apply Fin.ext
  match a with
  | ⟨0, _⟩ => show k1_off1 (grid1.coords t) (0 : Fin 2) + 1 * p.val = 512 * t.val + p.val; rw [e0]; omega
  | ⟨1, _⟩ => show k1_off1 (grid1.coords t) (1 : Fin 2) + 1 * d.val = d.val; rw [e1]; omega

/-- Point `t` writes back rows `512 · t …` of the layer's pre-scaled factor. -/
theorem flushed1_5_eq
    (c : Dev nD) (t : Fin cfg1.N) :
    (dat1 V c).flushed 5 t = ((cfg1.win 5).blk t).view.read (Elt Ideal)
      (G1_5 (V c main_arg1) (V c main_v3_1) (V c main_v3_0) (V c main_v0) (V c main_arg4)) := by
  show (cfg1.win 5).cut (grid1.coords t) ((dat1 V c).after 5 t) = _
  rw [after1_5]
  unfold out1_5
  rw [View.canon_unit_zero hz]
  simp only [View.ld_unit_zero (S := S512x4096) hz, View.ld_unit_zero (S := S4096x64) hz, View.ld_unit_zero (S := S512x1) hz,
    View.ld_unit_zero (S := S1x64) hz, View.ld_unit_zero (S := S64x32) hz]
  funext y
  obtain ⟨p, q, rfl⟩ : ∃ (p : Fin 512) (q : Fin 32), y = ix2 p q := ⟨y 0, y 1, eq_ix2 y⟩
  show k1_pay1 (iblk1 V c 0 t) (iblk1 V c 1 t) (View.ld (iblk1 V c 1 t) (r1_1own (grid1.coords t))) (iblk1 V c 2 t) (iblk1 V c 3 t) (iblk1 V c 4 t) (ix2 p q)
    = G1_5 (V c main_arg1) (V c main_v3_1) (V c main_v3_0) (V c main_v0) (V c main_arg4) (((cfg1.win 5).blk t).view.emb (ix2 p q))
  rw [Pay.pay1_1_apply, emb1_5 t (ix2 p q) (ix2 (rowAt1 t p) q) rfl rfl]
  simp only [iblk1_0_apply, iblk1_1_apply, iblk1_2_apply, iblk1_3_apply, iblk1_4_apply, own1_idx]

/-- After the pass the output array holds the layer's pre-scaled factor of the arrays the pass found. -/
theorem final1_5 (c : Dev nD) : (dat1 V c).arrAt 5 cfg1.N
    = G1_5 (V c main_arg1) (V c main_v3_1) (V c main_v3_0) (V c main_v0) (V c main_arg4) :=
  (dat1 V c).arrAt_eq_of_cover 5 _ (fun t _ => flushed1_5_eq V c t) cover1_5

end Cert.KernelIdeal.Val1
end
-- ==== Proof.KIPay2Dot.lean ====
/-
  The three matrix products of pass C, read at one index over the extended reals: the adjacency rows against the whole second
  factor, the second layer against the assignment weights, and the softmax against the second layer along the block's rows.
-/
import proofs.«122962_g11562051960852_week1_w4_899_2_alg».proof.Proof.KIPayBase

noncomputable section

open scoped BigOperators

namespace Cert.KernelIdeal.Pay

open Cert.KernelIdeal Cert.KernelIdeal.Gen Idealize.ShloMosaic Idealize.ShloMosaic.ValueIdx

/-! ## The three matrix products of pass C, read at an index -/

section DotD
/- adjacency rows × the whole second factor: `[512,4096] · [4096,32]`. -/

theorem dotD_lhs0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide),
    dif_pos (show (0 : Fin S512x4096.rank) ∈ dot_S512x4096_S4096x32_S512x32_1_0_0_1_n_n.lhsNonContracting by decide)]
  rfl
theorem dotD_rhs1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide),
    dif_pos (show (1 : Fin S4096x32.rank) ∈ dot_S512x4096_S4096x32_S512x32_1_0_0_1_n_n.rhsNonContracting by decide)]
  rfl

/-- The product into the zero accumulator, at `(p, c)`: the sum over the 4096 columns of the products. -/
theorem dotD_apply (lhs : FVec Ideal S512x4096 .f32) (rhs : FVec Ideal S4096x32 .f32) (p : Fin 512) (c : Fin 32) :
    matmul dot_S512x4096_S4096x32_S512x32_1_0_0_1_n_n none lhs rhs (constant (F := Ideal) S512x32 .f32 0x00000000#32) (ix2 p c)
      = ∑ j : Fin 4096, lhs (ix2 p j) * rhs (ix2 j c) := by
  simp only [matmul]
  rw [Ideal.matmul_constant_zero_apply,
    ← Equiv.sum_comp (contrEquiv1 dot_S512x4096_S4096x32_S512x32_1_0_0_1_n_n 4096 rfl rfl).symm]
  refine Finset.sum_congr rfl fun k _ => ?_
  have hk := contrEquiv1_symm_val dot_S512x4096_S4096x32_S512x32_1_0_0_1_n_n 4096 rfl rfl k
  have el : dot_S512x4096_S4096x32_S512x32_1_0_0_1_n_n.lhsIdx (ix2 p c)
      ((contrEquiv1 dot_S512x4096_S4096x32_S512x32_1_0_0_1_n_n 4096 rfl rfl).symm k) = ix2 p k :=
    funext fun a => Fin.ext (by
      match a with
      | ⟨0, _⟩ => exact dotD_lhs0 _ _
      | ⟨1, _⟩ => exact (dot_S512x4096_S4096x32_S512x32_1_0_0_1_n_n.lhsIdx_val_of_single rfl _ _).trans hk)
  have er : dot_S512x4096_S4096x32_S512x32_1_0_0_1_n_n.rhsIdx (ix2 p c)
      ((contrEquiv1 dot_S512x4096_S4096x32_S512x32_1_0_0_1_n_n 4096 rfl rfl).symm k) = ix2 k c :=
    funext fun a => Fin.ext (by
      match a with
      | ⟨0, _⟩ => exact (dot_S512x4096_S4096x32_S512x32_1_0_0_1_n_n.rhsIdx_val_of_single rfl _ _).trans hk
      | ⟨1, _⟩ => exact dotD_rhs1 _ _)
  rw [el, er]

end DotD

section DotE
/- the second layer × assignment weights: `[512,32] · [32,64]`. -/

theorem dotE_lhs0 (i : S512x64.Idx) (q : dot_S512x32_S32x64_S512x64_1_0_0_1_n_n.contr.Idx) :
    (dot_S512x32_S32x64_S512x64_1_0_0_1_n_n.lhsIdx i q 0).val = (i 0).val := by
  unfold DotDims.lhsIdx
  rw [dif_neg (show ¬(0 : Fin S512x32.rank) ∈ dot_S512x32_S32x64_S512x64_1_0_0_1_n_n.lhsBatch by decide),
    dif_pos (show (0 : Fin S512x32.rank) ∈ dot_S512x32_S32x64_S512x64_1_0_0_1_n_n.lhsNonContracting by decide)]
  rfl
theorem dotE_rhs1 (i : S512x64.Idx) (q : dot_S512x32_S32x64_S512x64_1_0_0_1_n_n.contr.Idx) :
    (dot_S512x32_S32x64_S512x64_1_0_0_1_n_n.rhsIdx i q 1).val = (i 1).val := by
  unfold DotDims.rhsIdx
  rw [dif_neg (show ¬(1 : Fin S32x64.rank) ∈ dot_S512x32_S32x64_S512x64_1_0_0_1_n_n.rhsBatch by decide),
    dif_pos (show (1 : Fin S32x64.rank) ∈ dot_S512x32_S32x64_S512x64_1_0_0_1_n_n.rhsNonContracting by decide)]
  rfl

/-- The product into the zero accumulator, at `(p, k)`: the sum over the 32 hidden units of the products. -/
theorem dotE_apply (lhs : FVec Ideal S512x32 .f32) (rhs : FVec Ideal S32x64 .f32) (p : Fin 512) (k : Fin 64) :
    matmul dot_S512x32_S32x64_S512x64_1_0_0_1_n_n none lhs rhs (constant (F := Ideal) S512x64 .f32 0x00000000#32) (ix2 p k)
      = ∑ d : Fin 32, lhs (ix2 p d) * rhs (ix2 d k) := by
  simp only [matmul]
  rw [Ideal.matmul_constant_zero_apply,
    ← Equiv.sum_comp (contrEquiv1 dot_S512x32_S32x64_S512x64_1_0_0_1_n_n 32 rfl rfl).symm]
  refine Finset.sum_congr rfl fun d _ => ?_
  have hk := contrEquiv1_symm_val dot_S512x32_S32x64_S512x64_1_0_0_1_n_n 32 rfl rfl d
  have el : dot_S512x32_S32x64_S512x64_1_0_0_1_n_n.lhsIdx (ix2 p k)
      ((contrEquiv1 dot_S512x32_S32x64_S512x64_1_0_0_1_n_n 32 rfl rfl).symm d) = ix2 p d :=
    funext fun a => Fin.ext (by
      match a with
      | ⟨0, _⟩ => exact dotE_lhs0 _ _
      | ⟨1, _⟩ => exact (dot_S512x32_S32x64_S512x64_1_0_0_1_n_n.lhsIdx_val_of_single rfl _ _).trans hk)
  have er : dot_S512x32_S32x64_S512x64_1_0_0_1_n_n.rhsIdx (ix2 p k)
      ((contrEquiv1 dot_S512x32_S32x64_S512x64_1_0_0_1_n_n 32 rfl rfl).symm d) = ix2 d k :=
    funext fun a => Fin.ext (by
      match a with
      | ⟨0, _⟩ => exact (dot_S512x32_S32x64_S512x64_1_0_0_1_n_n.rhsIdx_val_of_single rfl _ _).trans hk
      | ⟨1, _⟩ => exact dotE_rhs1 _ _)
  rw [el, er]

end DotE

section DotF
/- the softmax transposed × the second layer, both contracted along the block's rows: `[512,64]ᵀ · [512,32]`. -/

theorem dotF_lhs1 (i : S64x32.Idx) (q : dot_S512x64_S512x32_S64x32_0_0_1_1_n_n.contr.Idx) :
    (dot_S512x64_S512x32_S64x32_0_0_1_1_n_n.lhsIdx i q 1).val = (i 0).val := by
  unfold DotDims.lhsIdx
  rw [dif_neg (show ¬(1 : Fin S512x64.rank) ∈ dot_S512x64_S512x32_S64x32_0_0_1_1_n_n.lhsBatch by decide),
    dif_pos (show (1 : Fin S512x64.rank) ∈ dot_S512x64_S512x32_S64x32_0_0_1_1_n_n.lhsNonContracting by decide)]
  rfl
theorem dotF_rhs1 (i : S64x32.Idx) (q : dot_S512x64_S512x32_S64x32_0_0_1_1_n_n.contr.Idx) :
    (dot_S512x64_S512x32_S64x32_0_0_1_1_n_n.rhsIdx i q 1).val = (i 1).val := by
  unfold DotDims.rhsIdx
  rw [dif_neg (show ¬(1 : Fin S512x32.rank) ∈ dot_S512x64_S512x32_S64x32_0_0_1_1_n_n.rhsBatch by decide),
    dif_pos (show (1 : Fin S512x32.rank) ∈ dot_S512x64_S512x32_S64x32_0_0_1_1_n_n.rhsNonContracting by decide)]
  rfl

/-- The product into the zero accumulator, at `(k, c)`: the sum over the block's 512 rows of the products of the two
    operands' entries in that row. -/
theorem dotF_apply (lhs : FVec Ideal S512x64 .f32) (rhs : FVec Ideal S512x32 .f32) (k : Fin 64) (c : Fin 32) :
    matmul dot_S512x64_S512x32_S64x32_0_0_1_1_n_n none lhs rhs (constant (F := Ideal) S64x32 .f32 0x00000000#32) (ix2 k c)
      = ∑ p : Fin 512, lhs (ix2 p k) * rhs (ix2 p c) := by
  simp only [matmul]
  rw [Ideal.matmul_constant_zero_apply,
    ← Equiv.sum_comp (contrEquiv1 dot_S512x64_S512x32_S64x32_0_0_1_1_n_n 512 rfl rfl).symm]
  refine Finset.sum_congr rfl fun p _ => ?_
  have hk := contrEquiv1_symm_val dot_S512x64_S512x32_S64x32_0_0_1_1_n_n 512 rfl rfl p
  have el : dot_S512x64_S512x32_S64x32_0_0_1_1_n_n.lhsIdx (ix2 k c)
      ((contrEquiv1 dot_S512x64_S512x32_S64x32_0_0_1_1_n_n 512 rfl rfl).symm p) = ix2 p k :=
    funext fun a => Fin.ext (by
      match a with
      | ⟨0, _⟩ => exact (dot_S512x64_S512x32_S64x32_0_0_1_1_n_n.lhsIdx_val_of_single rfl _ _).trans hk
      | ⟨1, _⟩ => exact dotF_lhs1 _ _)
  have er : dot_S512x64_S512x32_S64x32_0_0_1_1_n_n.rhsIdx (ix2 k c)
      ((contrEquiv1 dot_S512x64_S512x32_S64x32_0_0_1_1_n_n 512 rfl rfl).symm p) = ix2 p c :=
    funext fun a => Fin.ext (by
      match a with
      | ⟨0, _⟩ => exact (dot_S512x64_S512x32_S64x32_0_0_1_1_n_n.rhsIdx_val_of_single rfl _ _).trans hk
      | ⟨1, _⟩ => exact dotF_rhs1 _ _)
  rw [el, er]

end DotF

end Cert.KernelIdeal.Pay

end
-- ==== Proof.KIPay2.lean ====
/-
  Pass C's stored values, read at one index over the extended reals.

  With the block of adjacency rows `A`, the whole second pre-scaled factor `Z2`, its own rows `Z2'`, the block's column
  of scalings `dis`, the bias row `b2`, the assignment weights `Ws` and bias row `bs`:
    H2 p c = max (dis p * ((∑ j, A p j * Z2 j c) + Z2' p c) + b2 c) 0        (the second layer),
    L p k  = (∑ d, H2 p d * Ws d k) + bs k,   M p = the largest `L p k` over `k` (folded from minus infinity),
    S p k  = exp (L p k - M p) / ∑ k', exp (L p k' - M p)                    (the row softmax),
    the block's part of the pooled product at `(k, c)` is `∑ p, S p k * H2 p c`,
    and a later block stores what the buffer holds plus its part.
-/
import proofs.«122962_g11562051960852_week1_w4_899_2_alg».proof.Proof.KIPay2Dot

noncomputable section

open scoped BigOperators

namespace Cert.KernelIdeal.Pay

open Cert.KernelIdeal Cert.KernelIdeal.Gen Idealize.ShloMosaic Idealize.ShloMosaic.ValueIdx

/-! ## Pass C -/

/-- The second layer at `(p, c)`. -/
theorem pay2_2_apply (v0 : Vec Ideal S512x4096 .f32) (v1 : Vec Ideal S4096x32 .f32) (v6 : Vec Ideal S512x32 .f32)
    (v8 : Vec Ideal S512x1 .f32) (v13 : Vec Ideal S1x32 .f32) (p : Fin 512) (c : Fin 32) :
    Gen.k2_pay2 (F := Ideal) v0 v1 v6 v8 v13 (ix2 p c)
      = max (v8 (ix2 p (0 : Fin 1)) * ((∑ j : Fin 4096, v0 (ix2 p j) * v1 (ix2 j c)) + v6 (ix2 p c))
          + v13 (ix2 (0 : Fin 1) c)) 0 := by
  unfold Gen.k2_pay2
  simp only [shapeCast_self, mulf_apply, addf_apply, maximumf_apply, broadcast_apply, broadcastTo_a1_ab_apply,
    broadcastTo_1b_ab_apply, dotD_apply, scalar_ofBits, Ideal.ofBits_zero_f32]

/-- A row's logits from that row `h` of the layer, the assignment weights and the bias row. -/
def rowLogit (h : Fin 32 → EReal) (Ws : Vec Ideal S32x64 .f32) (bs : Vec Ideal S1x64 .f32) (k : Fin 64) : EReal :=
  (∑ d : Fin 32, h d * Ws (ix2 d k)) + bs (ix2 (0 : Fin 1) k)

theorem rowLogit_apply (h : Fin 32 → EReal) (Ws : Vec Ideal S32x64 .f32) (bs : Vec Ideal S1x64 .f32) (k : Fin 64) :
    rowLogit h Ws bs k = (∑ d : Fin 32, h d * Ws (ix2 d k)) + bs (ix2 (0 : Fin 1) k) := rfl

/-- The row softmax at `(p, k)`: the exponential of the logit less the row's largest logit, over the row's sum of those. -/
theorem pay2_3_apply (v0 : Vec Ideal S512x4096 .f32) (v1 : Vec Ideal S4096x32 .f32) (v6 : Vec Ideal S512x32 .f32)
    (v8 : Vec Ideal S512x1 .f32) (v13 : Vec Ideal S1x32 .f32) (v19 : Vec Ideal S32x64 .f32) (v21 : Vec Ideal S1x64 .f32)
    (p : Fin 512) (k : Fin 64) :
    Gen.k2_pay3 (F := Ideal) v0 v1 v6 v8 v13 v19 v21 (ix2 p k)
      = Ideal.div
          (Ideal.exp (rowLogit (fun d => Gen.k2_pay2 (F := Ideal) v0 v1 v6 v8 v13 (ix2 p d)) v19 v21 k
            - (Finset.univ : Finset (Fin 64)).fold max ⊥
                (rowLogit (fun d => Gen.k2_pay2 (F := Ideal) v0 v1 v6 v8 v13 (ix2 p d)) v19 v21)))
          (∑ k' : Fin 64,
            Ideal.exp (rowLogit (fun d => Gen.k2_pay2 (F := Ideal) v0 v1 v6 v8 v13 (ix2 p d)) v19 v21 k'
              - (Finset.univ : Finset (Fin 64)).fold max ⊥
                  (rowLogit (fun d => Gen.k2_pay2 (F := Ideal) v0 v1 v6 v8 v13 (ix2 p d)) v19 v21))) := by
  have hmax : ∀ (src : FVec Ideal S512x64 .f32) (hφ : FKind.Formats .f32)
      (hacc : (0xFF800000#32 : BitVec 32) = 0xFF800000#32),
      multiReduction (F := Ideal) (φ := .f32) .maximumf [1] S512 src 0xFF800000#32 reduces_S512x64_S512 hφ hacc (ix1 p)
        = (Finset.univ : Finset (Fin 64)).fold max ⊥ (fun k' => src (ix2 p k')) :=
    fun src hφ hacc => rowMax_apply src _ hφ hacc p
  have hsum : ∀ (src : FVec Ideal S512x64 .f32) (hφ : FKind.Formats .f32)
      (hacc : (0x00000000#32 : BitVec 32) = 0x00000000#32),
      multiReduction (F := Ideal) (φ := .f32) .add [1] S512 src 0x00000000#32 reduces_S512x64_S512 hφ hacc (ix1 p)
        = ∑ k' : Fin 64, src (ix2 p k') :=
    fun src hφ hacc => rowSum_apply src _ hφ hacc p
  unfold Gen.k2_pay3
  simp only [shapeCast_self, divf_apply, exp_apply, subf_apply, addf_apply, broadcastTo_a1_ab_apply,
    shapeCast_a_a1_apply, broadcastTo_1b_ab_apply, hmax, hsum, dotE_apply]
  rfl

/-- The block's part of the pooled product at `(k, c)`: over the block's rows, the softmax's entry times the layer's. -/
theorem pay2_4_apply (v0 : Vec Ideal S512x4096 .f32) (v1 : Vec Ideal S4096x32 .f32) (v6 : Vec Ideal S512x32 .f32)
    (v8 : Vec Ideal S512x1 .f32) (v13 : Vec Ideal S1x32 .f32) (v19 : Vec Ideal S32x64 .f32) (v21 : Vec Ideal S1x64 .f32)
    (k : Fin 64) (c : Fin 32) :
    Gen.k2_pay4 (F := Ideal) v0 v1 v6 v8 v13 v19 v21 (ix2 k c)
      = ∑ p : Fin 512, Gen.k2_pay3 (F := Ideal) v0 v1 v6 v8 v13 v19 v21 (ix2 p k)
          * Gen.k2_pay2 (F := Ideal) v0 v1 v6 v8 v13 (ix2 p c) := by
  unfold Gen.k2_pay4
  exact dotF_apply _ _ k c

/-- A later block's store at `(k, c)`: what the buffer holds plus the block's part. -/
theorem pay2_1_apply (v35 : FVec Ideal S64x32 .f32) (v42 : Vec Ideal S64x32 .f32) (k : Fin 64) (c : Fin 32) :
    Gen.k2_pay1 (F := Ideal) v35 v42 (ix2 k c) = v42 (ix2 k c) + v35 (ix2 k c) := by
  unfold Gen.k2_pay1
  simp only [shapeCast_self, addf_apply]

end Cert.KernelIdeal.Pay

end
-- ==== Proof.KIValue2.lean ====
/-
  The values region 2 leaves, at any contents V of the buffers when the region is entered.

  At point t the body computes, for the 512 rows of block t, the second layer H2 = max (dis · (A·Z2 + Z2) + b2) 0 from
  the block's adjacency rows, the whole pre-scaled factor Z2, the block's scalings and the bias, and the row softmax
  S of H2·Ws + bs. Window 6 is written back at every point, and the eight row blocks tile the array: it ends
  holding the softmax of every row. Window 7's one buffer is written back at the last point only, its block being the
  whole array; what it holds then is the first block's contribution Sᵀ·H2 with every later block's added in
  turn: the pooled product accumulated over the eight blocks.
-/
import proofs.«122962_g11562051960852_week1_w4_899_2_alg».proof.Proof.KIFrame2
import proofs.«122962_g11562051960852_week1_w4_899_2_alg».proof.Proof.KIBlocks
import proofs.«122962_g11562051960852_week1_w4_899_2_alg».proof.Proof.KIPay2
import proofs.«122962_g11562051960852_week1_w4_899_2_alg».proof.Proof.GcnSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Val2

open Cert.KernelIdeal Cert.KernelIdeal.Gen Cert.KernelIdeal.Hand Cert.KernelIdeal.Blocks

variable (V : (c : Dev nD) → (b : Ref sig .tc) → Buf (Elt Ideal) ((c : Thread nD τ).loc b))

/-! ## The functions of the arrays the region finds -/

/-- The second layer from the arrays the pass finds: the adjacency, the pre-scaled factor, the inverse square-root
    degrees as a column, the bias as a row. -/
abbrev H2gen (A : S4096x4096.Idx → EReal) (Z : S4096x32.Idx → EReal) (D : S4096x1.Idx → EReal) (B : S1x32.Idx → EReal) :
    Fin 4096 → Fin 32 → EReal :=
  fun r c => max (D (ix2 r 0) * ((∑ j : Fin 4096, A (ix2 r j) * Z (ix2 j c)) + Z (ix2 r c)) + B (ix2 0 c)) 0

/-- The assignment softmax of the second layer, with the assignment weights and their bias as a row. -/
abbrev G2_6 (A : S4096x4096.Idx → EReal) (Z : S4096x32.Idx → EReal) (D : S4096x1.Idx → EReal) (B : S1x32.Idx → EReal)
    (Ws : S32x64.Idx → EReal) (Bs : S1x64.Idx → EReal) : S4096x64.Idx → EReal :=
  fun i => Cert.Gcn.smK (fun d k => Ws (ix2 d k)) (fun k => Bs (ix2 0 k)) (H2gen A Z D B) (i 0) (i 1)

/-- The pooled product of the softmax and the second layer, accumulated over the eight row blocks. -/
abbrev G2_7 (A : S4096x4096.Idx → EReal) (Z : S4096x32.Idx → EReal) (D : S4096x1.Idx → EReal) (B : S1x32.Idx → EReal)
    (Ws : S32x64.Idx → EReal) (Bs : S1x64.Idx → EReal) : S64x32.Idx → EReal :=
  fun i => Cert.Gcn.poolK (fun r k => G2_6 A Z D B Ws Bs (ix2 r k)) (H2gen A Z D B) (i 0) (i 1)

/-- The softmax of one row: hidden values h against weights w and a bias row b, the shift being the row's largest
    logit folded from -∞. -/
abbrev smRow (h : Fin 32 → EReal) (w : S32x64.Idx → EReal) (b : S1x64.Idx → EReal) (k : Fin 64) : EReal :=
  Ideal.div
    (Ideal.exp (((∑ d : Fin 32, h d * w (ix2 d k)) + b (ix2 0 k))
      - (Finset.univ : Finset (Fin 64)).fold max ⊥ (fun k' => (∑ d : Fin 32, h d * w (ix2 d k')) + b (ix2 0 k'))))
    (∑ k'' : Fin 64, Ideal.exp (((∑ d : Fin 32, h d * w (ix2 d k'')) + b (ix2 0 k''))
      - (Finset.univ : Finset (Fin 64)).fold max ⊥ (fun k' => (∑ d : Fin 32, h d * w (ix2 d k')) + b (ix2 0 k'))))

/-- The softmax payload at an index, as the softmax of the row of hidden values the body computed. -/
theorem pay3_smRow (v0 : Vec Ideal S512x4096 .f32) (v1 : Vec Ideal S4096x32 .f32) (v6 : Vec Ideal S512x32 .f32)
    (v8 : Vec Ideal S512x1 .f32) (v13 : Vec Ideal S1x32 .f32) (v19 : Vec Ideal S32x64 .f32) (v21 : Vec Ideal S1x64 .f32)
    (p : Fin 512) (k : Fin 64) :
    Gen.k2_pay3 (F := Ideal) v0 v1 v6 v8 v13 v19 v21 (ix2 p k)
      = smRow (fun d => Gen.k2_pay2 (F := Ideal) v0 v1 v6 v8 v13 (ix2 p d)) v19 v21 k :=
  Pay.pay2_3_apply v0 v1 v6 v8 v13 v19 v21 p k

/-! ## The blocks the body reads -/

/-- Row 512 · t + p. -/
def rowAt2 (t : Fin cfg2.N) (p : Fin 512) : Fin 4096 :=
  ⟨512 * t.val + p.val, by have h8 : t.val < 8 := Nat.lt_of_lt_of_eq t.isLt N_2; omega⟩

/-- The rows the body reads of the whole pre-scaled factor start at row 512 · t. -/
theorem off2 : ∀ t : Fin cfg2.N, k2_off1 (grid2.coords t) (0 : Fin 2) = 512 * t.val ∧ k2_off1 (grid2.coords t) (1 : Fin 2) = 0 :=
  (by decide +kernel : ∀ t : Fin grid2.N, _)

theorem iblk2_0_apply (c : Dev nD) (t : Fin cfg2.N) (p : Fin 512) (j : Fin 4096) :
    (iblk2 V c 0 t : S512x4096.Idx → EReal) (ix2 p j) = (V c main_arg1 : S4096x4096.Idx → EReal) (ix2 (rowAt2 t p) j) := by
  unfold iblk2; rw [View.read_apply]
  show (V c main_arg1 : S4096x4096.Idx → EReal) _ = _
  rw [emb2_0 t (ix2 p j) (ix2 (rowAt2 t p) j) rfl rfl]
theorem iblk2_1_apply (c : Dev nD) (t : Fin cfg2.N) (y : S4096x32.Idx) :
    (iblk2 V c 1 t : S4096x32.Idx → EReal) y = (V c main_v4 : S4096x32.Idx → EReal) y := by
  unfold iblk2; rw [View.read_apply]
  show (V c main_v4 : S4096x32.Idx → EReal) _ = _
  rw [emb2_1 t y y rfl rfl]
theorem iblk2_2_apply (c : Dev nD) (t : Fin cfg2.N) (p : Fin 512) :
    (iblk2 V c 2 t : S512x1.Idx → EReal) (ix2 p 0) = (V c main_v3_0 : S4096x1.Idx → EReal) (ix2 (rowAt2 t p) 0) := by
  unfold iblk2; rw [View.read_apply]
  show (V c main_v3_0 : S4096x1.Idx → EReal) _ = _
  rw [emb2_2 t (ix2 p 0) (ix2 (rowAt2 t p) 0) rfl rfl]
theorem iblk2_3_apply (c : Dev nD) (t : Fin cfg2.N) (y : S1x32.Idx) :
    (iblk2 V c 3 t : S1x32.Idx → EReal) y = (V c main_v1 : S1x32.Idx → EReal) y := by
  unfold iblk2; rw [View.read_apply]
  show (V c main_v1 : S1x32.Idx → EReal) _ = _
  rw [emb2_3 t y y rfl rfl]
theorem iblk2_4_apply (c : Dev nD) (t : Fin cfg2.N) (y : S32x64.Idx) :
    (iblk2 V c 4 t : S32x64.Idx → EReal) y = (V c main_arg6 : S32x64.Idx → EReal) y := by
  unfold iblk2; rw [View.read_apply]
  show (V c main_arg6 : S32x64.Idx → EReal) _ = _
  rw [emb2_4 t y y rfl rfl]
theorem iblk2_5_apply (c : Dev nD) (t : Fin cfg2.N) (y : S1x64.Idx) :
    (iblk2 V c 5 t : S1x64.Idx → EReal) y = (V c main_v2 : S1x64.Idx → EReal) y := by
  unfold iblk2; rw [View.read_apply]
  show (V c main_v2 : S1x64.Idx → EReal) _ = _
  rw [emb2_5 t y y rfl rfl]

/-- The rows of the whole pre-scaled factor the body loads at point t: rows 512 · t + p. -/
theorem own2_idx (t : Fin cfg2.N) (p : Fin 512) (d : Fin 32) :
    (r2_1o (grid2.coords t)).idx (ix2 p d) = ix2 (rowAt2 t p) d := by
  obtain ⟨e0, e1⟩ := off2 t
  funext a
  apply Fin.ext
  match a with
  | ⟨0, _⟩ => show k2_off1 (grid2.coords t) (0 : Fin 2) + 1 * p.val = 512 * t.val + p.val; rw [e0]; omega
  | ⟨1, _⟩ => show k2_off1 (grid2.coords t) (1 : Fin 2) + 1 * d.val = d.val; rw [e1]; omega

/-! ## The body's values on the blocks -/

/-- The hidden rows the body computes at point t are the second layer's rows 512 · t + p. -/
theorem pay2_blk
    (c : Dev nD) (t : Fin cfg2.N) (p : Fin 512) (q : Fin 32) :
    Gen.k2_pay2 (F := Ideal) (iblk2 V c 0 t) (iblk2 V c 1 t) (View.ld (iblk2 V c 1 t) (r2_1o (grid2.coords t)))
        (iblk2 V c 2 t) (iblk2 V c 3 t) (ix2 p q)
      = H2gen (V c main_arg1) (V c main_v4) (V c main_v3_0) (V c main_v1) (rowAt2 t p) q := by
  rw [Pay.pay2_2_apply]
  simp only [iblk2_0_apply, iblk2_1_apply, iblk2_2_apply, iblk2_3_apply, own2_idx]

/-- The softmax rows the body computes at point t are the assignment softmax's rows 512 · t + p. -/
theorem pay3_blk
    (c : Dev nD) (t : Fin cfg2.N) (p : Fin 512) (k : Fin 64) :
    Gen.k2_pay3 (F := Ideal) (iblk2 V c 0 t) (iblk2 V c 1 t) (View.ld (iblk2 V c 1 t) (r2_1o (grid2.coords t)))
        (iblk2 V c 2 t) (iblk2 V c 3 t) (iblk2 V c 4 t) (iblk2 V c 5 t) (ix2 p k)
      = G2_6 (V c main_arg1) (V c main_v4) (V c main_v3_0) (V c main_v1) (V c main_arg6) (V c main_v2) (ix2 (rowAt2 t p) k) := by
  have e2 : (fun d : Fin 32 => Gen.k2_pay2 (F := Ideal) (iblk2 V c 0 t) (iblk2 V c 1 t)
        (View.ld (iblk2 V c 1 t) (r2_1o (grid2.coords t))) (iblk2 V c 2 t) (iblk2 V c 3 t) (ix2 p d))
      = fun d => H2gen (V c main_arg1) (V c main_v4) (V c main_v3_0) (V c main_v1) (rowAt2 t p) d :=
    funext fun d => pay2_blk V c t p d
  have e4 : (iblk2 V c 4 t : S32x64.Idx → EReal) = (V c main_arg6 : S32x64.Idx → EReal) := funext (iblk2_4_apply V c t)
  have e5 : (iblk2 V c 5 t : S1x64.Idx → EReal) = (V c main_v2 : S1x64.Idx → EReal) := funext (iblk2_5_apply V c t)
  rw [pay3_smRow, e2, e4, e5]
  rfl

/-! ## Window 6: the softmax -/

theorem flushed2_6_eq
    (c : Dev nD) (t : Fin cfg2.N) :
    (dat2 V c).flushed 6 t = ((cfg2.win 6).blk t).view.read (Elt Ideal)
      (G2_6 (V c main_arg1) (V c main_v4) (V c main_v3_0) (V c main_v1) (V c main_arg6) (V c main_v2)) := by
  show (cfg2.win 6).cut (grid2.coords t) ((dat2 V c).after 6 t) = _
  rw [after2_6, out2_6_eq]
  funext y
  obtain ⟨p, k, rfl⟩ : ∃ (p : Fin 512) (k : Fin 64), y = ix2 p k := ⟨y 0, y 1, eq_ix2 y⟩
  show Gen.k2_pay3 (F := Ideal) (iblk2 V c 0 t) (iblk2 V c 1 t) (View.ld (iblk2 V c 1 t) (r2_1o (grid2.coords t)))
      (iblk2 V c 2 t) (iblk2 V c 3 t) (iblk2 V c 4 t) (iblk2 V c 5 t) (ix2 p k)
    = G2_6 (V c main_arg1) (V c main_v4) (V c main_v3_0) (V c main_v1) (V c main_arg6) (V c main_v2)
        (((cfg2.win 6).blk t).view.emb (ix2 p k))
  rw [emb2_6 t (ix2 p k) (ix2 (rowAt2 t p) k) rfl rfl]
  exact pay3_blk V c t p k

/-- Window 6's array after the region: the assignment softmax of the second layer, every row. -/
theorem final2_6
    (c : Dev nD) :
    (dat2 V c).arrAt 6 cfg2.N
      = G2_6 (V c main_arg1) (V c main_v4) (V c main_v3_0) (V c main_v1) (V c main_arg6) (V c main_v2) :=
  (dat2 V c).arrAt_eq_of_cover 6 _ (fun t _ => flushed2_6_eq V c t) cover2_6

/-! ## Window 7: the pooled product, accumulated -/

/-- The softmax the pooled product is taken with, as a curried function of its row and column. -/
abbrev S2 (c : Dev nD) : Fin 4096 → Fin 64 → EReal := fun r k => G2_6 (V c main_arg1) (V c main_v4) (V c main_v3_0) (V c main_v1) (V c main_arg6) (V c main_v2) (ix2 r k)

/-- The second layer the pooled product is taken with. -/
abbrev H2 (c : Dev nD) : Fin 4096 → Fin 32 → EReal := H2gen (V c main_arg1) (V c main_v4) (V c main_v3_0) (V c main_v1)

/-- Point t's contribution is block t's: the sum over the block's 512 rows of softmax entry times hidden entry. -/
theorem con2_apply
    (c : Dev nD) (t : Fin cfg2.N) (ht : t.val < 8) (k : Fin 64) (q : Fin 32) :
    con2 V c t (ix2 k q) = Cert.Gcn.contrib (S2 V c) (H2 V c) ⟨t.val, ht⟩ k q := by
  unfold con2
  rw [con2_7_eq, Pay.pay2_4_apply]
  unfold Cert.Gcn.contrib
  refine Finset.sum_congr rfl fun p _ => ?_
  exact congrArg₂ (· * ·) (pay3_blk V c t p k) (pay2_blk V c t p q)

/-- What window 7's buffer holds after the body at position n is the pooled product after blocks 0 … n. -/
theorem acc2At_apply
    (c : Dev nD) : ∀ (n : ℕ) (hn : n < cfg2.N) (hn' : n < 8) (k : Fin 64) (q : Fin 32),
      acc2At V c n hn (ix2 k q) = Cert.Gcn.poolAcc (S2 V c) (H2 V c) n hn' k q
  | 0, hn, hn', k, q => by
    rw [acc2At_zero]
    exact con2_apply V c ⟨0, hn⟩ hn' k q
  | n + 1, hn, hn', k, q => by
    rw [acc2At_succ, Pay.pay2_1_apply, acc2At_apply c n (Nat.lt_of_succ_lt hn) (Nat.lt_of_succ_lt hn') k q,
      con2_apply V c ⟨n + 1, hn⟩ hn' k q]
    rfl

theorem flushed2_7_eq
    (c : Dev nD) (t : Fin cfg2.N) (hf : (cfg2.win 7).flush t = true) :
    (dat2 V c).flushed 7 t = ((cfg2.win 7).blk t).view.read (Elt Ideal) (G2_7 (V c main_arg1) (V c main_v4) (V c main_v3_0) (V c main_v1) (V c main_arg6) (V c main_v2)) := by
  have h8 : t.val < 8 := Nat.lt_of_lt_of_eq t.isLt N_2
  have h7 : t.val = 7 := by have := (flush2_7 t).mp hf; omega
  show (cfg2.win 7).cut (grid2.coords t) ((dat2 V c).after 7 t) = _
  rw [after2_7]
  funext y
  obtain ⟨k, q, rfl⟩ : ∃ (k : Fin 64) (q : Fin 32), y = ix2 k q := ⟨y 0, y 1, eq_ix2 y⟩
  show acc2At V c t.val t.isLt (ix2 k q) = G2_7 (V c main_arg1) (V c main_v4) (V c main_v3_0) (V c main_v1) (V c main_arg6) (V c main_v2) (((cfg2.win 7).blk t).view.emb (ix2 k q))
  rw [emb2_7 t (ix2 k q) (ix2 k q) rfl rfl, acc2At_apply V c t.val t.isLt h8 k q]
  obtain ⟨n, hn⟩ := t
  subst h7
  rfl

/-- Window 7's array after the region: the pooled product of the softmax and the second layer, accumulated over
    the eight row blocks. -/
theorem final2_7
    (c : Dev nD) : (dat2 V c).arrAt 7 cfg2.N = G2_7 (V c main_arg1) (V c main_v4) (V c main_v3_0) (V c main_v1) (V c main_arg6) (V c main_v2) :=
  (dat2 V c).arrAt_eq_of_cover 7 _ (fun t hf => flushed2_7_eq V c t hf) cover2_7

end Cert.KernelIdeal.Val2

end
-- ==== Proof.KIHost.lean ====
/-
  What the host stretch before the three passes leaves: each bias vector re-laid as a one-row matrix, entry by
  entry the same numbers; nothing else is written.
-/
import proofs.«122962_g11562051960852_week1_w4_899_2_alg».proof.Proof.Gen.KernelIdeal.Launch
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.HostRead

open Cert.KernelIdeal Cert.KernelIdeal.Gen

variable {F : FTy → Type} [FloatOps F]

/-- After the host stretch the first layer's bias row is the bias vector re-laid as [1, 64]. -/
theorem after_v0 (W : Valuation τ sig (Elt F)) :
    (StableHlo.after (hostOps0 (F := F)) W (Proc.devRef .tc main_v0) : S1x64.Idx → Elt F .f32)
      = shapeCast S1x64 (W (Proc.devRef .tc main_arg3) : S64.Idx → Elt F .f32) shapeCasts_S64_S1x64 := by
  after_results
  rfl

/-- The second layer's bias row: the bias vector re-laid as [1, 32]. -/
theorem after_v1 (W : Valuation τ sig (Elt F)) :
    (StableHlo.after (hostOps0 (F := F)) W (Proc.devRef .tc main_v1) : S1x32.Idx → Elt F .f32)
      = shapeCast S1x32 (W (Proc.devRef .tc main_arg5) : S32.Idx → Elt F .f32) shapeCasts_S32_S1x32 := by
  after_results
  rfl

/-- The assignment layer's bias row: the bias vector re-laid as [1, 64]. -/
theorem after_v2 (W : Valuation τ sig (Elt F)) :
    (StableHlo.after (hostOps0 (F := F)) W (Proc.devRef .tc main_v2) : S1x64.Idx → Elt F .f32)
      = shapeCast S1x64 (W (Proc.devRef .tc main_arg7) : S64.Idx → Elt F .f32) shapeCasts_S64_S1x64 := by
  after_results
  rfl

/-- A vector re-laid as a one-row matrix, read at column `c`, is the vector's entry `c`. -/
theorem row64_apply {α : Type} (x : S64.Idx → α) (c : Fin 64) :
    shapeCast S1x64 x shapeCasts_S64_S1x64 (ix2 (0 : Fin 1) c) = x (ix1 c) := by
  refine shapeCast_apply x _ _ _ ?_
  rw [Shape.rowMajor_val_one, Shape.rowMajor_val_two]
  show c.val = (0 : Fin 1).val * 64 + c.val
  simp

theorem row32_apply {α : Type} (x : S32.Idx → α) (c : Fin 32) :
    shapeCast S1x32 x shapeCasts_S32_S1x32 (ix2 (0 : Fin 1) c) = x (ix1 c) := by
  refine shapeCast_apply x _ _ _ ?_
  rw [Shape.rowMajor_val_one, Shape.rowMajor_val_two]
  show c.val = (0 : Fin 1).val * 32 + c.val
  simp

end Cert.KernelIdeal.HostRead

end
-- ==== Proof.KIWhole.lean ====
/-
  The three passes composed: each pass's output arrays as the kernel-form functions of the LAUNCH arguments, and the
  whole run re-posted at them. Pass A finds the arguments as launched; pass B finds pass A's two arrays and the first
  bias row the host stretch re-laid; pass C finds pass B's factor, pass A's degree column and the two remaining bias
  rows. So the run ends with the assignment softmax `smK` of the second layer `h2K` and their pooled product
  `poolK`, both of the arguments, which themselves end as launched.
-/
import proofs.«122962_g11562051960852_week1_w4_899_2_alg».proof.Proof.KIRun
import proofs.«122962_g11562051960852_week1_w4_899_2_alg».proof.Proof.KIValue0
import proofs.«122962_g11562051960852_week1_w4_899_2_alg».proof.Proof.KIValue1
import proofs.«122962_g11562051960852_week1_w4_899_2_alg».proof.Proof.KIValue2
import proofs.«122962_g11562051960852_week1_w4_899_2_alg».proof.Proof.KIHost
import proofs.«122962_g11562051960852_week1_w4_899_2_alg».proof.Proof.GcnSpec

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Hand Cert.KernelIdeal.Val Cert.KernelIdeal.Val1
  Cert.KernelIdeal.HostRead Cert.KernelIdeal.Val2

/-- One layer's pre-scaled factor, computed from pass A's two arrays and a bias row that reads as the bias vector, is
    the spec's `z2K`. -/
theorem G1_5_spec (A : S4096x4096.Idx → EReal) (X : S4096x128.Idx → EReal) (W1 : S128x64.Idx → EReal)
    (b1 : Fin 64 → EReal) (B : S1x64.Idx → EReal) (hB : ∀ d : Fin 64, B (ix2 (0 : Fin 1) d) = b1 d) (W2 : S64x32.Idx → EReal) :
    G1_5 A (fun i => Cert.Gcn.z1K (cur A) (cur X) (cur W1) (i 0) (i 1)) (fun i => Cert.Gcn.disK (cur A) (i 0)) B W2
      = fun i => Cert.Gcn.z2K (cur A) (cur X) (cur W1) b1 (cur W2) (i 0) (i 1) := by
  funext i
  show Cert.Gcn.disK (cur A) (i 0) * ∑ d : Fin 64,
      (max (Cert.Gcn.disK (cur A) (i 0) * ((∑ j : Fin 4096, A (ix2 (i 0) j) * Cert.Gcn.z1K (cur A) (cur X) (cur W1) j d)
        + Cert.Gcn.z1K (cur A) (cur X) (cur W1) (i 0) d) + B (ix2 (0 : Fin 1) d)) 0) * W2 (ix2 d (i 1)) = _
  simp only [hB]
  rfl

/-- The second layer, computed from pass B's factor, pass A's degree column and a bias row that reads as the bias
    vector, is the spec's `h2K`. -/
theorem H2gen_spec (A : S4096x4096.Idx → EReal) (X : S4096x128.Idx → EReal) (W1 : S128x64.Idx → EReal)
    (b1 : Fin 64 → EReal) (W2 : S64x32.Idx → EReal) (b2 : Fin 32 → EReal) (B : S1x32.Idx → EReal)
    (hB : ∀ q : Fin 32, B (ix2 (0 : Fin 1) q) = b2 q) :
    H2gen A (fun i => Cert.Gcn.z2K (cur A) (cur X) (cur W1) b1 (cur W2) (i 0) (i 1))
        (fun i => Cert.Gcn.disK (cur A) (i 0)) B
      = Cert.Gcn.h2K (cur A) (cur X) (cur W1) b1 (cur W2) b2 := by
  funext r q
  show max (Cert.Gcn.disK (cur A) r * ((∑ j : Fin 4096, A (ix2 r j) * Cert.Gcn.z2K (cur A) (cur X) (cur W1) b1 (cur W2) j q)
      + Cert.Gcn.z2K (cur A) (cur X) (cur W1) b1 (cur W2) r q) + B (ix2 (0 : Fin 1) q)) 0 = _
  rw [hB]
  rfl

/-- The assignment softmax with a bias row that reads as the bias vector. -/
theorem G2_6_spec (A : S4096x4096.Idx → EReal) (Z : S4096x32.Idx → EReal) (D : S4096x1.Idx → EReal) (B : S1x32.Idx → EReal)
    (Ws : S32x64.Idx → EReal) (bs : Fin 64 → EReal) (Bs : S1x64.Idx → EReal) (hBs : ∀ k : Fin 64, Bs (ix2 (0 : Fin 1) k) = bs k) :
    G2_6 A Z D B Ws Bs = fun i => Cert.Gcn.smK (cur Ws) bs (H2gen A Z D B) (i 0) (i 1) := by
  funext i
  have e : (fun k : Fin 64 => Bs (ix2 (0 : Fin 1) k)) = bs := funext hBs
  show Cert.Gcn.smK (fun d k => Ws (ix2 d k)) (fun k => Bs (ix2 (0 : Fin 1) k)) (H2gen A Z D B) (i 0) (i 1)
    = Cert.Gcn.smK (cur Ws) bs (H2gen A Z D B) (i 0) (i 1)
  rw [e]

/-- The pooled product with a bias row that reads as the bias vector. -/
theorem G2_7_spec (A : S4096x4096.Idx → EReal) (Z : S4096x32.Idx → EReal) (D : S4096x1.Idx → EReal) (B : S1x32.Idx → EReal)
    (Ws : S32x64.Idx → EReal) (bs : Fin 64 → EReal) (Bs : S1x64.Idx → EReal) (hBs : ∀ k : Fin 64, Bs (ix2 (0 : Fin 1) k) = bs k) :
    G2_7 A Z D B Ws Bs
      = fun i => Cert.Gcn.poolK (Cert.Gcn.smK (cur Ws) bs (H2gen A Z D B)) (H2gen A Z D B) (i 0) (i 1) := by
  have e : (fun (r : Fin 4096) (k : Fin 64) => G2_6 A Z D B Ws Bs (ix2 r k)) = Cert.Gcn.smK (cur Ws) bs (H2gen A Z D B) := by
    funext r k
    rw [G2_6_spec A Z D B Ws bs Bs hBs]
  funext i
  show Cert.Gcn.poolK (fun r k => G2_6 A Z D B Ws Bs (ix2 r k)) (H2gen A Z D B) (i 0) (i 1)
    = Cert.Gcn.poolK (Cert.Gcn.smK (cur Ws) bs (H2gen A Z D B)) (H2gen A Z D B) (i 0) (i 1)
  rw [e]

variable (m : (ℓ : Loc nD τ sig) → Buf (Elt Ideal) ℓ) (ρ : Dev nD → PrngReg)

/-- A rank-1 array as a function of its one coordinate. -/
abbrev cur1 {n : Nat} (a : (⟨1, ![n]⟩ : Shape).Idx → EReal) : Fin n → EReal := fun c => a (ix1 c)

/-- The launch arguments on core `c`, as curried arrays: adjacency, features, weights and biases. -/
abbrev aA (c : Dev nD) : Fin 4096 → Fin 4096 → EReal := cur (m ((c : Thread nD τ).loc main_arg1) : S4096x4096.Idx → EReal)
abbrev aX (c : Dev nD) : Fin 4096 → Fin 128 → EReal := cur (m ((c : Thread nD τ).loc main_arg0) : S4096x128.Idx → EReal)
abbrev aW1 (c : Dev nD) : Fin 128 → Fin 64 → EReal := cur (m ((c : Thread nD τ).loc main_arg2) : S128x64.Idx → EReal)
abbrev ab1 (c : Dev nD) : Fin 64 → EReal := cur1 (m ((c : Thread nD τ).loc main_arg3) : S64.Idx → EReal)
abbrev aW2 (c : Dev nD) : Fin 64 → Fin 32 → EReal := cur (m ((c : Thread nD τ).loc main_arg4) : S64x32.Idx → EReal)
abbrev ab2 (c : Dev nD) : Fin 32 → EReal := cur1 (m ((c : Thread nD τ).loc main_arg5) : S32.Idx → EReal)
abbrev aWs (c : Dev nD) : Fin 32 → Fin 64 → EReal := cur (m ((c : Thread nD τ).loc main_arg6) : S32x64.Idx → EReal)
abbrev abs (c : Dev nD) : Fin 64 → EReal := cur1 (m ((c : Thread nD τ).loc main_arg7) : S64.Idx → EReal)

/-- After pass A the degree column is `disK` of the adjacency. -/
theorem v3_0_eq (c : Dev nD) :
    (V2 m ρ c main_v3_0 : S4096x1.Idx → EReal) = fun i => Cert.Gcn.disK (aA m c) (i 0) := by
  rw [V2_main_v3_0, final0_3]
  have e : (V1 m ρ c main_arg1 : S4096x4096.Idx → EReal) = m ((c : Thread nD τ).loc main_arg1) := W1_main_arg1 m ρ c
  rw [e]
  rfl

/-- After pass A the factor array is `z1K` of the adjacency, the features and the first weights. -/
theorem v3_1_eq (c : Dev nD) :
    (V2 m ρ c main_v3_1 : S4096x64.Idx → EReal) = fun i => Cert.Gcn.z1K (aA m c) (aX m c) (aW1 m c) (i 0) (i 1) := by
  rw [V2_main_v3_1, final0_4]
  have e1 : (V1 m ρ c main_arg1 : S4096x4096.Idx → EReal) = m ((c : Thread nD τ).loc main_arg1) := W1_main_arg1 m ρ c
  have e0 : (V1 m ρ c main_arg0 : S4096x128.Idx → EReal) = m ((c : Thread nD τ).loc main_arg0) := W1_main_arg0 m ρ c
  have e2 : (V1 m ρ c main_arg2 : S128x64.Idx → EReal) = m ((c : Thread nD τ).loc main_arg2) := W1_main_arg2 m ρ c
  rw [e1, e0, e2]
  rfl

/-- The first bias row pass B finds: the bias vector, entry by entry. -/
theorem v0_eq (c : Dev nD) (d : Fin 64) :
    (V2 m ρ c main_v0 : S1x64.Idx → EReal) (ix2 (0 : Fin 1) d) = ab1 m c d := by
  rw [V2_main_v0]
  show (StableHlo.after (hostOps0 (F := Ideal)) (W0 m ρ c) (Proc.devRef .tc main_v0) : S1x64.Idx → EReal) _ = _
  rw [after_v0, row64_apply]

/-- After pass B the second pre-scaled factor is `z2K` of the arguments. -/
theorem v4_eq (c : Dev nD) :
    (V3 m ρ c main_v4 : S4096x32.Idx → EReal)
      = fun i => Cert.Gcn.z2K (aA m c) (aX m c) (aW1 m c) (ab1 m c) (aW2 m c) (i 0) (i 1) := by
  rw [V3_main_v4, final1_5]
  have e1 : (V2 m ρ c main_arg1 : S4096x4096.Idx → EReal) = m ((c : Thread nD τ).loc main_arg1) := W2_main_arg1 m ρ c
  have e4 : (V2 m ρ c main_arg4 : S64x32.Idx → EReal) = m ((c : Thread nD τ).loc main_arg4) := W2_main_arg4 m ρ c
  rw [e1, e4, v3_0_eq, v3_1_eq]
  exact G1_5_spec _ _ _ (ab1 m c) _ (v0_eq m ρ c) _

/-- The second bias row pass C finds: the bias vector, entry by entry. -/
theorem v1_eq (c : Dev nD) (q : Fin 32) :
    (V3 m ρ c main_v1 : S1x32.Idx → EReal) (ix2 (0 : Fin 1) q) = ab2 m c q := by
  rw [V3_main_v1]
  show (StableHlo.after (hostOps0 (F := Ideal)) (W0 m ρ c) (Proc.devRef .tc main_v1) : S1x32.Idx → EReal) _ = _
  rw [after_v1, row32_apply]

/-- The assignment bias row pass C finds: the bias vector, entry by entry. -/
theorem v2_eq (c : Dev nD) (k : Fin 64) :
    (V3 m ρ c main_v2 : S1x64.Idx → EReal) (ix2 (0 : Fin 1) k) = abs m c k := by
  rw [V3_main_v2]
  show (StableHlo.after (hostOps0 (F := Ideal)) (W0 m ρ c) (Proc.devRef .tc main_v2) : S1x64.Idx → EReal) _ = _
  rw [after_v2, row64_apply]

/-- Pass C finds pass A's degree column unchanged. -/
theorem v3_0_eq' (c : Dev nD) :
    (V3 m ρ c main_v3_0 : S4096x1.Idx → EReal) = fun i => Cert.Gcn.disK (aA m c) (i 0) := by
  rw [V3_main_v3_0, final0_3]
  have e : (V1 m ρ c main_arg1 : S4096x4096.Idx → EReal) = m ((c : Thread nD τ).loc main_arg1) := W1_main_arg1 m ρ c
  rw [e]
  rfl

/-- The second layer of the launch arguments, in kernel form. -/
abbrev HK (c : Dev nD) : Fin 4096 → Fin 32 → EReal :=
  Cert.Gcn.h2K (aA m c) (aX m c) (aW1 m c) (ab1 m c) (aW2 m c) (ab2 m c)
/-- Its assignment softmax. -/
abbrev SK (c : Dev nD) : Fin 4096 → Fin 64 → EReal := Cert.Gcn.smK (aWs m c) (abs m c) (HK m c)

/-- The second layer pass C computes is `h2K` of the arguments. -/
theorem H2_eq (c : Dev nD) :
    H2gen (V3 m ρ c main_arg1) (V3 m ρ c main_v4) (V3 m ρ c main_v3_0) (V3 m ρ c main_v1) = HK m c := by
  have e1 : (V3 m ρ c main_arg1 : S4096x4096.Idx → EReal) = m ((c : Thread nD τ).loc main_arg1) := W3_main_arg1 m ρ c
  rw [e1, v4_eq, v3_0_eq']
  exact H2gen_spec _ _ _ (ab1 m c) _ (ab2 m c) _ (v1_eq m ρ c)

/-- After pass C the softmax array is `smK` of the second layer, of the arguments. -/
theorem v5_0_eq (c : Dev nD) :
    (W4 m ρ c (Proc.devRef .tc main_v5_0) : S4096x64.Idx → EReal) = fun i => SK m c (i 0) (i 1) := by
  rw [W4_main_v5_0, final2_6, G2_6_spec _ _ _ _ _ (abs m c) _ (v2_eq m ρ c), H2_eq]
  have e6 : (V3 m ρ c main_arg6 : S32x64.Idx → EReal) = m ((c : Thread nD τ).loc main_arg6) := W3_main_arg6 m ρ c
  rw [e6]
  rfl

/-- After pass C the pooled array is `poolK` of that softmax and layer. -/
theorem v5_1_eq (c : Dev nD) :
    (W4 m ρ c (Proc.devRef .tc main_v5_1) : S64x32.Idx → EReal)
      = fun i => Cert.Gcn.poolK (SK m c) (HK m c) (i 0) (i 1) := by
  rw [W4_main_v5_1, final2_7, G2_7_spec _ _ _ _ _ (abs m c) _ (v2_eq m ρ c), H2_eq]
  have e6 : (V3 m ρ c main_arg6 : S32x64.Idx → EReal) = m ((c : Thread nD τ).loc main_arg6) := W3_main_arg6 m ρ c
  rw [e6]
  rfl

/-- THE RUN of the idealized kernel: every weakly fair execution ends with the pooled product and the assignment
    softmax of the arguments, in kernel form, and the arguments as launched. -/
theorem kernel_run : θ_run defs (onTc (τ := τ) (main (F := Ideal))) ⟨m, fun _ => 0, ρ⟩ (fun r => ∀ c : Dev nD,
      r.2.mem ((c.tc : Thread nD τ).loc main_v5_1) = (fun i => Cert.Gcn.poolK (SK m c) (HK m c) (i 0) (i 1))
      ∧ r.2.mem ((c.tc : Thread nD τ).loc main_v5_0) = (fun i => SK m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5_1 (by decide))).trans (v5_1_eq m ρ c),
     (h c _ (mem_uc main_v5_0 (by decide))).trans (v5_0_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all (F := Ideal) m ρ)

end Cert.KernelIdeal.Whole

end
-- ==== Proof.GcnAlgebra.lean ====
/-
  The mathematics of this certificate, away from any program: over real inputs the kernel form of the two
  graph-convolution layers equals the reference form; the two softmaxes agree; the pooled product accumulated
  over eight blocks of 512 rows is the sum over all 4096 rows.

  The extended reals are an additive commutative monoid, so regrouping a finite sum is always legitimate; they are
  NOT a semiring at the infinities (distributivity fails there), so the layer identity — which moves the degree
  scaling across a sum — is proved for real numbers and transported along the coercion.
-/
import proofs.«122962_g11562051960852_week1_w4_899_2_alg».proof.Proof.GcnSpec
import Mathlib.Algebra.BigOperators.Fin
import Mathlib.Data.Fintype.BigOperators
import Mathlib.Data.EReal.Operations
import Mathlib.Tactic.Ring
import Mathlib.Tactic.Choose

noncomputable section

open scoped BigOperators

namespace Cert.Gcn

open Idealize.ShloMosaic

/-! ## Extended reals that are real numbers -/

/-- An extended real that is (the coercion of) a real number. -/
def IsReal (x : EReal) : Prop := ∃ r : ℝ, (r : EReal) = x

theorem isReal_coe (r : ℝ) : IsReal (r : EReal) := ⟨r, rfl⟩

theorem isReal_of_ne {x : EReal} (h : x ≠ ⊥ ∧ x ≠ ⊤) : IsReal x := ⟨x.toReal, EReal.coe_toReal h.2 h.1⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, EReal.coe_add a b⟩

theorem IsReal.mul {x y : EReal} (hx : IsReal x) (hy : IsReal y) : IsReal (x * y) := by
  obtain ⟨a, rfl⟩ := hx
  obtain ⟨b, rfl⟩ := hy
  exact ⟨a * b, EReal.coe_mul a b⟩

theorem IsReal.max {x y : EReal} (hx : IsReal x) (hy : IsReal y) : IsReal (max x y) := by
  rcases max_choice x y with h | h <;> rw [h] <;> assumption

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## One layer: the scaling on the narrow factor against the normalized adjacency -/

/-- For real data: scaling the factor Y by d before the product with A, adding the row's own scaled entry (the
    self loop) and scaling the result by d again is the product with d r · (A + I) r j · d j. -/
theorem layer {ι : Type*} [Fintype ι] [DecidableEq ι] (A : ι → ι → EReal) (d Y : ι → EReal)
    (hA : ∀ i j, IsReal (A i j)) (hd : ∀ i, IsReal (d i)) (hY : ∀ i, IsReal (Y i)) (r : ι) :
    d r * ((∑ j, A r j * (d j * Y j)) + d r * Y r)
      = ∑ j, d r * (A r j + if r = j then 1 else 0) * d j * Y j := by
  choose a ha using hA
  choose e he using hd
  choose y hy using hY
  have hδ : ∀ j, (if r = j then (1 : EReal) else 0) = (((if r = j then 1 else 0 : ℝ)) : EReal) := by
    intro j; split_ifs <;> simp
  simp only [← ha, ← he, ← hy, hδ, ← EReal.coe_mul, ← EReal.coe_add, ← coe_sum]
  congr 1
  have hj : ∀ j, e r * (a r j + if r = j then 1 else 0) * e j * y j
      = e r * (a r j * (e j * y j)) + (if r = j then e r * (e j * y j) else 0) := by
    intro j; split_ifs <;> ring
  simp only [hj, Finset.sum_add_distrib, Finset.sum_ite_eq, Finset.mem_univ, if_true, ← Finset.mul_sum]
  ring

/-! ## The degree and its inverse square root -/

variable (A : Fin 4096 → Fin 4096 → EReal) (X : Fin 4096 → Fin 128 → EReal) (W1 : Fin 128 → Fin 64 → EReal)
  (b1 : Fin 64 → EReal) (W2 : Fin 64 → Fin 32 → EReal) (b2 : Fin 32 → EReal) (Ws : Fin 32 → Fin 64 → EReal)
  (bs : Fin 64 → EReal)

/-- The row sum plus one is the row sum of the adjacency with self loops (a regrouping of a finite sum: no
    finiteness needed). -/
theorem degK_eq_degR (r : Fin 4096) : degK A r = degR A r := by
  unfold degK degR ahat
  rw [zero_add, Finset.sum_add_distrib, Finset.sum_ite_eq, if_pos (Finset.mem_univ r)]

/-- On a positive extended real the inverse square root is one over the square root (both are 0 at +∞). -/
theorem rsqrt_eq_div_sqrt {D : EReal} (h : 0 < D) : Ideal.rsqrt D = Ideal.div 1 (Ideal.sqrt D) := by
  induction D using EReal.rec with
  | bot => exact absurd h (by simp)
  | top => simp [Ideal.div]
  | coe x =>
    have hx : 0 < x := by exact_mod_cast h
    have hs : Real.sqrt x ≠ 0 := (Real.sqrt_pos.2 hx).ne'
    rw [Ideal.rsqrt_coe, Ideal.sqrt_coe, if_neg (not_lt.2 hx.le), if_neg hx.ne', if_neg (not_lt.2 hx.le),
      Ideal.div_coe hs, one_mul, one_div]

theorem disK_eq_dR (r : Fin 4096) : disK A r = dR A r := by
  unfold disK dR
  rw [degK_eq_degR]
  split_ifs with h
  · exact rsqrt_eq_div_sqrt h
  · rfl

/-- The inverse square root of a real degree is real: a positive real's is a real, otherwise it is zero. -/
theorem isReal_disK (hA : ∀ i j, IsReal (A i j)) (r : Fin 4096) : IsReal (disK A r) := by
  have hD : IsReal (degK A r) := (isReal_sum _ _ fun j _ => hA r j).add isReal_one
  obtain ⟨x, hx⟩ := hD
  unfold disK
  rw [← hx]
  split_ifs with h
  · have hx0 : 0 < x := by exact_mod_cast h
    rw [Ideal.rsqrt_coe, if_neg (not_lt.2 hx0.le), if_neg hx0.ne']
    exact isReal_coe _
  · exact isReal_zero

/-! ## The two layers -/

theorem h1K_eq_h1R (hA : ∀ i j, IsReal (A i j)) (hX : ∀ i j, IsReal (X i j)) (hW1 : ∀ i j, IsReal (W1 i j))
    (r : Fin 4096) (c : Fin 64) : h1K A X W1 b1 r c = h1R A X W1 b1 r c := by
  have hY : ∀ i, IsReal (∑ d, X i d * W1 d c) := fun i => isReal_sum _ _ fun d _ => (hX i d).mul (hW1 d c)
  have hl := layer A (disK A) (fun j => ∑ d, X j d * W1 d c) hA (isReal_disK A hA) hY r
  unfold h1K h1R z1K anorm ahat
  simp only [← disK_eq_dR]
  rw [hl]

theorem isReal_h1R (hA : ∀ i j, IsReal (A i j)) (hX : ∀ i j, IsReal (X i j)) (hW1 : ∀ i j, IsReal (W1 i j))
    (hb1 : ∀ i, IsReal (b1 i)) (r : Fin 4096) (c : Fin 64) : IsReal (h1R A X W1 b1 r c) := by
  have hd : ∀ i, IsReal (dR A i) := fun i => disK_eq_dR A i ▸ isReal_disK A hA i
  unfold h1R anorm ahat
  refine IsReal.max (IsReal.add (isReal_sum _ _ fun j _ => ?_) (hb1 c)) isReal_zero
  refine IsReal.mul (IsReal.mul (IsReal.mul (hd r) (IsReal.add (hA r j) ?_)) (hd j))
    (isReal_sum _ _ fun d _ => (hX j d).mul (hW1 d c))
  split_ifs
  · exact isReal_one
  · exact isReal_zero

theorem h2K_eq_h2R_of_isReal (hA : ∀ i j, IsReal (A i j)) (hX : ∀ i j, IsReal (X i j))
    (hW1 : ∀ i j, IsReal (W1 i j)) (hb1 : ∀ i, IsReal (b1 i)) (hW2 : ∀ i j, IsReal (W2 i j))
    (r : Fin 4096) (c : Fin 32) : h2K A X W1 b1 W2 b2 r c = h2R A X W1 b1 W2 b2 r c := by
  have hh : h1K A X W1 b1 = h1R A X W1 b1 := by
    funext i k; exact h1K_eq_h1R A X W1 b1 hA hX hW1 i k
  have hY : ∀ i, IsReal (∑ d, h1R A X W1 b1 i d * W2 d c) := fun i =>
    isReal_sum _ _ fun d _ => (isReal_h1R A X W1 b1 hA hX hW1 hb1 i d).mul (hW2 d c)
  have hl := layer A (disK A) (fun j => ∑ d, h1R A X W1 b1 j d * W2 d c) hA (isReal_disK A hA) hY r
  unfold h2K h2R z2K anorm ahat
  simp only [← disK_eq_dR, hh]
  rw [hl]

/-- Over real inputs the kernel form of the two layers is the reference form. -/
theorem h2K_eq_h2R (hA : ∀ i j, A i j ≠ ⊥ ∧ A i j ≠ ⊤) (hX : ∀ i j, X i j ≠ ⊥ ∧ X i j ≠ ⊤)
    (hW1 : ∀ i j, W1 i j ≠ ⊥ ∧ W1 i j ≠ ⊤) (hb1 : ∀ i, b1 i ≠ ⊥ ∧ b1 i ≠ ⊤)
    (hW2 : ∀ i j, W2 i j ≠ ⊥ ∧ W2 i j ≠ ⊤) (hb2 : ∀ i, b2 i ≠ ⊥ ∧ b2 i ≠ ⊤) :
    h2K A X W1 b1 W2 b2 = h2R A X W1 b1 W2 b2 := by
  funext r c
  exact h2K_eq_h2R_of_isReal A X W1 b1 W2 b2 (fun i j => isReal_of_ne (hA i j)) (fun i j => isReal_of_ne (hX i j))
    (fun i j => isReal_of_ne (hW1 i j)) (fun i => isReal_of_ne (hb1 i)) (fun i j => isReal_of_ne (hW2 i j)) r c

/-! ## The softmax -/

/-- The maximum against -∞ and the sum from 0 change nothing. -/
theorem smK_eq_smR (h : Fin 4096 → Fin 32 → EReal) : smK Ws bs h = smR Ws bs h := by
  funext r k
  unfold smK smR
  rw [max_bot_left, zero_add]

/-! ## The pooled product -/

/-- The rows as eight blocks of 512. -/
def rowEquiv : Fin 8 × Fin 512 ≃ Fin 4096 where
  toFun tp := rowOf tp.1 tp.2
  invFun r := (⟨r.val / 512, by omega⟩, ⟨r.val % 512, by omega⟩)
  left_inv := by
    rintro ⟨⟨t, ht⟩, ⟨p, hp⟩⟩
    simp only [rowOf, Prod.mk.injEq, Fin.mk.injEq]
    constructor <;> omega
  right_inv := by
    rintro ⟨r, hr⟩
    simp only [rowOf, Fin.mk.injEq]
    omega

/-- The sum over all rows is the sum of the eight blocks' contributions. -/
theorem poolR_eq_sum_contrib (S : Fin 4096 → Fin 64 → EReal) (h : Fin 4096 → Fin 32 → EReal) (k : Fin 64)
    (c : Fin 32) : poolR S h k c = ∑ t : Fin 8, contrib S h t k c := by
  unfold poolR contrib
  rw [← Equiv.sum_comp rowEquiv (fun r => S r k * h r c), Fintype.sum_prod_type]
  rfl

/-- Storing the first block and adding each later one accumulates the sum of the eight contributions. -/
theorem poolK_eq_poolR (S : Fin 4096 → Fin 64 → EReal) (h : Fin 4096 → Fin 32 → EReal) : poolK S h = poolR S h := by
  funext k c
  rw [poolR_eq_sum_contrib, Fin.sum_univ_eight]
  rfl

end Cert.Gcn

end
-- ==== Proof.GcnFinite.lean ====
/-
  From the claim's precondition to the finiteness of the inputs. The precondition says that, for each of the eight
  argument arrays, the conjunction over all entries x of |x| < +∞ holds; at the extended reals |x| = max x (-x), so
  each entry is neither -∞ nor +∞: it is a real number.
-/
import proofs.«122962_g11562051960852_week1_w4_899_2_alg».proof.Defs
import proofs.«122962_g11562051960852_week1_w4_899_2_alg».proof.Proof.Gen.Pre_finite_inputs
import Idealize.ShloMosaic.Lib.ReduceAll
import Idealize.ShloMosaic.Lib.ValueIdx

noncomputable section

namespace Cert.KernelIdeal.Fin

open Idealize.ShloMosaic Idealize.SL.Sem

/-- The shape of a scalar has one index. -/
instance : Subsingleton Cert.Pre_finite_inputs.S_.Idx := ⟨fun a b => funext fun d => d.elim0⟩

/-- The pattern 0x7F800000 (exponent all ones, significand zero, sign clear) denotes +∞. -/
theorem ofBits_inf : Ideal.ofBits .f32 0x7F800000#32 = (⊤ : EReal) := by
  simp [Ideal.ofBits, Ideal.ieee]

/-- |x| < +∞ says that x is a real number: at -∞ and at +∞ the larger of x and -x is +∞. -/
theorem ne_of_abs_lt_top {x : EReal} (h : Ideal.cmp .olt (max x (-x)) ⊤ = 1#1) : x ≠ ⊥ ∧ x ≠ ⊤ := by
  induction x using EReal.rec with
  | bot => simp [Ideal.cmp] at h
  | top => simp [Ideal.cmp] at h
  | coe r => exact ⟨EReal.coe_ne_bot r, EReal.coe_ne_top r⟩

/-- If the conjunction over a whole array of the tests |x| < +∞ is true, every entry is a real number. -/
theorem finite_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ValueIdx.ix0 = 1#1)
    (i : s.Idx) : (x i : EReal) ≠ ⊥ ∧ (x i : EReal) ≠ ⊤ := by
  have h := Host.reduce_andi_all _ init hr hu ValueIdx.ix0 e i
  apply ne_of_abs_lt_top
  rw [← ofBits_inf]
  exact h

variable (m : (ℓ : Loc Cert.KernelIdeal.nD Cert.KernelIdeal.τ Cert.KernelIdeal.sig) → Buf (Elt Ideal) ℓ)

/-- The precondition, one conjunct per argument array: every entry of every argument is a real number. -/
theorem finite_all (h : Cert.Pre_KernelIdeal m) (c : Dev Cert.KernelIdeal.nD) :
    (∀ i : Cert.KernelIdeal.S4096x128.Idx, @Ne EReal (m ((c.tc : Thread Cert.KernelIdeal.nD Cert.KernelIdeal.τ).loc Cert.KernelIdeal.main_arg0) i) ⊥ ∧ @Ne EReal (m ((c.tc : Thread Cert.KernelIdeal.nD Cert.KernelIdeal.τ).loc Cert.KernelIdeal.main_arg0) i) ⊤) ∧
    (∀ i : Cert.KernelIdeal.S4096x4096.Idx, @Ne EReal (m ((c.tc : Thread Cert.KernelIdeal.nD Cert.KernelIdeal.τ).loc Cert.KernelIdeal.main_arg1) i) ⊥ ∧ @Ne EReal (m ((c.tc : Thread Cert.KernelIdeal.nD Cert.KernelIdeal.τ).loc Cert.KernelIdeal.main_arg1) i) ⊤) ∧
    (∀ i : Cert.KernelIdeal.S128x64.Idx, @Ne EReal (m ((c.tc : Thread Cert.KernelIdeal.nD Cert.KernelIdeal.τ).loc Cert.KernelIdeal.main_arg2) i) ⊥ ∧ @Ne EReal (m ((c.tc : Thread Cert.KernelIdeal.nD Cert.KernelIdeal.τ).loc Cert.KernelIdeal.main_arg2) i) ⊤) ∧
    (∀ i : Cert.KernelIdeal.S64.Idx, @Ne EReal (m ((c.tc : Thread Cert.KernelIdeal.nD Cert.KernelIdeal.τ).loc Cert.KernelIdeal.main_arg3) i) ⊥ ∧ @Ne EReal (m ((c.tc : Thread Cert.KernelIdeal.nD Cert.KernelIdeal.τ).loc Cert.KernelIdeal.main_arg3) i) ⊤) ∧
    (∀ i : Cert.KernelIdeal.S64x32.Idx, @Ne EReal (m ((c.tc : Thread Cert.KernelIdeal.nD Cert.KernelIdeal.τ).loc Cert.KernelIdeal.main_arg4) i) ⊥ ∧ @Ne EReal (m ((c.tc : Thread Cert.KernelIdeal.nD Cert.KernelIdeal.τ).loc Cert.KernelIdeal.main_arg4) i) ⊤) ∧
    (∀ i : Cert.KernelIdeal.S32.Idx, @Ne EReal (m ((c.tc : Thread Cert.KernelIdeal.nD Cert.KernelIdeal.τ).loc Cert.KernelIdeal.main_arg5) i) ⊥ ∧ @Ne EReal (m ((c.tc : Thread Cert.KernelIdeal.nD Cert.KernelIdeal.τ).loc Cert.KernelIdeal.main_arg5) i) ⊤) ∧
    (∀ i : Cert.KernelIdeal.S32x64.Idx, @Ne EReal (m ((c.tc : Thread Cert.KernelIdeal.nD Cert.KernelIdeal.τ).loc Cert.KernelIdeal.main_arg6) i) ⊥ ∧ @Ne EReal (m ((c.tc : Thread Cert.KernelIdeal.nD Cert.KernelIdeal.τ).loc Cert.KernelIdeal.main_arg6) i) ⊤) ∧
    (∀ i : Cert.KernelIdeal.S64.Idx, @Ne EReal (m ((c.tc : Thread Cert.KernelIdeal.nD Cert.KernelIdeal.τ).loc Cert.KernelIdeal.main_arg7) i) ⊥ ∧ @Ne EReal (m ((c.tc : Thread Cert.KernelIdeal.nD Cert.KernelIdeal.τ).loc Cert.KernelIdeal.main_arg7) i) ⊤) := by
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨e0, e1⟩, e2⟩, e3⟩, e4⟩, e5⟩, e6⟩, e7⟩ := h0
  exact ⟨finite_of_all _ _ _ _ _ e0, finite_of_all _ _ _ _ _ e1, finite_of_all _ _ _ _ _ e2, finite_of_all _ _ _ _ _ e3,
    finite_of_all _ _ _ _ _ e4, finite_of_all _ _ _ _ _ e5, finite_of_all _ _ _ _ _ e6, finite_of_all _ _ _ _ _ e7⟩

theorem finite_arg0 (h : Cert.Pre_KernelIdeal m) (c : Dev Cert.KernelIdeal.nD) (i : Cert.KernelIdeal.S4096x128.Idx) :
    @Ne EReal (m ((c.tc : Thread Cert.KernelIdeal.nD Cert.KernelIdeal.τ).loc Cert.KernelIdeal.main_arg0) i) ⊥ ∧ @Ne EReal (m ((c.tc : Thread Cert.KernelIdeal.nD Cert.KernelIdeal.τ).loc Cert.KernelIdeal.main_arg0) i) ⊤ :=
  (finite_all m h c).1 i

theorem finite_arg1 (h : Cert.Pre_KernelIdeal m) (c : Dev Cert.KernelIdeal.nD) (i : Cert.KernelIdeal.S4096x4096.Idx) :
    @Ne EReal (m ((c.tc : Thread Cert.KernelIdeal.nD Cert.KernelIdeal.τ).loc Cert.KernelIdeal.main_arg1) i) ⊥ ∧ @Ne EReal (m ((c.tc : Thread Cert.KernelIdeal.nD Cert.KernelIdeal.τ).loc Cert.KernelIdeal.main_arg1) i) ⊤ :=
  (finite_all m h c).2.1 i

theorem finite_arg2 (h : Cert.Pre_KernelIdeal m) (c : Dev Cert.KernelIdeal.nD) (i : Cert.KernelIdeal.S128x64.Idx) :
    @Ne EReal (m ((c.tc : Thread Cert.KernelIdeal.nD Cert.KernelIdeal.τ).loc Cert.KernelIdeal.main_arg2) i) ⊥ ∧ @Ne EReal (m ((c.tc : Thread Cert.KernelIdeal.nD Cert.KernelIdeal.τ).loc Cert.KernelIdeal.main_arg2) i) ⊤ :=
  (finite_all m h c).2.2.1 i

theorem finite_arg3 (h : Cert.Pre_KernelIdeal m) (c : Dev Cert.KernelIdeal.nD) (i : Cert.KernelIdeal.S64.Idx) :
    @Ne EReal (m ((c.tc : Thread Cert.KernelIdeal.nD Cert.KernelIdeal.τ).loc Cert.KernelIdeal.main_arg3) i) ⊥ ∧ @Ne EReal (m ((c.tc : Thread Cert.KernelIdeal.nD Cert.KernelIdeal.τ).loc Cert.KernelIdeal.main_arg3) i) ⊤ :=
  (finite_all m h c).2.2.2.1 i

theorem finite_arg4 (h : Cert.Pre_KernelIdeal m) (c : Dev Cert.KernelIdeal.nD) (i : Cert.KernelIdeal.S64x32.Idx) :
    @Ne EReal (m ((c.tc : Thread Cert.KernelIdeal.nD Cert.KernelIdeal.τ).loc Cert.KernelIdeal.main_arg4) i) ⊥ ∧ @Ne EReal (m ((c.tc : Thread Cert.KernelIdeal.nD Cert.KernelIdeal.τ).loc Cert.KernelIdeal.main_arg4) i) ⊤ :=
  (finite_all m h c).2.2.2.2.1 i

theorem finite_arg5 (h : Cert.Pre_KernelIdeal m) (c : Dev Cert.KernelIdeal.nD) (i : Cert.KernelIdeal.S32.Idx) :
    @Ne EReal (m ((c.tc : Thread Cert.KernelIdeal.nD Cert.KernelIdeal.τ).loc Cert.KernelIdeal.main_arg5) i) ⊥ ∧ @Ne EReal (m ((c.tc : Thread Cert.KernelIdeal.nD Cert.KernelIdeal.τ).loc Cert.KernelIdeal.main_arg5) i) ⊤ :=
  (finite_all m h c).2.2.2.2.2.1 i

theorem finite_arg6 (h : Cert.Pre_KernelIdeal m) (c : Dev Cert.KernelIdeal.nD) (i : Cert.KernelIdeal.S32x64.Idx) :
    @Ne EReal (m ((c.tc : Thread Cert.KernelIdeal.nD Cert.KernelIdeal.τ).loc Cert.KernelIdeal.main_arg6) i) ⊥ ∧ @Ne EReal (m ((c.tc : Thread Cert.KernelIdeal.nD Cert.KernelIdeal.τ).loc Cert.KernelIdeal.main_arg6) i) ⊤ :=
  (finite_all m h c).2.2.2.2.2.2.1 i

theorem finite_arg7 (h : Cert.Pre_KernelIdeal m) (c : Dev Cert.KernelIdeal.nD) (i : Cert.KernelIdeal.S64.Idx) :
    @Ne EReal (m ((c.tc : Thread Cert.KernelIdeal.nD Cert.KernelIdeal.τ).loc Cert.KernelIdeal.main_arg7) i) ⊥ ∧ @Ne EReal (m ((c.tc : Thread Cert.KernelIdeal.nD Cert.KernelIdeal.τ).loc Cert.KernelIdeal.main_arg7) i) ⊤ :=
  (finite_all m h c).2.2.2.2.2.2.2 i

end Cert.KernelIdeal.Fin

end
-- ==== Proof.Bridge.lean ====
/-
  The two forms meet. On finite inputs the kernel form of the network (degree scalings riding on the narrow factors,
  the pooled product accumulated block by block) and the reference form (the normalized adjacency formed, one sum over
  all rows) are the same functions: the second layer by distributing the row scaling over the neighbour sum — legitimate
  because every intermediate value is a real number —, its softmax because a maximum against `-∞` and a sum from `0`
  change nothing, the pooled product because a sum over 4096 rows regroups into eight blocks of 512. So the reference's
  results, of a memory agreeing with the kernel's on the arguments, are the kernel-form functions of the kernel's
  arguments.
-/
import proofs.«122962_g11562051960852_week1_w4_899_2_alg».proof.Defs
import proofs.«122962_g11562051960852_week1_w4_899_2_alg».proof.Proof.RefRun
import proofs.«122962_g11562051960852_week1_w4_899_2_alg».proof.Proof.GcnAlgebra
import proofs.«122962_g11562051960852_week1_w4_899_2_alg».proof.Proof.GcnFinite
import Idealize.ShloMosaic.Lib.ValueIdx

noncomputable section
open scoped BigOperators
open Idealize.ShloMosaic Idealize.ShloMosaic.TcCoe Idealize.SL.Sem Idealize.ShloMosaic.ValueIdx

namespace Cert.Proof.Bridge

/-- Kernel form and reference form agree on finite inputs: the second layer, its softmax, their pooled product. -/
theorem forms_agree (A : Fin 4096 → Fin 4096 → EReal) (X : Fin 4096 → Fin 128 → EReal) (W1 : Fin 128 → Fin 64 → EReal)
    (b1 : Fin 64 → EReal) (W2 : Fin 64 → Fin 32 → EReal) (b2 : Fin 32 → EReal) (Ws : Fin 32 → Fin 64 → EReal) (bs : Fin 64 → EReal)
    (hA : ∀ i j, A i j ≠ ⊥ ∧ A i j ≠ ⊤) (hX : ∀ i j, X i j ≠ ⊥ ∧ X i j ≠ ⊤) (hW1 : ∀ i j, W1 i j ≠ ⊥ ∧ W1 i j ≠ ⊤)
    (hb1 : ∀ i, b1 i ≠ ⊥ ∧ b1 i ≠ ⊤) (hW2 : ∀ i j, W2 i j ≠ ⊥ ∧ W2 i j ≠ ⊤) (hb2 : ∀ i, b2 i ≠ ⊥ ∧ b2 i ≠ ⊤) :
    Cert.Gcn.poolR (Cert.Gcn.smR Ws bs (Cert.Gcn.h2R A X W1 b1 W2 b2)) (Cert.Gcn.h2R A X W1 b1 W2 b2)
        = Cert.Gcn.poolK (Cert.Gcn.smK Ws bs (Cert.Gcn.h2K A X W1 b1 W2 b2)) (Cert.Gcn.h2K A X W1 b1 W2 b2)
      ∧ Cert.Gcn.smR Ws bs (Cert.Gcn.h2R A X W1 b1 W2 b2) = Cert.Gcn.smK Ws bs (Cert.Gcn.h2K A X W1 b1 W2 b2) := by
  rw [← Cert.Gcn.h2K_eq_h2R A X W1 b1 W2 b2 hA hX hW1 hb1 hW2 hb2, ← Cert.Gcn.smK_eq_smR, Cert.Gcn.poolK_eq_poolR]
  exact ⟨rfl, rfl⟩

open Cert.ReferenceIdeal.RefValue in
/-- The reference's two results, of a memory that agrees with the kernel's on the arguments, are the kernel-form
    functions of the kernel's arguments, when those are finite. -/
theorem results_agree (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    poolOf m' c = Cert.Gcn.poolK
        (Cert.Gcn.smK (cur2 (m ((c.tc : Thread Cert.KernelIdeal.nD Cert.KernelIdeal.τ).loc Cert.KernelIdeal.main_arg6))) (cur1 (m ((c.tc : Thread Cert.KernelIdeal.nD Cert.KernelIdeal.τ).loc Cert.KernelIdeal.main_arg7)))
          (Cert.Gcn.h2K (cur2 (m ((c.tc : Thread Cert.KernelIdeal.nD Cert.KernelIdeal.τ).loc Cert.KernelIdeal.main_arg1))) (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4))) (cur1 (m ((c.tc : Thread Cert.KernelIdeal.nD Cert.KernelIdeal.τ).loc Cert.KernelIdeal.main_arg5)))))
        (Cert.Gcn.h2K (cur2 (m ((c.tc : Thread Cert.KernelIdeal.nD Cert.KernelIdeal.τ).loc Cert.KernelIdeal.main_arg1))) (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4))) (cur1 (m ((c.tc : Thread Cert.KernelIdeal.nD Cert.KernelIdeal.τ).loc Cert.KernelIdeal.main_arg5))))
      ∧ sOf m' c = Cert.Gcn.smK (cur2 (m ((c.tc : Thread Cert.KernelIdeal.nD Cert.KernelIdeal.τ).loc Cert.KernelIdeal.main_arg6))) (cur1 (m ((c.tc : Thread Cert.KernelIdeal.nD Cert.KernelIdeal.τ).loc Cert.KernelIdeal.main_arg7)))
          (Cert.Gcn.h2K (cur2 (m ((c.tc : Thread Cert.KernelIdeal.nD Cert.KernelIdeal.τ).loc Cert.KernelIdeal.main_arg1))) (cur2 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4))) (cur1 (m ((c.tc : Thread Cert.KernelIdeal.nD Cert.KernelIdeal.τ).loc Cert.KernelIdeal.main_arg5)))) := by
  dsimp only [poolOf, sOf, h2Of]
  rw [h0, h1, h2, h3, h4, h5, h6, h7]
  exact forms_agree _ _ _ _ _ _ _ _
    (fun i j => Cert.KernelIdeal.Fin.finite_arg1 m hpre c (ix2 i j))
    (fun i j => Cert.KernelIdeal.Fin.finite_arg0 m hpre c (ix2 i j))
    (fun i j => Cert.KernelIdeal.Fin.finite_arg2 m hpre c (ix2 i j))
    (fun i => Cert.KernelIdeal.Fin.finite_arg3 m hpre c (ix1 i))
    (fun i j => Cert.KernelIdeal.Fin.finite_arg4 m hpre c (ix2 i j))
    (fun i => Cert.KernelIdeal.Fin.finite_arg5 m hpre c (ix1 i))

end Cert.Proof.Bridge
end
-- ==== Proof.lean ====
/-
  The certificate of the three-pass graph-convolution and pooling kernel against its jnp reference.

  The kernel never forms the normalized adjacency `D^{-1/2} (A + I) D^{-1/2}`: pass A computes the inverse square-root
  degrees `dis` and the pre-scaled factor `dis · (X W1)`; passes B and C each apply
  `max (dis · (A Z + Z) + b) 0` to the previous factor, pass C ending in the row softmax of `H2 Ws + bs` and the pooled
  product `Sᵀ H2` accumulated over the eight row blocks. The reference forms the normalized adjacency and multiplies.
  Over the extended reals, on finite inputs, the two are the same functions of the arguments (Proof/GcnAlgebra.lean).

  Frames: the word-level and the idealized kernel each run through their host stretch and three pipelined regions with
  the arguments unchanged (Proof/KRun.lean, Proof/KIRun.lean); the reference's run is its generated run. The
  idealization rewrote nothing, so `preserves` is trivial. `algebraic`: the idealized kernel's run read back as the
  kernel-form functions (Proof/KIWhole.lean), the reference's as the reference-form functions (Proof/RefRun.lean), and
  the two forms agree on arguments that agree and are finite (Proof/Bridge.lean).
-/
import proofs.«122962_g11562051960852_week1_w4_899_2_alg».proof.Defs
import proofs.«122962_g11562051960852_week1_w4_899_2_alg».proof.Proof.Gen.Kernel
import proofs.«122962_g11562051960852_week1_w4_899_2_alg».proof.Proof.Gen.KernelIdeal
import proofs.«122962_g11562051960852_week1_w4_899_2_alg».proof.Proof.Gen.ReferenceIdeal
import proofs.«122962_g11562051960852_week1_w4_899_2_alg».proof.Proof.Gen.ReferenceIdeal.Run
import proofs.«122962_g11562051960852_week1_w4_899_2_alg».proof.Proof.Gen.ReferenceIdeal.Read
import proofs.«122962_g11562051960852_week1_w4_899_2_alg».proof.Proof.Gen.Pre_finite_inputs
import proofs.«122962_g11562051960852_week1_w4_899_2_alg».proof.Proof.KFrames
import proofs.«122962_g11562051960852_week1_w4_899_2_alg».proof.Proof.RefRun
import proofs.«122962_g11562051960852_week1_w4_899_2_alg».proof.Proof.KIWhole
import proofs.«122962_g11562051960852_week1_w4_899_2_alg».proof.Proof.Bridge

noncomputable section

namespace Cert.Proof

open Idealize.ShloMosaic Idealize.SL.Sem

/-- The idealized kernel and the idealized reference, run from memories that agree on the arguments, end with equal
    results: both at the kernel-form pooled product and softmax of the kernel's (finite) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i : Cert.KernelIdeal.S64x32.Idx =>
            Cert.Gcn.poolK (Cert.KernelIdeal.Whole.SK m c) (Cert.KernelIdeal.Whole.HK m c) (i 0) (i 1)),
          fun c => (fun i : Cert.KernelIdeal.S4096x64.Idx => Cert.KernelIdeal.Whole.SK m c (i 0) (i 1)),
          Cert.KernelIdeal.Whole.kernel_run m ρ, ?_⟩
  refine (θ_run Cert.ReferenceIdeal.defs _ _).mono (fun r h c => ?_) (Cert.ReferenceIdeal.RefValue.ref_run m' ρ')
  obtain ⟨h0, h1, h2, h3, h4, h5, h6, h7⟩ := hagree c
  obtain ⟨ep, es⟩ := Cert.Proof.Bridge.results_agree m hpre m' c h0 h1 h2 h3 h4 h5 h6 h7
  refine ⟨(h c).1.trans ?_, (h c).2.1.trans ?_, (h c).2.2⟩
  · rw [ep]; rfl
  · rw [es]; rfl

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.ReferenceIdeal.RefValue.frame_ri, trivial, algebraic⟩

end Cert.Proof

end
